-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x48x48x768 : Shape := ⟨4, ![4, 48, 48, 768]⟩
abbrev S2304x48 : Shape := ⟨2, ![2304, 48]⟩
abbrev S384x768 : Shape := ⟨2, ![384, 768]⟩
abbrev S384 : Shape := ⟨1, ![384]⟩
abbrev S768x384 : Shape := ⟨2, ![768, 384]⟩
abbrev S768 : Shape := ⟨1, ![768]⟩
abbrev S_ : Shape := ⟨0, ![]⟩

class Facts : Prop where
  bcast_S_S4x48x48x768 : S_.BroadcastsInDim S4x48x48x768 (![] : Fin 0 → Fin S4x48x48x768.rank)
  reducesTo_S4x48x48x768_S_d0_1_2_3 : S4x48x48x768.ReducesTo [0, 1, 2, 3] S_
  h_S_ : 0 < S_.numel
  bcast_S_S2304x48 : S_.BroadcastsInDim S2304x48 (![] : Fin 0 → Fin S2304x48.rank)
  reducesTo_S2304x48_S_d0_1 : S2304x48.ReducesTo [0, 1] S_
  bcast_S_S384x768 : S_.BroadcastsInDim S384x768 (![] : Fin 0 → Fin S384x768.rank)
  reducesTo_S384x768_S_d0_1 : S384x768.ReducesTo [0, 1] S_
  bcast_S_S384 : S_.BroadcastsInDim S384 (![] : Fin 0 → Fin S384.rank)
  reducesTo_S384_S_d0 : S384.ReducesTo [0] S_
  bcast_S_S768x384 : S_.BroadcastsInDim S768x384 (![] : Fin 0 → Fin S768x384.rank)
  reducesTo_S768x384_S_d0_1 : S768x384.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S384 .f32) (main_arg8 : FVec F S768x384 .f32) (main_arg9 : FVec F S768 .f32) (main_v33 : IVec S_ 1) : IVec S_ 1 :=
  let main_v34 : FVec F S384 .f32 := Host.absf main_arg7
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S768x384 .f32 := Host.absf main_arg8
  let main_cst_14 : FVec F S_ .f32 := constant S_ .f32 0x7F800000#32
  let main_v40 : FVec F S768x384 .f32 := broadcastInDim S768x384 ![] bcast_S_S768x384 main_cst_14
  let main_v41 : IVec S768x384 1 := cmpf .olt main_v39 main_v40
  let main_c_15 : IVec S_ 1 := constantI S_ 1 1#1
  let main_v42 : IVec S_ 1 := (fun x v => Host.reduce IntOp.andi x v reducesTo_S768x384_S_d0_1 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  main_v48

def fn_part1 {F : FTy → Type} [FloatOps F] (main_arg4 : FVec F S384x768 .f32) (main_arg5 : FVec F S384x768 .f32) (main_arg6 : FVec F S384 .f32) (main_arg7 : FVec F S384 .f32) (main_arg8 : FVec F S768x384 .f32) (main_arg9 : FVec F S768 .f32) (main_v13 : IVec S_ 1) (main_v16 : IVec S384x768 1) : IVec S_ 1 :=
  let main_c_5 : IVec S_ 1 := constantI S_ 1 1#1
  let main_v17 : IVec S_ 1 := (fun x v => Host.reduce IntOp.andi x v reducesTo_S384x768_S_d0_1 h_S_) main_v16 main_c_5
  let main_v18 : IVec S_ 1 := andi main_v13 main_v17
  let main_v19 : FVec F S384x768 .f32 := Host.absf main_arg4
  let main_cst_6 : FVec F S_ .f32 := constant S_ .f32 0x7F800000#32
  let main_v20 : FVec F S384x768 .f32 := broadcastInDim S384x768 ![] bcast_S_S384x768 main_cst_6
  let main_v21 : IVec S384x768 1 := cmpf .olt main_v19 main_v20
  let main_c_7 : IVec S_ 1 := constantI S_ 1 1#1
  let main_v22 : IVec S_ 1 := (fun x v => Host.reduce IntOp.andi x v reducesTo_S384x768_S_d0_1 h_S_) main_v21 main_c_7
  let main_v23 : IVec S_ 1 := andi main_v18 main_v22
  let main_v24 : FVec F S384x768 .f32 := Host.absf main_arg5
  let main_cst_8 : FVec F S_ .f32 := constant S_ .f32 0x7F800000#32
  let main_v25 : FVec F S384x768 .f32 := broadcastInDim S384x768 ![] bcast_S_S384x768 main_cst_8
  let main_v26 : IVec S384x768 1 := cmpf .olt main_v24 main_v25
  let main_c_9 : IVec S_ 1 := constantI S_ 1 1#1
  let main_v27 : IVec S_ 1 := (fun x v => Host.reduce IntOp.andi x v reducesTo_S384x768_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_arg9 main_v33

def fn {F : FTy → Type} [FloatOps F] (main_arg0 : FVec F S4x48x48x768 .f32) (main_arg1 : FVec F S2304x48 .f32) (main_arg2 : FVec F S2304x48 .f32) (main_arg3 : FVec F S384x768 .f32) (main_arg4 : FVec F S384x768 .f32) (main_arg5 : FVec F S384x768 .f32) (main_arg6 : FVec F S384 .f32) (main_arg7 : FVec F S384 .f32) (main_arg8 : FVec F S768x384 .f32) (main_arg9 : FVec F S768 .f32) : IVec S_ 1 :=
  let main_v0 : FVec F S4x48x48x768 .f32 := Host.absf main_arg0
  let main_cst : FVec F S_ .f32 := constant S_ .f32 0x7F800000#32
  let main_v1 : FVec F S4x48x48x768 .f32 := broadcastInDim S4x48x48x768 ![] bcast_S_S4x48x48x768 main_cst
  let main_v2 : IVec S4x48x48x768 1 := cmpf .olt main_v0 main_v1
  let main_c : IVec S_ 1 := constantI S_ 1 1#1
  let main_v3 : IVec S_ 1 := (fun x v => Host.reduce IntOp.andi x v reducesTo_S4x48x48x768_S_d0_1_2_3 h_S_) main_v2 main_c
  let main_v4 : FVec F S2304x48 .f32 := Host.absf main_arg1
  let main_cst_0 : FVec F S_ .f32 := constant S_ .f32 0x7F800000#32
  let main_v5 : FVec F S2304x48 .f32 := broadcastInDim S2304x48 ![] bcast_S_S2304x48 main_cst_0
  let main_v6 : IVec S2304x48 1 := cmpf .olt main_v4 main_v5
  let main_c_1 : IVec S_ 1 := constantI S_ 1 1#1
  let main_v7 : IVec S_ 1 := (fun x v => Host.reduce IntOp.andi x v reducesTo_S2304x48_S_d0_1 h_S_) main_v6 main_c_1
  let main_v8 : IVec S_ 1 := andi main_v3 main_v7
  let main_v9 : FVec F S2304x48 .f32 := Host.absf main_arg2
  let main_cst_2 : FVec F S_ .f32 := constant S_ .f32 0x7F800000#32
  let main_v10 : FVec F S2304x48 .f32 := broadcastInDim S2304x48 ![] bcast_S_S2304x48 main_cst_2
  let main_v11 : IVec S2304x48 1 := cmpf .olt main_v9 main_v10
  let main_c_3 : IVec S_ 1 := constantI S_ 1 1#1
  let main_v12 : IVec S_ 1 := (fun x v => Host.reduce IntOp.andi x v reducesTo_S2304x48_S_d0_1 h_S_) main_v11 main_c_3
  let main_v13 : IVec S_ 1 := andi main_v8 main_v12
  let main_v14 : FVec F S384x768 .f32 := Host.absf main_arg3
  let main_cst_4 : FVec F S_ .f32 := constant S_ .f32 0x7F800000#32
  let main_v15 : FVec F S384x768 .f32 := broadcastInDim S384x768 ![] bcast_S_S384x768 main_cst_4
  let main_v16 : IVec S384x768 1 := cmpf .olt main_v14 main_v15
  fn_part1 (F := F) main_arg4 main_arg5 main_arg6 main_arg7 main_arg8 main_arg9 main_v13 main_v16
-- ==== Kernel.lean ====
abbrev S4x48x48x768 : Shape := ⟨4, ![4, 48, 48, 768]⟩
abbrev S2304x48 : Shape := ⟨2, ![2304, 48]⟩
abbrev S384x768 : Shape := ⟨2, ![384, 768]⟩
abbrev S384 : Shape := ⟨1, ![384]⟩
abbrev S768x384 : Shape := ⟨2, ![768, 384]⟩
abbrev S768 : Shape := ⟨1, ![768]⟩
abbrev S4x2304x768 : Shape := ⟨3, ![4, 2304, 768]⟩
abbrev S1x384 : Shape := ⟨2, ![1, 384]⟩
abbrev S4x8x2304x48 : Shape := ⟨4, ![4, 8, 2304, 48]⟩
abbrev S1x768x768 : Shape := ⟨3, ![1, 768, 768]⟩
abbrev S768x48 : Shape := ⟨2, ![768, 48]⟩
abbrev S1x8x768x48 : Shape := ⟨4, ![1, 8, 768, 48]⟩
abbrev S768x768 : Shape := ⟨2, ![768, 768]⟩
abbrev S768x24 : Shape := ⟨2, ![768, 24]⟩
abbrev S1x1x768x48 : Shape := ⟨4, ![1, 1, 768, 48]⟩
abbrev S1x1x2304x48 : Shape := ⟨4, ![1, 1, 2304, 48]⟩
abbrev S768x2304 : Shape := ⟨2, ![768, 2304]⟩
abbrev S768x1 : Shape := ⟨2, ![768, 1]⟩
abbrev S1x768 : Shape := ⟨2, ![1, 768]⟩

abbrev nBuf : Space → Nat
  | .hbm => 24
  | .vmem => 31
  | .smem => 0
  | _ => 0

abbrev bufTy : (tb : Table) → Fin (tcTables nBuf tb) → BufTy
  | .hbm, ⟨0, _⟩ => ⟨S4x48x48x768, .f32⟩
  | .hbm, ⟨1, _⟩ => ⟨S2304x48, .f32⟩
  | .hbm, ⟨2, _⟩ => ⟨S2304x48, .f32⟩
  | .hbm, ⟨3, _⟩ => ⟨S384x768, .f32⟩
  | .hbm, ⟨4, _⟩ => ⟨S384x768, .f32⟩
  | .hbm, ⟨5, _⟩ => ⟨S384x768, .f32⟩
  | .hbm, ⟨6, _⟩ => ⟨S384, .f32⟩
  | .hbm, ⟨7, _⟩ => ⟨S384, .f32⟩
  | .hbm, ⟨8, _⟩ => ⟨S768x384, .f32⟩
  | .hbm, ⟨9, _⟩ => ⟨S768, .f32⟩
  | .hbm, ⟨10, _⟩ => ⟨S4x2304x768, .f32⟩
  | .hbm, ⟨11, _⟩ => ⟨S768x384, .f32⟩
  | .hbm, ⟨12, _⟩ => ⟨S768x384, .f32⟩
  | .hbm, ⟨13, _⟩ => ⟨S768x384, .f32⟩
  | .hbm, ⟨14, _⟩ => ⟨S1x384, .f32⟩
  | .hbm, ⟨15, _⟩ => ⟨S1x384, .f32⟩
  | .hbm, ⟨16, _⟩ => ⟨S4x8x2304x48, .bf16⟩
  | .hbm, ⟨17, _⟩ => ⟨S4x8x2304x48, .bf16⟩
  | .hbm, ⟨18, _⟩ => ⟨S4x8x2304x48, .bf16⟩
  | .hbm, ⟨19, _⟩ => ⟨S4x8x2304x48, .bf16⟩
  | .hbm, ⟨20, _⟩ => ⟨S384x768, .f32⟩
  | .hbm, ⟨21, _⟩ => ⟨S1x768, .f32⟩
  | .hbm, ⟨22, _⟩ => ⟨S4x2304x768, .f32⟩
  | .hbm, ⟨23, _⟩ => ⟨S4x48x48x768, .f32⟩
  | .local _ .vmem, ⟨0, _⟩ => ⟨S1x768x768, .f32⟩
  | .local _ .vmem, ⟨1, _⟩ => ⟨S1x768x768, .f32⟩
  | .local _ .vmem, ⟨2, _⟩ => ⟨S768x384, .f32⟩
  | .local _ .vmem, ⟨3, _⟩ => ⟨S768x384, .f32⟩
  | .local _ .vmem, ⟨4, _⟩ => ⟨S768x384, .f32⟩
  | .local _ .vmem, ⟨5, _⟩ => ⟨S1x384, .f32⟩
  | .local _ .vmem, ⟨6, _⟩ => ⟨S1x384, .f32⟩
  | .local _ .vmem, ⟨7, _⟩ => ⟨S768x48, .f32⟩
  | .local _ .vmem, ⟨8, _⟩ => ⟨S768x48, .f32⟩
  | .local _ .vmem, ⟨9, _⟩ => ⟨S768x48, .f32⟩
  | .local _ .vmem, ⟨10, _⟩ => ⟨S768x48, .f32⟩
  | .local _ .vmem, ⟨11, _⟩ => ⟨S1x8x768x48, .bf16⟩
  | .local _ .vmem, ⟨12, _⟩ => ⟨S1x8x768x48, .bf16⟩
  | .local _ .vmem, ⟨13, _⟩ => ⟨S1x8x768x48, .bf16⟩
  | .local _ .vmem, ⟨14, _⟩ => ⟨S1x8x768x48, .bf16⟩
  | .local _ .vmem, ⟨15, _⟩ => ⟨S1x8x768x48, .bf16⟩
  | .local _ .vmem, ⟨16, _⟩ => ⟨S1x8x768x48, .bf16⟩
  | .local _ .vmem, ⟨17, _⟩ => ⟨S1x1x768x48, .bf16⟩
  | .local _ .vmem, ⟨18, _⟩ => ⟨S1x1x768x48, .bf16⟩
  | .local _ .vmem, ⟨19, _⟩ => ⟨S1x1x2304x48, .bf16⟩
  | .local _ .vmem, ⟨20, _⟩ => ⟨S1x1x2304x48, .bf16⟩
  | .local _ .vmem, ⟨21, _⟩ => ⟨S1x1x2304x48, .bf16⟩
  | .local _ .vmem, ⟨22, _⟩ => ⟨S1x1x2304x48, .bf16⟩
  | .local _ .vmem, ⟨23, _⟩ => ⟨S1x1x768x48, .bf16⟩
  | .local _ .vmem, ⟨24, _⟩ => ⟨S1x1x768x48, .bf16⟩
  | .local _ .vmem, ⟨25, _⟩ => ⟨S1x8x768x48, .bf16⟩
  | .local _ .vmem, ⟨26, _⟩ => ⟨S1x8x768x48, .bf16⟩
  | .local _ .vmem, ⟨27, _⟩ => ⟨S384x768, .f32⟩
  | .local _ .vmem, ⟨28, _⟩ => ⟨S1x768, .f32⟩
  | .local _ .vmem, ⟨29, _⟩ => ⟨S1x768x768, .f32⟩
  | .local _ .vmem, ⟨30, _⟩ => ⟨S1x768x768, .f32⟩
  | _, _ => ⟨S4x48x48x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg3_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem3_1 : DmaSem sig := 30

abbrev nD : Nat := 1
abbrev τ : Topo := Topo.v7x

variable {F : FTy → Type} [FloatOps F]

abbrev grid0 : Pipeline.Grid := ⟨2, ![4, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x768x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S768x48 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S768x48 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x8x768x48 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x768x48 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x768x48 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨3, ![4, 8, 3], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x768x48 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2304x48 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2304x48 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x768x48 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![4, 3], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x8x768x48 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S384x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x768x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x48x48x768_S4x2304x768 : S4x48x48x768.ShapeCasts S4x2304x768
  transposes_S384x768_S768x384_1_0 : S384x768.Transposes [1, 0] S768x384
  shapeCasts_S384_S1x384 : S384.ShapeCasts S1x384
  inb_S1x768x768_S1x768x768_0_0_0 : ∀ a, (![0, 0, 0] : Fin 3 → Nat) a + S1x768x768.size a ≤ S1x768x768.size a
  h_S1x768x768 : 0 < S1x768x768.numel
  shapeCasts_S1x768x768_S768x768 : S1x768x768.ShapeCasts S768x768
  bitsLt_bf16_f32 : FTy.bits .bf16 < FTy.bits .f32
  inb_S768x384_S768x384_0_0 : ∀ a, (![0, 0] : Fin 2 → Nat) a + S768x384.size a ≤ S768x384.size a
  h_S768x384 : 0 < S768x384.numel
  shapeCasts_S768x384_S768x384 : S768x384.ShapeCasts S768x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S768x384 : S1x384.Broadcasts S768x384
  inb_S768x48_S768x48_0_0 : ∀ a, (![0, 0] : Fin 2 → Nat) a + S768x48.size a ≤ S768x48.size a
  h_S768x48 : 0 < S768x48.numel
  slices_S768x384_o0_0_S768x48 : S768x384.Slices ![0, 0] S768x48
  slices_S768x48_o0_0_S768x24 : S768x48.Slices ![0, 0] S768x24
  slices_S768x48_o0_24_S768x24 : S768x48.Slices ![0, 24] S768x24
  concatenates_S768x24_S768x24_S768x48_d1 : Shape.Concatenates [S768x24, S768x24] S768x48 1
  inb_S1x8x768x48_S1x1x768x48_0_0_0_0 : ∀ a, (![0, 0, 0, 0] : Fin 4 → Nat) a + S1x1x768x48.size a ≤ S1x8x768x48.size a
  h_S1x1x768x48 : 0 < S1x1x768x48.numel
  shapeCasts_S1x1x768x48_S768x48 : S1x1x768x48.ShapeCasts S768x48
  shapeCasts_S768x48_S1x1x768x48 : S768x48.ShapeCasts S1x1x768x48
  packedbf16_S1x8x768x48_S1x1x768x48_0_0_0_0 : (Rect.unit (s := S1x8x768x48) ![0, 0, 0, 0] S1x1x768x48.size inb_S1x8x768x48_S1x1x768x48_0_0_0_0).PackedRows (EltTy.packing .bf16)
  slices_S768x384_o0_48_S768x48 : S768x384.Slices ![0, 48] S768x48
  inb_S1x8x768x48_S1x1x768x48_0_1_0_0 : ∀ a, (![0, 1, 0, 0] : Fin 4 → Nat) a + S1x1x768x48.size a ≤ S1x8x768x48.size a
  packedbf16_S1x8x768x48_S1x1x768x48_0_1_0_0 : (Rect.unit (s := S1x8x768x48) ![0, 1, 0, 0] S1x1x768x48.size inb_S1x8x768x48_S1x1x768x48_0_1_0_0).PackedRows (EltTy.packing .bf16)
  slices_S768x384_o0_96_S768x48 : S768x384.Slices ![0, 96] S768x48
  inb_S1x8x768x48_S1x1x768x48_0_2_0_0 : ∀ a, (![0, 2, 0, 0] : Fin 4 → Nat) a + S1x1x768x48.size a ≤ S1x8x768x48.size a
  packedbf16_S1x8x768x48_S1x1x768x48_0_2_0_0 : (Rect.unit (s := S1x8x768x48) ![0, 2, 0, 0] S1x1x768x48.size inb_S1x8x768x48_S1x1x768x48_0_2_0_0).PackedRows (EltTy.packing .bf16)
  slices_S768x384_o0_144_S768x48 : S768x384.Slices ![0, 144] S768x48
  inb_S1x8x768x48_S1x1x768x48_0_3_0_0 : ∀ a, (![0, 3, 0, 0] : Fin 4 → Nat) a + S1x1x768x48.size a ≤ S1x8x768x48.size a
  packedbf16_S1x8x768x48_S1x1x768x48_0_3_0_0 : (Rect.unit (s := S1x8x768x48) ![0, 3, 0, 0] S1x1x768x48.size inb_S1x8x768x48_S1x1x768x48_0_3_0_0).PackedRows (EltTy.packing .bf16)
  slices_S768x384_o0_192_S768x48 : S768x384.Slices ![0, 192] S768x48
  inb_S1x8x768x48_S1x1x768x48_0_4_0_0 : ∀ a, (![0, 4, 0, 0] : Fin 4 → Nat) a + S1x1x768x48.size a ≤ S1x8x768x48.size a
  packedbf16_S1x8x768x48_S1x1x768x48_0_4_0_0 : (Rect.unit (s := S1x8x768x48) ![0, 4, 0, 0] S1x1x768x48.size inb_S1x8x768x48_S1x1x768x48_0_4_0_0).PackedRows (EltTy.packing .bf16)
  slices_S768x384_o0_240_S768x48 : S768x384.Slices ![0, 240] S768x48
  inb_S1x8x768x48_S1x1x768x48_0_5_0_0 : ∀ a, (![0, 5, 0, 0] : Fin 4 → Nat) a + S1x1x768x48.size a ≤ S1x8x768x48.size a
  packedbf16_S1x8x768x48_S1x1x768x48_0_5_0_0 : (Rect.unit (s := S1x8x768x48) ![0, 5, 0, 0] S1x1x768x48.size inb_S1x8x768x48_S1x1x768x48_0_5_0_0).PackedRows (EltTy.packing .bf16)
  slices_S768x384_o0_288_S768x48 : S768x384.Slices ![0, 288] S768x48
  inb_S1x8x768x48_S1x1x768x48_0_6_0_0 : ∀ a, (![0, 6, 0, 0] : Fin 4 → Nat) a + S1x1x768x48.size a ≤ S1x8x768x48.size a
  packedbf16_S1x8x768x48_S1x1x768x48_0_6_0_0 : (Rect.unit (s := S1x8x768x48) ![0, 6, 0, 0] S1x1x768x48.size inb_S1x8x768x48_S1x1x768x48_0_6_0_0).PackedRows (EltTy.packing .bf16)
  slices_S768x384_o0_336_S768x48 : S768x384.Slices ![0, 336] S768x48
  inb_S1x8x768x48_S1x1x768x48_0_7_0_0 : ∀ a, (![0, 7, 0, 0] : Fin 4 → Nat) a + S1x1x768x48.size a ≤ S1x8x768x48.size a
  packedbf16_S1x8x768x48_S1x1x768x48_0_7_0_0 : (Rect.unit (s := S1x8x768x48) ![0, 7, 0, 0] S1x1x768x48.size inb_S1x8x768x48_S1x1x768x48_0_7_0_0).PackedRows (EltTy.packing .bf16)
  inb_S1x1x768x48_S1x1x768x48_0_0_0_0 : ∀ a, (![0, 0, 0, 0] : Fin 4 → Nat) a + S1x1x768x48.size a ≤ S1x1x768x48.size a
  inb_S1x1x2304x48_S1x1x2304x48_0_0_0_0 : ∀ a, (![0, 0, 0, 0] : Fin 4 → Nat) a + S1x1x2304x48.size a ≤ S1x1x2304x48.size a
  h_S1x1x2304x48 : 0 < S1x1x2304x48.numel
  shapeCasts_S1x1x2304x48_S2304x48 : S1x1x2304x48.ShapeCasts S2304x48
  reduces_S768x2304_S768 : S768x2304.Reduces [1] S768
  shapeCasts_S768_S768x1 : S768.ShapeCasts S768x1
  broadcasts_S768x1_S768x2304 : S768x1.Broadcasts S768x2304
  broadcasts_S768x1_S768x48 : S768x1.Broadcasts S768x48
  packedbf16_S1x1x768x48_S1x1x768x48_0_0_0_0 : (Rect.unit (s := S1x1x768x48) ![0, 0, 0, 0] S1x1x768x48.size inb_S1x1x768x48_S1x1x768x48_0_0_0_0).PackedRows (EltTy.packing .bf16)
  transposes_S768x384_S384x768_1_0 : S768x384.Transposes [1, 0] S384x768
  shapeCasts_S768_S1x768 : S768.ShapeCasts S1x768
  concatenates_S768x48_S768x48_S768x48_S768x48_S768x48_S768x48_S768x48_S768x48_S768x384_d1 : Shape.Concatenates [S768x48, S768x48, S768x48, S768x48, S768x48, S768x48, S768x48, S768x48] S768x384 1
  inb_S384x768_S384x768_0_0 : ∀ a, (![0, 0] : Fin 2 → Nat) a + S384x768.size a ≤ S384x768.size a
  h_S384x768 : 0 < S384x768.numel
  shapeCasts_S384x768_S384x768 : S384x768.ShapeCasts S384x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S768x768 : S1x768.Broadcasts S768x768
  shapeCasts_S768x768_S1x768x768 : S768x768.ShapeCasts S1x768x768
  shapeCasts_S4x2304x768_S4x48x48x768 : S4x2304x768.ShapeCasts S4x48x48x768
  dot_S768x768_S768x384_S768x384_1_0_0_1_n_n_wf : DotDims.WF S768x768 S768x384 S768x384 [1] [0] [0] [1] [] []
  dot_S768x48_S2304x48_S768x2304_1_1_0_0_n_n_wf : DotDims.WF S768x48 S2304x48 S768x2304 [1] [1] [0] [0] [] []
  dot_S768x2304_S2304x48_S768x48_1_0_0_1_n_n_wf : DotDims.WF S768x2304 S2304x48 S768x48 [1] [0] [0] [1] [] []
  dot_S768x384_S384x768_S768x768_1_0_0_1_n_n_wf : DotDims.WF S768x384 S384x768 S768x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x768.size a ≤ S4x2304x768.size a
  hwx0_0 : ∀ i : grid0.Coords, EltTy.bits .f32 = 32 ∨ (Rect.block (s := S4x2304x768) S1x768x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x384.size a ≤ S768x384.size a
  hwx0_1 : ∀ i : grid0.Coords, EltTy.bits .f32 = 32 ∨ (Rect.block (s := S768x384) S768x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x384.size a ≤ S768x384.size a
  hwx0_2 : ∀ i : grid0.Coords, EltTy.bits .f32 = 32 ∨ (Rect.block (s := S768x384) S768x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x384.size a ≤ S768x384.size a
  hwx0_3 : ∀ i : grid0.Coords, EltTy.bits .f32 = 32 ∨ (Rect.block (s := S768x384) S768x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S768x48.size a ≤ S2304x48.size a
  hwx0_6 : ∀ i : grid0.Coords, EltTy.bits .f32 = 32 ∨ (Rect.block (s := S2304x48) S768x48.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S768x48.size a ≤ S2304x48.size a
  hwx0_7 : ∀ i : grid0.Coords, EltTy.bits .f32 = 32 ∨ (Rect.block (s := S2304x48) S768x48.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x768x48.size a ≤ S4x8x2304x48.size a
  hwx0_8 : ∀ i : grid0.Coords, EltTy.bits .bf16 = 32 ∨ (Rect.block (s := S4x8x2304x48) S1x8x768x48.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x768x48.size a ≤ S4x8x2304x48.size a
  hwx0_9 : ∀ i : grid0.Coords, EltTy.bits .bf16 = 32 ∨ (Rect.block (s := S4x8x2304x48) S1x8x768x48.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x8x768x48.size a ≤ S4x8x2304x48.size a
  hwx0_10 : ∀ i : grid0.Coords, EltTy.bits .bf16 = 32 ∨ (Rect.block (s := S4x8x2304x48) S1x8x768x48.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x768x48.size a ≤ S4x8x2304x48.size a
  hwx1_0 : ∀ i : grid1.Coords, EltTy.bits .bf16 = 32 ∨ (Rect.block (s := S4x8x2304x48) S1x1x768x48.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2304x48.size a ≤ S4x8x2304x48.size a
  hwx1_1 : ∀ i : grid1.Coords, EltTy.bits .bf16 = 32 ∨ (Rect.block (s := S4x8x2304x48) S1x1x2304x48.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2304x48.size a ≤ S4x8x2304x48.size a
  hwx1_2 : ∀ i : grid1.Coords, EltTy.bits .bf16 = 32 ∨ (Rect.block (s := S4x8x2304x48) S1x1x2304x48.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x768x48.size a ≤ S4x8x2304x48.size a
  hwx1_3 : ∀ i : grid1.Coords, EltTy.bits .bf16 = 32 ∨ (Rect.block (s := S4x8x2304x48) S1x1x768x48.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8x768x48.size a ≤ S4x8x2304x48.size a
  hwx2_0 : ∀ i : grid2.Coords, EltTy.bits .bf16 = 32 ∨ (Rect.block (s := S4x8x2304x48) S1x8x768x48.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S384x768.size a ≤ S384x768.size a
  hwx2_1 : ∀ i : grid2.Coords, EltTy.bits .f32 = 32 ∨ (Rect.block (s := S384x768) S384x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x768x768.size a ≤ S4x2304x768.size a
  hwx2_3 : ∀ i : grid2.Coords, EltTy.bits .f32 = 32 ∨ (Rect.block (s := S4x2304x768) S1x768x768.size (cc2_transform_3 i) (hinb2_3 i)).WholeWords (EltTy.packing .f32)

variable [Facts₀]

def dot_S768x768_S768x384_S768x384_1_0_0_1_n_n : DotDims S768x768 S768x384 S768x384 where
  lhsContracting := [1]
  rhsContracting := [0]
  lhsNonContracting := [0]
  rhsNonContracting := [1]
  lhsBatch := []
  rhsBatch := []
  wf := dot_S768x768_S768x384_S768x384_1_0_0_1_n_n_wf
def dot_S768x48_S2304x48_S768x2304_1_1_0_0_n_n : DotDims S768x48 S2304x48 S768x2304 where
  lhsContracting := [1]
  rhsContracting := [1]
  lhsNonContracting := [0]
  rhsNonContracting := [0]
  lhsBatch := []
  rhsBatch := []
  wf := dot_S768x48_S2304x48_S768x2304_1_1_0_0_n_n_wf
def dot_S768x2304_S2304x48_S768x48_1_0_0_1_n_n : DotDims S768x2304 S2304x48 S768x48 where
  lhsContracting := [1]
  rhsContracting := [0]
  lhsNonContracting := [0]
  rhsNonContracting := [1]
  lhsBatch := []
  rhsBatch := []
  wf := dot_S768x2304_S2304x48_S768x48_1_0_0_1_n_n_wf
def dot_S768x384_S384x768_S768x768_1_0_0_1_n_n : DotDims S768x384 S384x768 S768x768 where
  lhsContracting := [1]
  rhsContracting := [0]
  lhsNonContracting := [0]
  rhsNonContracting := [1]
  lhsBatch := []
  rhsBatch := []
  wf := dot_S768x384_S384x768_S768x768_1_0_0_1_n_n_wf

abbrev win0_0 : Pipeline.Window sig grid0 :=
  Pipeline.Window.ofSpec (Memref.whole main_v0) S1x768x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S768x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S768x48.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S768x48.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S1x8x768x48.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S1x8x768x48.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_2) S1x8x768x48.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v6_0) S1x1x768x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x1x2304x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x1x2304x48.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1x768x48.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S1x8x768x48.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S384x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x768x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x48x48x768 : Shape := ⟨4, ![4, 48, 48, 768]⟩
abbrev S2304x48 : Shape := ⟨2, ![2304, 48]⟩
abbrev S384x768 : Shape := ⟨2, ![384, 768]⟩
abbrev S384 : Shape := ⟨1, ![384]⟩
abbrev S768x384 : Shape := ⟨2, ![768, 384]⟩
abbrev S768 : Shape := ⟨1, ![768]⟩
abbrev S4x2304x768 : Shape := ⟨3, ![4, 2304, 768]⟩
abbrev S4x2304x384 : Shape := ⟨3, ![4, 2304, 384]⟩
abbrev S1x1x384 : Shape := ⟨3, ![1, 1, 384]⟩
abbrev S4x2304x8x48 : Shape := ⟨4, ![4, 2304, 8, 48]⟩
abbrev S4x8x2304x48 : Shape := ⟨4, ![4, 8, 2304, 48]⟩
abbrev S1x1x2304x48 : Shape := ⟨4, ![1, 1, 2304, 48]⟩
abbrev S4x8x2304x24 : Shape := ⟨4, ![4, 8, 2304, 24]⟩
abbrev S_ : Shape := ⟨0, ![]⟩
abbrev S4x8x2304x2304 : Shape := ⟨4, ![4, 8, 2304, 2304]⟩
abbrev S4x8x2304 : Shape := ⟨3, ![4, 8, 2304]⟩
abbrev S4x8x2304x1 : Shape := ⟨4, ![4, 8, 2304, 1]⟩
abbrev S1x1x768 : Shape := ⟨3, ![1, 1, 768]⟩

abbrev nBuf : Space → Nat
  | .hbm => 72
  | .vmem => 0
  | .smem => 0
  | _ => 0

abbrev bufTy : (tb : Table) → Fin (tcTables nBuf tb) → BufTy
  | .hbm, ⟨0, _⟩ => ⟨S4x48x48x768, .f32⟩
  | .hbm, ⟨1, _⟩ => ⟨S2304x48, .f32⟩
  | .hbm, ⟨2, _⟩ => ⟨S2304x48, .f32⟩
  | .hbm, ⟨3, _⟩ => ⟨S384x768, .f32⟩
  | .hbm, ⟨4, _⟩ => ⟨S384x768, .f32⟩
  | .hbm, ⟨5, _⟩ => ⟨S384x768, .f32⟩
  | .hbm, ⟨6, _⟩ => ⟨S384, .f32⟩
  | .hbm, ⟨7, _⟩ => ⟨S384, .f32⟩
  | .hbm, ⟨8, _⟩ => ⟨S768x384, .f32⟩
  | .hbm, ⟨9, _⟩ => ⟨S768, .f32⟩
  | .hbm, ⟨10, _⟩ => ⟨S4x2304x768, .f32⟩
  | .hbm, ⟨11, _⟩ => ⟨S4x2304x384, .f32⟩
  | .hbm, ⟨12, _⟩ => ⟨S1x1x384, .f32⟩
  | .hbm, ⟨13, _⟩ => ⟨S4x2304x384, .f32⟩
  | .hbm, ⟨14, _⟩ => ⟨S4x2304x384, .f32⟩
  | .hbm, ⟨15, _⟩ => ⟨S4x2304x384, .f32⟩
  | .hbm, ⟨16, _⟩ => ⟨S4x2304x384, .f32⟩
  | .hbm, ⟨17, _⟩ => ⟨S1x1x384, .f32⟩
  | .hbm, ⟨18, _⟩ => ⟨S4x2304x384, .f32⟩
  | .hbm, ⟨19, _⟩ => ⟨S4x2304x384, .f32⟩
  | .hbm, ⟨20, _⟩ => ⟨S4x2304x8x48, .f32⟩
  | .hbm, ⟨21, _⟩ => ⟨S4x8x2304x48, .f32⟩
  | .hbm, ⟨22, _⟩ => ⟨S4x2304x8x48, .f32⟩
  | .hbm, ⟨23, _⟩ => ⟨S4x8x2304x48, .f32⟩
  | .hbm, ⟨24, _⟩ => ⟨S4x2304x8x48, .f32⟩
  | .hbm, ⟨25, _⟩ => ⟨S4x8x2304x48, .f32⟩
  | .hbm, ⟨26, _⟩ => ⟨S1x1x2304x48, .f32⟩
  | .hbm, ⟨27, _⟩ => ⟨S1x1x2304x48, .f32⟩
  | .hbm, ⟨28, _⟩ => ⟨S4x8x2304x48, .f32⟩
  | .hbm, ⟨29, _⟩ => ⟨S4x8x2304x48, .f32⟩
  | .hbm, ⟨30, _⟩ => ⟨S4x8x2304x24, .f32⟩
  | .hbm, ⟨31, _⟩ => ⟨S4x8x2304x24, .f32⟩
  | .hbm, ⟨32, _⟩ => ⟨S4x8x2304x24, .f32⟩
  | .hbm, ⟨33, _⟩ => ⟨S4x8x2304x48, .f32⟩
  | .hbm, ⟨34, _⟩ => ⟨S4x8x2304x48, .f32⟩
  | .hbm, ⟨35, _⟩ => ⟨S4x8x2304x48, .f32⟩
  | .hbm, ⟨36, _⟩ => ⟨S4x8x2304x48, .f32⟩
  | .hbm, ⟨37, _⟩ => ⟨S4x8x2304x48, .f32⟩
  | .hbm, ⟨38, _⟩ => ⟨S4x8x2304x48, .f32⟩
  | .hbm, ⟨39, _⟩ => ⟨S4x8x2304x24, .f32⟩
  | .hbm, ⟨40, _⟩ => ⟨S4x8x2304x24, .f32⟩
  | .hbm, ⟨41, _⟩ => ⟨S4x8x2304x24, .f32⟩
  | .hbm, ⟨42, _⟩ => ⟨S4x8x2304x48, .f32⟩
  | .hbm, ⟨43, _⟩ => ⟨S4x8x2304x48, .f32⟩
  | .hbm, ⟨44, _⟩ => ⟨S4x8x2304x48, .f32⟩
  | .hbm, ⟨45, _⟩ => ⟨S4x8x2304x48, .f32⟩
  | .hbm, ⟨46, _⟩ => ⟨S_, .f32⟩
  | .hbm, ⟨47, _⟩ => ⟨S4x8x2304x48, .f32⟩
  | .hbm, ⟨48, _⟩ => ⟨S4x8x2304x48, .f32⟩
  | .hbm, ⟨49, _⟩ => ⟨S4x8x2304x2304, .f32⟩
  | .hbm, ⟨50, _⟩ => ⟨S_, .f32⟩
  | .hbm, ⟨51, _⟩ => ⟨S4x8x2304, .f32⟩
  | .hbm, ⟨52, _⟩ => ⟨S_, .f32⟩
  | .hbm, ⟨53, _⟩ => ⟨S4x8x2304, .f32⟩
  | .hbm, ⟨54, _⟩ => ⟨S4x8x2304, .f32⟩
  | .hbm, ⟨55, _⟩ => ⟨S4x8x2304x1, .f32⟩
  | .hbm, ⟨56, _⟩ => ⟨S4x8x2304x2304, .f32⟩
  | .hbm, ⟨57, _⟩ => ⟨S4x8x2304x2304, .f32⟩
  | .hbm, ⟨58, _⟩ => ⟨S4x8x2304x2304, .f32⟩
  | .hbm, ⟨59, _⟩ => ⟨S_, .f32⟩
  | .hbm, ⟨60, _⟩ => ⟨S4x8x2304, .f32⟩
  | .hbm, ⟨61, _⟩ => ⟨S4x8x2304x1, .f32⟩
  | .hbm, ⟨62, _⟩ => ⟨S4x8x2304x2304, .f32⟩
  | .hbm, ⟨63, _⟩ => ⟨S4x8x2304x2304, .f32⟩
  | .hbm, ⟨64, _⟩ => ⟨S4x8x2304x48, .f32⟩
  | .hbm, ⟨65, _⟩ => ⟨S4x2304x8x48, .f32⟩
  | .hbm, ⟨66, _⟩ => ⟨S4x2304x384, .f32⟩
  | .hbm, ⟨67, _⟩ => ⟨S4x2304x768, .f32⟩
  | .hbm, ⟨68, _⟩ => ⟨S1x1x768, .f32⟩
  | .hbm, ⟨69, _⟩ => ⟨S4x2304x768, .f32⟩
  | .hbm, ⟨70, _⟩ => ⟨S4x2304x768, .f32⟩
  | .hbm, ⟨71, _⟩ => ⟨S4x48x48x768, .f32⟩
  | _, _ => ⟨S4x48x48x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_0 : Ref sig .tc := ⟨.hbm, 50, rfl⟩
abbrev main_v39 : Ref sig .tc := ⟨.hbm, 51, rfl⟩
abbrev main_cst_1 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_2 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]

class Facts₀ : Prop where
  shapeCasts_S4x48x48x768_S4x2304x768 : S4x48x48x768.ShapeCasts S4x2304x768
  bcast_S384_S1x1x384_2 : S384.BroadcastsInDim S1x1x384 (![2] : Fin 1 → Fin S1x1x384.rank)
  bcast_S1x1x384_S4x2304x384_0_1_2 : S1x1x384.BroadcastsInDim S4x2304x384 (![0, 1, 2] : Fin 3 → Fin S4x2304x384.rank)
  shapeCasts_S4x2304x384_S4x2304x8x48 : S4x2304x384.ShapeCasts S4x2304x8x48
  transposes_S4x2304x8x48_S4x8x2304x48_0_2_1_3 : S4x2304x8x48.Transposes [0, 2, 1, 3] S4x8x2304x48
  bcast_S2304x48_S1x1x2304x48_2_3 : S2304x48.BroadcastsInDim S1x1x2304x48 (![2, 3] : Fin 2 → Fin S1x1x2304x48.rank)
  bcast_S1x1x2304x48_S4x8x2304x48_0_1_2_3 : S1x1x2304x48.BroadcastsInDim S4x8x2304x48 (![0, 1, 2, 3] : Fin 4 → Fin S4x8x2304x48.rank)
  slices_S4x8x2304x48_S4x8x2304x24_0_0_0_0 : S4x8x2304x48.Slices ![0, 0, 0, 0] S4x8x2304x24
  slices_S4x8x2304x48_S4x8x2304x24_0_0_0_24 : S4x8x2304x48.Slices ![0, 0, 0, 24] S4x8x2304x24
  concatenates_S4x8x2304x24_S4x8x2304x24_S4x8x2304x48_d3 : Shape.Concatenates [S4x8x2304x24, S4x8x2304x24] S4x8x2304x48 3
  bcast_S_S4x8x2304x48 : S_.BroadcastsInDim S4x8x2304x48 (![] : Fin 0 → Fin S4x8x2304x48.rank)
  reducesTo_S4x8x2304x2304_S4x8x2304_d3 : S4x8x2304x2304.ReducesTo [3] S4x8x2304
  h_S_ : 0 < S_.numel
  bcast_S_S4x8x2304 : S_.BroadcastsInDim S4x8x2304 (![] : Fin 0 → Fin S4x8x2304.rank)
  bcast_S4x8x2304_S4x8x2304x1_0_1_2 : S4x8x2304.BroadcastsInDim S4x8x2304x1 (![0, 1, 2] : Fin 3 → Fin S4x8x2304x1.rank)
  bcast_S4x8x2304x1_S4x8x2304x2304_0_1_2_3 : S4x8x2304x1.BroadcastsInDim S4x8x2304x2304 (![0, 1, 2, 3] : Fin 4 → Fin S4x8x2304x2304.rank)
  transposes_S4x8x2304x48_S4x2304x8x48_0_2_1_3 : S4x8x2304x48.Transposes [0, 2, 1, 3] S4x2304x8x48
  shapeCasts_S4x2304x8x48_S4x2304x384 : S4x2304x8x48.ShapeCasts S4x2304x384
  bcast_S768_S1x1x768_2 : S768.BroadcastsInDim S1x1x768 (![2] : Fin 1 → Fin S1x1x768.rank)
  bcast_S1x1x768_S4x2304x768_0_1_2 : S1x1x768.BroadcastsInDim S4x2304x768 (![0, 1, 2] : Fin 3 → Fin S4x2304x768.rank)
  shapeCasts_S4x2304x768_S4x48x48x768 : S4x2304x768.ShapeCasts S4x48x48x768
  dot_S4x2304x768_S384x768_S4x2304x384_2_1_01_0_n_n_wf : DotDims.WF S4x2304x768 S384x768 S4x2304x384 [2] [1] [0, 1] [0] [] []
  dot_S4x8x2304x48_S4x8x2304x48_S4x8x2304x2304_3_3_2_2_01_01_wf : DotDims.WF S4x8x2304x48 S4x8x2304x48 S4x8x2304x2304 [3] [3] [2] [2] [0, 1] [0, 1]
  dot_S4x8x2304x2304_S4x8x2304x48_S4x8x2304x48_3_2_2_3_01_01_wf : DotDims.WF S4x8x2304x2304 S4x8x2304x48 S4x8x2304x48 [3] [2] [2] [3] [0, 1] [0, 1]
  dot_S4x2304x384_S768x384_S4x2304x768_2_1_01_0_n_n_wf : DotDims.WF S4x2304x384 S768x384 S4x2304x768 [2] [1] [0, 1] [0] [] []

variable [Facts₀]

def dot_S4x2304x768_S384x768_S4x2304x384_2_1_01_0_n_n : DotDims S4x2304x768 S384x768 S4x2304x384 where
  lhsContracting := [2]
  rhsContracting := [1]
  lhsNonContracting := [0, 1]
  rhsNonContracting := [0]
  lhsBatch := []
  rhsBatch := []
  wf := dot_S4x2304x768_S384x768_S4x2304x384_2_1_01_0_n_n_wf
def dot_S4x8x2304x48_S4x8x2304x48_S4x8x2304x2304_3_3_2_2_01_01 : DotDims S4x8x2304x48 S4x8x2304x48 S4x8x2304x2304 where
  lhsContracting := [3]
  rhsContracting := [3]
  lhsNonContracting := [2]
  rhsNonContracting := [2]
  lhsBatch := [0, 1]
  rhsBatch := [0, 1]
  wf := dot_S4x8x2304x48_S4x8x2304x48_S4x8x2304x2304_3_3_2_2_01_01_wf
def dot_S4x8x2304x2304_S4x8x2304x48_S4x8x2304x48_3_2_2_3_01_01 : DotDims S4x8x2304x2304 S4x8x2304x48 S4x8x2304x48 where
  lhsContracting := [3]
  rhsContracting := [2]
  lhsNonContracting := [2]
  rhsNonContracting := [3]
  lhsBatch := [0, 1]
  rhsBatch := [0, 1]
  wf := dot_S4x8x2304x2304_S4x8x2304x48_S4x8x2304x48_3_2_2_3_01_01_wf
def dot_S4x2304x384_S768x384_S4x2304x768_2_1_01_0_n_n : DotDims S4x2304x384 S768x384 S4x2304x768 where
  lhsContracting := [2]
  rhsContracting := [1]
  lhsNonContracting := [0, 1]
  rhsNonContracting := [0]
  lhsBatch := []
  rhsBatch := []
  wf := dot_S4x2304x384_S768x384_S4x2304x768_2_1_01_0_n_n_wf

class Facts : Prop extends Facts₀ where

variable [Facts]
-- ==== Proof.RunValue.lean ====
/-
  The idealized kernel program's run with its RESULT named: every weakly fair execution of @main terminates, nothing
  faulting, with the result buffer holding the last boundary's contents of the fold through @main's six segments
  (host operations, three kernel regions, host operations) and the argument arrays as launched. The fold is the one
  the program's frame is proved over; here its value at the result buffer is kept instead of dropped.
-/
import proofs.«138608_j36636071035070_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer at the last boundary's contents and every argument as launched. -/
theorem run_value : θ_run defs (onTc (τ := τ) (main (F := F))) ⟨m, fun _ => 0, ρ⟩ (fun r => ∀ c : Dev nD,
      r.2.mem ((c.tc : Thread nD τ).loc main_v11) = W6 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v11 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.RunValue

end
-- ==== Proof.Spec.lean ====
/-
  The mathematics both programs compute, as pure functions of coordinates on the extended reals.

  A token row `X b n : Fin 768 → EReal` is projected by three weight matrices (one dot product per output column, the query
  and value projections with a bias), the 384 output columns are read as 8 heads of 48 lanes, the query and key
  heads are rotated by the rotary tables (`rope`), each head's scaled scores against every key row go through a
  softmax over the key rows, the value rows are averaged with those weights, and the merged heads are projected once
  more. The two programs differ only in WHERE the softmax denominator divides: after the weighted sum of value rows
  (`attnK`) or inside it, weight by weight (`attnR`).
-/
import Idealize.ShloMosaic.PureOps.Ideal
import Idealize.ShloMosaic.Lib.ValueIdx

noncomputable section

open scoped BigOperators

namespace Cert.Attn

open Idealize.ShloMosaic Idealize.ShloMosaic.ValueIdx

/-- Column of lane `d` of head `h` in the merged 384-wide layout: heads are consecutive runs of 48 columns. -/
def col (h : Fin 8) (d : Fin 48) : Fin 384 := ⟨h.val * 48 + d.val, by have := h.isLt; have := d.isLt; omega⟩
/-- The head a merged column belongs to. -/
def headOf (e : Fin 384) : Fin 8 := ⟨e.val / 48, by have := e.isLt; omega⟩
/-- The lane of a merged column inside its head. -/
def laneOf (e : Fin 384) : Fin 48 := ⟨e.val % 48, by omega⟩

theorem col_headOf_laneOf (e : Fin 384) : col (headOf e) (laneOf e) = e := by
  apply Fin.ext; simp only [col, headOf, laneOf]; omega
theorem headOf_col (h : Fin 8) (d : Fin 48) : headOf (col h d) = h := by
  apply Fin.ext; simp only [col, headOf]; have := d.isLt; omega
theorem laneOf_col (h : Fin 8) (d : Fin 48) : laneOf (col h d) = d := by
  apply Fin.ext; simp only [col, laneOf]; have := d.isLt; omega

/-- One output column of a projection: the dot product of a token row with a weight row. -/
def dot768 (x w : Fin 768 → EReal) : EReal := ∑ c : Fin 768, x c * w c

/-- Rotate-half of a 48-lane vector: the lower 24 lanes take the NEGATED upper half, the upper 24 the lower half. -/
def rot (t : Fin 48 → EReal) (d : Fin 48) : EReal :=
  if h : d.val < 24 then -(t ⟨d.val + 24, by omega⟩) else t ⟨d.val - 24, by have := d.isLt; omega⟩

/-- The rotary embedding of a head vector `t` by one position's cosine and sine rows. -/
def rope (t cs sn : Fin 48 → EReal) (d : Fin 48) : EReal := t d * cs d + rot t d * sn d

/-- Rotated query heads. -/
def qh (X : Fin 4 → Fin 2304 → Fin 768 → EReal) (W : Fin 384 → Fin 768 → EReal) (B : Fin 384 → EReal)
    (cs sn : Fin 2304 → Fin 48 → EReal) (b : Fin 4) (h : Fin 8) (n : Fin 2304) (d : Fin 48) : EReal :=
  rope (fun d' => dot768 (X b n) (W (col h d')) + B (col h d')) (cs n) (sn n) d

/-- Rotated key heads (the key projection has no bias). -/
def kh (X : Fin 4 → Fin 2304 → Fin 768 → EReal) (W : Fin 384 → Fin 768 → EReal)
    (cs sn : Fin 2304 → Fin 48 → EReal) (b : Fin 4) (h : Fin 8) (n : Fin 2304) (d : Fin 48) : EReal :=
  rope (fun d' => dot768 (X b n) (W (col h d'))) (cs n) (sn n) d

/-- Value heads. -/
def vh (X : Fin 4 → Fin 2304 → Fin 768 → EReal) (W : Fin 384 → Fin 768 → EReal) (B : Fin 384 → EReal)
    (b : Fin 4) (h : Fin 8) (n : Fin 2304) (d : Fin 48) : EReal :=
  dot768 (X b n) (W (col h d)) + B (col h d)

/-- The score scale, the same binary word in both programs (48^(-1/2) rounded to binary32); never evaluated. -/
def scale : EReal := Ideal.ofBits .f32 0x3E13CD3A#32

abbrev Heads := Fin 4 → Fin 8 → Fin 2304 → Fin 48 → EReal

/-- The scaled score of query row `n` against key row `m`. -/
def score (Q K : Heads) (b : Fin 4) (h : Fin 8) (n m : Fin 2304) : EReal := ∑ d : Fin 48, (Q b h n d * scale) * K b h m d
/-- A query row's largest score (folded from the bottom element). -/
def rowMax (Q K : Heads) (b : Fin 4) (h : Fin 8) (n : Fin 2304) : EReal :=
  (Finset.univ : Finset (Fin 2304)).fold max (⊥ : EReal) (fun m => score Q K b h n m)
/-- The unnormalised softmax weight. -/
def expo (Q K : Heads) (b : Fin 4) (h : Fin 8) (n m : Fin 2304) : EReal := Ideal.exp (score Q K b h n m - rowMax Q K b h n)
/-- The softmax denominator of a query row. -/
def denom (Q K : Heads) (b : Fin 4) (h : Fin 8) (n : Fin 2304) : EReal := ∑ m : Fin 2304, expo Q K b h n m

/-- Attention with the denominator dividing the finished weighted sum. -/
def attnK (Q K V : Heads) : Heads := fun b h n d =>
  Ideal.div (∑ m : Fin 2304, expo Q K b h n m * V b h m d) (denom Q K b h n)
/-- Attention with each weight normalised before the weighted sum. -/
def attnR (Q K V : Heads) : Heads := fun b h n d =>
  ∑ m : Fin 2304, Ideal.div (expo Q K b h n m) (denom Q K b h n) * V b h m d

/-- The output projection of the merged heads. -/
def outp (O : Heads) (Wp : Fin 768 → Fin 384 → EReal) (bp : Fin 768 → EReal) (b : Fin 4) (n : Fin 2304) (c : Fin 768) : EReal :=
  (∑ e : Fin 384, O b (headOf e) n (laneOf e) * Wp c e) + bp c

/-! ## The arrays as functions of coordinates -/

abbrev SA : Shape := ⟨4, ![4, 48, 48, 768]⟩
abbrev SX : Shape := ⟨3, ![4, 2304, 768]⟩
abbrev SW : Shape := ⟨2, ![384, 768]⟩
abbrev SB : Shape := ⟨1, ![384]⟩
abbrev ST : Shape := ⟨2, ![2304, 48]⟩
abbrev SP : Shape := ⟨2, ![768, 384]⟩
abbrev SC : Shape := ⟨1, ![768]⟩
abbrev SH : Shape := ⟨4, ![4, 8, 2304, 48]⟩

theorem hAX : SA.ShapeCasts SX := by decide
theorem hXA : SX.ShapeCasts SA := by decide

/-- The token rows: the image array with its two spatial axes flattened into 2304 positions. -/
def tokens (x0 : SA.Idx → EReal) : Fin 4 → Fin 2304 → Fin 768 → EReal := fun b n c => shapeCast SX x0 hAX (ix3 b n c)
def mat2 {a b : Nat} (w : (⟨2, ![a, b]⟩ : Shape).Idx → EReal) : Fin a → Fin b → EReal := fun i j => w (ix2 i j)
def vec1 {a : Nat} (v : (⟨1, ![a]⟩ : Shape).Idx → EReal) : Fin a → EReal := fun i => v (ix1 i)
def heads4 (o : SH.Idx → EReal) : Heads := fun b h n d => o (ix4 b h n d)

/-- The three head arrays as functions of the argument arrays. -/
def Qof (x0 : SA.Idx → EReal) (x1 x2 : ST.Idx → EReal) (x3 : SW.Idx → EReal) (x6 : SB.Idx → EReal) : Heads :=
  qh (tokens x0) (mat2 x3) (vec1 x6) (mat2 x1) (mat2 x2)
def Kof (x0 : SA.Idx → EReal) (x1 x2 : ST.Idx → EReal) (x4 : SW.Idx → EReal) : Heads :=
  kh (tokens x0) (mat2 x4) (mat2 x1) (mat2 x2)
def Vof (x0 : SA.Idx → EReal) (x5 : SW.Idx → EReal) (x7 : SB.Idx → EReal) : Heads :=
  vh (tokens x0) (mat2 x5) (vec1 x7)

/-- The whole result with the late division, as one array of the argument arrays. -/
def GK (x0 : SA.Idx → EReal) (x1 x2 : ST.Idx → EReal) (x3 x4 x5 : SW.Idx → EReal) (x6 x7 : SB.Idx → EReal)
    (x8 : SP.Idx → EReal) (x9 : SC.Idx → EReal) : SA.Idx → EReal :=
  shapeCast SA (fun i : SX.Idx => outp (attnK (Qof x0 x1 x2 x3 x6) (Kof x0 x1 x2 x4) (Vof x0 x5 x7)) (mat2 x8) (vec1 x9) (i 0) (i 1) (i 2)) hXA
/-- The whole result with the early division. -/
def GR (x0 : SA.Idx → EReal) (x1 x2 : ST.Idx → EReal) (x3 x4 x5 : SW.Idx → EReal) (x6 x7 : SB.Idx → EReal)
    (x8 : SP.Idx → EReal) (x9 : SC.Idx → EReal) : SA.Idx → EReal :=
  shapeCast SA (fun i : SX.Idx => outp (attnR (Qof x0 x1 x2 x3 x6) (Kof x0 x1 x2 x4) (Vof x0 x5 x7)) (mat2 x8) (vec1 x9) (i 0) (i 1) (i 2)) hXA

end Cert.Attn

end
-- ==== Proof.Softmax.lean ====
/-
  Where the softmax denominator divides does not matter when the scores are real numbers.

  For real scores `S i` the row maximum `M` is a real number, every weight `p i = exp (S i - M)` is a positive real
  number and so is their sum `l`. Division by a nonzero real is multiplication by its reciprocal `c = 1 / l`, a
  nonnegative FINITE factor, and such a factor distributes over every sum of extended reals, whatever infinities the
  value rows `v i` hold: `∑ (p i * c) * v i = (∑ p i * v i) * c`. Nothing is assumed of `v`.
-/
import proofs.«138608_j36636071035070_2_alg».proof.Proof.Spec

noncomputable section

open scoped BigOperators

namespace Cert.Attn

open Idealize.ShloMosaic

/-- A finite sum of real numbers, taken among the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative finite factor distributes over a finite sum of extended reals. -/
theorem sum_mul_of_nonneg_ne_top {ι : Type*} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The maximum of finitely many real numbers, folded from the bottom element, is a real number above each of them. -/
theorem fold_max_bot_real {ι : Type*} (s : Finset ι) (f : ι → ℝ) (hs : s.Nonempty) :
    ∃ r : ℝ, s.fold max (⊥ : EReal) (fun i => ((f i : ℝ) : EReal)) = (r : EReal) ∧ ∀ i ∈ s, f i ≤ r := by
  classical
  induction s using Finset.induction_on with
  | empty => exact absurd hs (by simp)
  | insert a s ha ih =>
    rw [Finset.fold_insert ha]
    by_cases hs' : s.Nonempty
    · obtain ⟨r, hr, hle⟩ := ih hs'
      rw [hr]
      refine ⟨max (f a) r, (EReal.coe_strictMono.monotone.map_max).symm, ?_⟩
      intro i hi
      rcases Finset.mem_insert.1 hi with rfl | hi
      · exact le_max_left _ _
      · exact (hle i hi).trans (le_max_right _ _)
    · rw [Finset.not_nonempty_iff_eq_empty.1 hs', Finset.fold_empty]
      refine ⟨f a, max_eq_left bot_le, ?_⟩
      intro i hi
      rcases Finset.mem_insert.1 hi with rfl | hi
      · exact le_rfl
      · exact absurd hi (by simp)

/-- The softmax-weighted sum with real scores: normalising each weight first or the finished sum last is the same. -/
theorem weighted_sum_div {ι : Type*} [Fintype ι] [Nonempty ι] (S : ι → EReal) (hS : ∀ i, ∃ r : ℝ, S i = (r : EReal))
    (v : ι → EReal) :
    ∑ i, Ideal.div (Ideal.exp (S i - (Finset.univ : Finset ι).fold max (⊥ : EReal) S))
          (∑ j, Ideal.exp (S j - (Finset.univ : Finset ι).fold max (⊥ : EReal) S)) * v i
      = Ideal.div (∑ i, Ideal.exp (S i - (Finset.univ : Finset ι).fold max (⊥ : EReal) S) * v i)
          (∑ j, Ideal.exp (S j - (Finset.univ : Finset ι).fold max (⊥ : EReal) S)) := by
  choose σ hσ using hS
  obtain rfl : S = fun i => ((σ i : ℝ) : EReal) := funext hσ
  obtain ⟨M, hM, -⟩ := fold_max_bot_real (Finset.univ : Finset ι) σ Finset.univ_nonempty
  rw [hM]
  have hp : ∀ i, Ideal.exp (((σ i : ℝ) : EReal) - (M : EReal)) = ((Real.exp (σ i - M) : ℝ) : EReal) := fun i => by
    rw [← EReal.coe_sub, Ideal.exp_coe]
  simp only [hp]
  rw [sum_coe]
  have hpos : 0 < ∑ j, Real.exp (σ j - M) := Finset.sum_pos (fun j _ => Real.exp_pos _) Finset.univ_nonempty
  simp only [Ideal.div_coe hpos.ne']
  have h0 : (0 : EReal) ≤ ((1 / ∑ j, Real.exp (σ j - M) : ℝ) : EReal) := by
    exact_mod_cast (one_div_pos.2 hpos).le
  rw [sum_mul_of_nonneg_ne_top _ _ _ h0 (EReal.coe_ne_top _)]
  exact Finset.sum_congr rfl fun i _ => mul_right_comm _ _ _

/-- A dot product of real rows is a real number. -/
theorem sum_mul_mul_real {n : Nat} (q k : Fin n → EReal) (s : EReal) (hq : ∀ d, ∃ r : ℝ, q d = (r : EReal))
    (hk : ∀ d, ∃ r : ℝ, k d = (r : EReal)) (hs : ∃ r : ℝ, s = (r : EReal)) :
    ∃ r : ℝ, ∑ d : Fin n, (q d * s) * k d = (r : EReal) := by
  choose q' hq' using hq
  choose k' hk' using hk
  obtain ⟨s', rfl⟩ := hs
  refine ⟨∑ d : Fin n, (q' d * s') * k' d, ?_⟩
  rw [← sum_coe]
  exact Finset.sum_congr rfl fun d _ => by rw [hq' d, hk' d, EReal.coe_mul, EReal.coe_mul]

/-- With real query and key heads and a real scale the two placements of the softmax denominator agree. -/
theorem attnR_eq_attnK (Q K V : Heads) (hQ : ∀ b h n d, ∃ r : ℝ, Q b h n d = (r : EReal))
    (hK : ∀ b h n d, ∃ r : ℝ, K b h n d = (r : EReal)) (hs : ∃ r : ℝ, scale = (r : EReal)) :
    attnR Q K V = attnK Q K V := by
  funext b h n d
  unfold attnR attnK denom expo rowMax
  exact weighted_sum_div (fun m => score Q K b h n m)
    (fun m => sum_mul_mul_real _ _ _ (hQ b h n) (hK b h m) hs) (fun m => V b h m d)

end Cert.Attn

end
-- ==== Proof.SpecReal.lean ====
/-
  Real inputs give real query and key heads.

  A head entry is a finite sum of products of entries of the image and a weight, plus a bias entry, combined with a
  rotary-table entry and with the rotate-half of the same head, again times a table entry: sums, products and
  negations of real numbers, hence a real number. The score scale is a normal binary32 pattern, a real number.
-/
import proofs.«138608_j36636071035070_2_alg».proof.Proof.Softmax

noncomputable section

open scoped BigOperators

namespace Cert.Attn

open Idealize.ShloMosaic Idealize.ShloMosaic.ValueIdx

/-- Being (the image of) a real number among the extended reals. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sum {ι : Type*} (s : Finset ι) (f : ι → EReal) (hf : ∀ i, IsReal (f i)) : IsReal (∑ i ∈ s, f i) := by
  choose g hg using hf
  exact ⟨∑ i ∈ s, g i, by rw [← sum_coe]; exact Finset.sum_congr rfl fun i _ => hg i⟩

theorem dot768_real (x w : Fin 768 → EReal) (hx : ∀ c, IsReal (x c)) (hw : ∀ c, IsReal (w c)) : IsReal (dot768 x w) :=
  IsReal.sum _ _ fun c => (hx c).mul (hw c)

theorem rot_real (t : Fin 48 → EReal) (ht : ∀ d, IsReal (t d)) (d : Fin 48) : IsReal (rot t d) := by
  unfold rot
  split
  · exact (ht _).neg
  · exact ht _

theorem rope_real (t cs sn : Fin 48 → EReal) (ht : ∀ d, IsReal (t d)) (hc : ∀ d, IsReal (cs d)) (hs : ∀ d, IsReal (sn d))
    (d : Fin 48) : IsReal (rope t cs sn d) :=
  ((ht d).mul (hc d)).add ((rot_real t ht d).mul (hs d))

theorem tokens_real (x0 : SA.Idx → EReal) (h0 : ∀ i, IsReal (x0 i)) (b : Fin 4) (n : Fin 2304) (c : Fin 768) :
    IsReal (tokens x0 b n c) := by
  unfold tokens shapeCast
  exact h0 _
theorem mat2_real {a b : Nat} (w : (⟨2, ![a, b]⟩ : Shape).Idx → EReal) (hw : ∀ i, IsReal (w i)) (i : Fin a) (j : Fin b) :
    IsReal (mat2 w i j) := hw _
theorem vec1_real {a : Nat} (v : (⟨1, ![a]⟩ : Shape).Idx → EReal) (hv : ∀ i, IsReal (v i)) (i : Fin a) :
    IsReal (vec1 v i) := hv _

/-- The rotated query heads of real arrays are real. -/
theorem Qof_real (x0 : SA.Idx → EReal) (x1 x2 : ST.Idx → EReal) (x3 : SW.Idx → EReal) (x6 : SB.Idx → EReal)
    (h0 : ∀ i, IsReal (x0 i)) (h1 : ∀ i, IsReal (x1 i)) (h2 : ∀ i, IsReal (x2 i)) (h3 : ∀ i, IsReal (x3 i))
    (h6 : ∀ i, IsReal (x6 i)) (b : Fin 4) (h : Fin 8) (n : Fin 2304) (d : Fin 48) : IsReal (Qof x0 x1 x2 x3 x6 b h n d) := by
  unfold Qof qh
  refine rope_real _ _ _ (fun d' => IsReal.add (dot768_real _ _ (fun c => tokens_real x0 h0 b n c) (fun c => mat2_real x3 h3 _ c)) (vec1_real x6 h6 _))
    (fun d' => mat2_real x1 h1 n d') (fun d' => mat2_real x2 h2 n d') d

/-- The rotated key heads of real arrays are real. -/
theorem Kof_real (x0 : SA.Idx → EReal) (x1 x2 : ST.Idx → EReal) (x4 : SW.Idx → EReal)
    (h0 : ∀ i, IsReal (x0 i)) (h1 : ∀ i, IsReal (x1 i)) (h2 : ∀ i, IsReal (x2 i)) (h4 : ∀ i, IsReal (x4 i))
    (b : Fin 4) (h : Fin 8) (n : Fin 2304) (d : Fin 48) : IsReal (Kof x0 x1 x2 x4 b h n d) := by
  unfold Kof kh
  refine rope_real _ _ _ (fun d' => dot768_real _ _ (fun c => tokens_real x0 h0 b n c) (fun c => mat2_real x4 h4 _ c))
    (fun d' => mat2_real x1 h1 n d') (fun d' => mat2_real x2 h2 n d') d

/-- The score scale is a real number: its exponent field is neither all ones nor zero. -/
theorem scale_real : IsReal scale := by
  have hne : ¬ ((0x3E13CD3A#32 : BitVec 32).extractLsb' 23 8).toNat = 2 ^ 8 - 1 := by decide
  unfold scale Ideal.ofBits Ideal.ieee
  simp only [hne, if_false]
  split <;> exact ⟨_, rfl⟩

/-- Under real arrays the two placements of the softmax denominator give one result array. -/
theorem GR_eq_GK (x0 : SA.Idx → EReal) (x1 x2 : ST.Idx → EReal) (x3 x4 x5 : SW.Idx → EReal) (x6 x7 : SB.Idx → EReal)
    (x8 : SP.Idx → EReal) (x9 : SC.Idx → EReal)
    (h0 : ∀ i, IsReal (x0 i)) (h1 : ∀ i, IsReal (x1 i)) (h2 : ∀ i, IsReal (x2 i)) (h3 : ∀ i, IsReal (x3 i))
    (h4 : ∀ i, IsReal (x4 i)) (h6 : ∀ i, IsReal (x6 i)) :
    GR x0 x1 x2 x3 x4 x5 x6 x7 x8 x9 = GK x0 x1 x2 x3 x4 x5 x6 x7 x8 x9 := by
  unfold GR GK
  rw [attnR_eq_attnK _ _ _ (Qof_real x0 x1 x2 x3 x6 h0 h1 h2 h3 h6) (Kof_real x0 x1 x2 x4 h0 h1 h2 h4) scale_real]

end Cert.Attn

end
-- ==== Proof.Finite.lean ====
/-
  What the precondition says of the arrays the scores are made of.

  The precondition is the conjunction, over the ten argument arrays, of "every entry's absolute value is below +∞".
  On the extended reals `max x (-x) < ⊤` holds exactly when `x` is a real number. Six of the ten conjuncts are
  read back here: the image, the two rotary tables, the query and key weights and the query bias — the arrays the
  attention scores depend on.
-/
import proofs.«138608_j36636071035070_2_alg».proof.Pre_finite_inputs
import Idealize.ShloMosaic.Lib.ReduceAll
import Idealize.ShloMosaic.Lib.ValueIdx
import Idealize.ShloMosaic.PureOps.Ideal

noncomputable section

namespace Cert.Pre_finite_inputs.Decode

open Idealize.ShloMosaic Idealize.ShloMosaic.ValueIdx Cert.Pre_finite_inputs

instance : Subsingleton S_.Idx := ⟨fun a b => funext fun d => d.elim0⟩

variable [Facts]
open Facts

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One conjunct: `jnp.all (|x| < +∞)` gives every entry of `x` real. -/
theorem all_real {s : Shape} {axes : List (Fin s.rank)} (x : FVec Ideal s .f32) (bc : S_.BroadcastsInDim s ![])
    (red : s.ReducesTo axes S_) (hS : 0 < S_.numel)
    (h : Host.reduce IntOp.andi (cmpf .olt (Host.absf x) (broadcastInDim s ![] bc (constant (F := Ideal) S_ .f32 0x7F800000#32)))
          (constantI S_ 1 1#1) red hS ix0 = 1#1) (i : s.Idx) : ∃ r : ℝ, x i = (r : EReal) :=
  real_of_abs_lt (x i) (Host.reduce_andi_all _ _ red hS ix0 h i)

/-- The six arrays the scores are made of hold real numbers under the precondition. -/
theorem reals_of_pre (x0 : FVec Ideal S4x48x48x768 .f32) (x1 x2 : FVec Ideal S2304x48 .f32)
    (x3 x4 x5 : FVec Ideal S384x768 .f32) (x6 x7 : FVec Ideal S384 .f32) (x8 : FVec Ideal S768x384 .f32)
    (x9 : FVec Ideal S768 .f32)
    (h : fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x6 i = (r : EReal)) := by
  have h := congrFun h ix0
  dsimp only [fn, fn_part1, fn_part2, andi] at h
  obtain ⟨h, -⟩ := IntOp.andi_eq_one.1 h      -- drops x9
  obtain ⟨h, -⟩ := IntOp.andi_eq_one.1 h      -- drops x8
  obtain ⟨h, -⟩ := IntOp.andi_eq_one.1 h      -- drops x7
  obtain ⟨h, h6⟩ := IntOp.andi_eq_one.1 h
  obtain ⟨h, -⟩ := IntOp.andi_eq_one.1 h      -- drops x5
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_real x0 _ _ _ h0, all_real x1 _ _ _ h1, all_real x2 _ _ _ h2, all_real x3 _ _ _ h3, all_real x4 _ _ _ h4,
    all_real x6 _ _ _ h6⟩

end Cert.Pre_finite_inputs.Decode

end
-- ==== Proof.Assemble.lean ====
/-
  The two idealized programs end with equal results.

  From memories that agree on the ten arguments, the kernel program's run ends with its result buffer at the
  late-division specification of the arguments, and the reference's run ends with its result at the early-division
  specification; under the precondition the arrays the scores depend on hold real numbers, so the two specifications
  are one array.
-/
import proofs.«138608_j36636071035070_2_alg».proof.Defs
import proofs.«138608_j36636071035070_2_alg».proof.Proof.Gen.KernelIdeal
import proofs.«138608_j36636071035070_2_alg».proof.Proof.Gen.ReferenceIdeal
import proofs.«138608_j36636071035070_2_alg».proof.Proof.Gen.Pre_finite_inputs
import proofs.«138608_j36636071035070_2_alg».proof.Proof.Gen.ReferenceIdeal.Read
import proofs.«138608_j36636071035070_2_alg».proof.Proof.RunValue
import proofs.«138608_j36636071035070_2_alg».proof.Proof.SpecReal
import proofs.«138608_j36636071035070_2_alg».proof.Proof.Finite

set_option maxRecDepth 16384

noncomputable section

namespace Cert.Proof.Assemble

open Idealize.ShloMosaic Idealize.ShloMosaic.TcCoe Idealize.SL.Sem Cert.Attn

/-- The algebraic claim from the two value facts: the kernel program's result buffer after its run, and the
    reference's result stage, each as a specification of the argument arrays. -/
theorem algebraic_of
    (hkv : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD),
      Cert.KernelIdeal.Gen.W6 m ρ c (Proc.devRef .tc Cert.KernelIdeal.main_v11)
        = GK (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9)))
    (href : ∀ (x0 : SA.Idx → EReal) (x1 x2 : ST.Idx → EReal) (x3 x4 x5 : SW.Idx → EReal) (x6 x7 : SB.Idx → EReal)
        (x8 : SP.Idx → EReal) (x9 : SC.Idx → EReal),
      Cert.ReferenceIdeal.Read.val_main_v57 (F := Ideal) x0 x1 x2 x3 x4 x5 x6 x7 x8 x9 = GR x0 x1 x2 x3 x4 x5 x6 x7 x8 x9) :
    Cert.algebraic_KernelIdeal_ReferenceIdeal := by
  intro m ρ m' ρ' hpre hagree
  refine ⟨fun c => GK (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9)), ?_, ?_⟩
  · exact (θ_run Cert.KernelIdeal.defs _ _).mono (fun r h c => ⟨(h c).1.trans (hkv m ρ c), (h c).2⟩)
      (Cert.KernelIdeal.RunValue.run_value (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9⟩ := hagree c
    obtain ⟨r0, r1, r2, r3, r4, r6⟩ := Cert.Pre_finite_inputs.Decode.reals_of_pre _ _ _ _ _ _ _ _ _ _ (hpre c)
    rw [(h c).1, Cert.ReferenceIdeal.Read.val_main_v57_eq, href, e0, e1, e2, e3, e4, e5, e6, e7, e8, e9]
    exact GR_eq_GK _ _ _ _ _ _ _ _ _ _ r0 r1 r2 r3 r4 r6

end Cert.Proof.Assemble

end
-- ==== Proof.Glue.lean ====
/-
  The host operations of the idealized kernel program, read through the fold of buffer contents its frame is proved
  over: before the first region the image is flattened to token rows, the three projection weights are transposed
  and the two biases get a unit row axis; between the second and third regions the output weight is transposed and
  its bias gets a unit row axis; after the third region the token rows are unflattened. Each region's arrays after the
  region are what its write-backs leave, and no argument array is ever written.
-/
import proofs.«138608_j36636071035070_2_alg».proof.Proof.Gen.KernelIdeal.Frame
import Idealize.ShloMosaic.Lib.StableHlo.Run
import Idealize.ShloMosaic.PureOps.Ideal

set_option maxRecDepth 16384

noncomputable section

namespace Cert.KernelIdeal.Glue

open Idealize.ShloMosaic Idealize.ShloMosaic.TcCoe Idealize.ShloMosaic.Tactic Idealize.SL.Sem
open Idealize.ShloMosaic.StableHlo
open Cert.KernelIdeal Cert.KernelIdeal.Gen

variable (m : (ℓ : Loc nD τ sig) → Buf (Elt Ideal) ℓ) (ρ : Dev nD → PrngReg) (c : Dev nD)

/-! ## Before the first region -/

theorem V1_v0 : V1 m ρ c main_v0 = shapeCast S4x2304x768 (m ((c : Thread nD τ).loc main_arg0)) shapeCasts_S4x48x48x768_S4x2304x768 := by
  show StableHlo.after hostOps0 (W0 m ρ c) (Proc.devRef .tc main_v0) = _
  after_results
  rfl
theorem V1_v1 : V1 m ρ c main_v1 = transpose S768x384 [1, 0] (m ((c : Thread nD τ).loc main_arg3)) transposes_S384x768_S768x384_1_0 := by
  show StableHlo.after hostOps0 (W0 m ρ c) (Proc.devRef .tc main_v1) = _
  after_results
theorem V1_v2 : V1 m ρ c main_v2 = transpose S768x384 [1, 0] (m ((c : Thread nD τ).loc main_arg4)) transposes_S384x768_S768x384_1_0 := by
  show StableHlo.after hostOps0 (W0 m ρ c) (Proc.devRef .tc main_v2) = _
  after_results
theorem V1_v3 : V1 m ρ c main_v3 = transpose S768x384 [1, 0] (m ((c : Thread nD τ).loc main_arg5)) transposes_S384x768_S768x384_1_0 := by
  show StableHlo.after hostOps0 (W0 m ρ c) (Proc.devRef .tc main_v3) = _
  after_results
theorem V1_v4 : V1 m ρ c main_v4 = shapeCast S1x384 (m ((c : Thread nD τ).loc main_arg6)) shapeCasts_S384_S1x384 := by
  show StableHlo.after hostOps0 (W0 m ρ c) (Proc.devRef .tc main_v4) = _
  after_results
  rfl
theorem V1_v5 : V1 m ρ c main_v5 = shapeCast S1x384 (m ((c : Thread nD τ).loc main_arg7)) shapeCasts_S384_S1x384 := by
  show StableHlo.after hostOps0 (W0 m ρ c) (Proc.devRef .tc main_v5) = _
  after_results
  rfl
theorem V1_arg1 : V1 m ρ c main_arg1 = m ((c : Thread nD τ).loc main_arg1) := by
  show StableHlo.after hostOps0 (W0 m ρ c) (Proc.devRef .tc main_arg1) = _
  after_results
theorem V1_arg2 : V1 m ρ c main_arg2 = m ((c : Thread nD τ).loc main_arg2) := by
  show StableHlo.after hostOps0 (W0 m ρ c) (Proc.devRef .tc main_arg2) = _
  after_results
theorem W1_arg8 : W1 m ρ c (Proc.devRef .tc main_arg8) = m ((c : Thread nD τ).loc main_arg8) := by
  show StableHlo.after hostOps0 (W0 m ρ c) (Proc.devRef .tc main_arg8) = _
  after_results
theorem W1_arg9 : W1 m ρ c (Proc.devRef .tc main_arg9) = m ((c : Thread nD τ).loc main_arg9) := by
  show StableHlo.after hostOps0 (W0 m ρ c) (Proc.devRef .tc main_arg9) = _
  after_results

/-! ## Between the regions -/

/-- The three head arrays the second region reads are what the first region's write-backs leave. -/
theorem V2_q : V2 m ρ c main_v6_0 = (dat0 (V1 m ρ) c).arrAt 8 cfg0.N := W2_arr m ρ c 8
theorem V2_k : V2 m ρ c main_v6_1 = (dat0 (V1 m ρ) c).arrAt 9 cfg0.N := W2_arr m ρ c 9
theorem V2_v : V2 m ρ c main_v6_2 = (dat0 (V1 m ρ) c).arrAt 10 cfg0.N := W2_arr m ρ c 10

theorem W3_arg8 : W3 m ρ c (Proc.devRef .tc main_arg8) = m ((c : Thread nD τ).loc main_arg8) :=
  (W3_of_ne m ρ c main_arg8 (by decide)).trans ((W2_of_ne m ρ c main_arg8 (by decide)).trans (W1_arg8 m ρ c))
theorem W3_arg9 : W3 m ρ c (Proc.devRef .tc main_arg9) = m ((c : Thread nD τ).loc main_arg9) :=
  (W3_of_ne m ρ c main_arg9 (by decide)).trans ((W2_of_ne m ρ c main_arg9 (by decide)).trans (W1_arg9 m ρ c))

/-- The attention output the third region reads is what the second region's write-backs leave. -/
theorem V4_v7 : V4 m ρ c main_v7 = (dat1 (V2 m ρ) c).arrAt 3 cfg1.N := by
  show StableHlo.after hostOps2 (W3 m ρ c) (Proc.devRef .tc main_v7) = _
  after_results
  exact W3_arr m ρ c 3
theorem V4_v8 : V4 m ρ c main_v8 = transpose S384x768 [1, 0] (m ((c : Thread nD τ).loc main_arg8)) transposes_S768x384_S384x768_1_0 := by
  show StableHlo.after hostOps2 (W3 m ρ c) (Proc.devRef .tc main_v8) = _
  after_results
  rw [W3_arg8]
theorem V4_v9 : V4 m ρ c main_v9 = shapeCast S1x768 (m ((c : Thread nD τ).loc main_arg9)) shapeCasts_S768_S1x768 := by
  show StableHlo.after hostOps2 (W3 m ρ c) (Proc.devRef .tc main_v9) = _
  after_results
  rw [W3_arg9]
  rfl

/-! ## After the third region -/

theorem W6_v11 : W6 m ρ c (Proc.devRef .tc main_v11)
    = shapeCast S4x48x48x768 ((dat2 (V4 m ρ) c).arrAt 3 cfg2.N) shapeCasts_S4x2304x768_S4x48x48x768 := by
  show StableHlo.after hostOps3 (W5 m ρ c) (Proc.devRef .tc main_v11) = _
  after_results
  rw [show W5 m ρ c (Proc.devRef .tc main_v10) = (dat2 (V4 m ρ) c).arrAt 3 cfg2.N from W5_arr m ρ c 3]
  rfl

end Cert.KernelIdeal.Glue

end
-- ==== Proof.RegionOutBody.lean ====
/-
  The output projection's body at one grid point, read at an index.

  The body reads the eight heads of a [1, 8, 768, 48] block, joins them along lanes into a [768, 384] matrix whose
  column `e` is lane `e % 48` of head `e / 48`, multiplies by a [384, 768] weight block and adds a bias row. Entry
  (p, c) of what it leaves is therefore the 384-term dot product of the merged row `p` with weight column `c`, plus
  the bias at `c`.
-/
import proofs.«138608_j36636071035070_2_alg».proof.Proof.Gen.KernelIdeal.Frame
import proofs.«138608_j36636071035070_2_alg».proof.Proof.Spec
import Idealize.ShloMosaic.Lib.Pipeline.Value
import Idealize.ShloMosaic.Lib.ValueIdx
import Idealize.ShloMosaic.PureOps.Ideal.Laws

noncomputable section

namespace Cert.KernelIdeal.OutR2

open Cert.KernelIdeal Cert.KernelIdeal.Gen Idealize.ShloMosaic Idealize.ShloMosaic.ValueIdx Cert.Attn

local notation "Dow" => dot_S768x384_S384x768_S768x768_1_0_0_1_n_n

/-! ## The projection matmul at an index: a sum over the 384 merged columns -/

theorem ow_lhs_0 (i : S768x768.Idx) (q : (Dow).contr.Idx) : ((Dow).lhsIdx i q 0).val = (i 0).val := by
  unfold DotDims.lhsIdx
  rw [dif_neg (show ¬(0 : Fin S768x384.rank) ∈ (Dow).lhsBatch by decide), dif_pos (show (0 : Fin S768x384.rank) ∈ (Dow).lhsNonContracting by decide)]
  rfl
theorem ow_lhs_1 (i : S768x768.Idx) (q : (Dow).contr.Idx) : ((Dow).lhsIdx i q 1).val = (q ⟨0, by decide⟩).val :=
  (Dow).lhsIdx_val_of_single rfl i q
theorem ow_rhs_0 (i : S768x768.Idx) (q : (Dow).contr.Idx) : ((Dow).rhsIdx i q 0).val = (q ⟨0, by decide⟩).val :=
  (Dow).rhsIdx_val_of_single rfl i q
theorem ow_rhs_1 (i : S768x768.Idx) (q : (Dow).contr.Idx) : ((Dow).rhsIdx i q 1).val = (i 1).val := by
  unfold DotDims.rhsIdx
  rw [dif_neg (show ¬(1 : Fin S384x768.rank) ∈ (Dow).rhsBatch by decide), dif_pos (show (1 : Fin S384x768.rank) ∈ (Dow).rhsNonContracting by decide)]
  rfl

theorem matmul_ow_apply (l : FVec Ideal S768x384 .bf16) (r : FVec Ideal S384x768 .bf16) (p c : Fin 768) :
    matmul (Dow) none l r (constant S768x768 .f32 0x00000000#32) (ix2 p c)
      = ∑ e : Fin 384, l (ix2 p e) * r (ix2 e c) := by
  simp only [matmul]
  rw [Ideal.matmul_constant_zero_apply, ← Equiv.sum_comp (contrEquiv1 (Dow) 384 rfl rfl).symm]
  refine Finset.sum_congr rfl fun k _ => ?_
  have hk := contrEquiv1_symm_val (Dow) 384 rfl rfl k
  have el : (Dow).lhsIdx (ix2 p c) ((contrEquiv1 (Dow) 384 rfl rfl).symm k) = ix2 p k := funext fun a => Fin.ext (by
    match a with
    | ⟨0, _⟩ => exact ow_lhs_0 _ _
    | ⟨1, _⟩ => exact (ow_lhs_1 _ _).trans hk)
  have er : (Dow).rhsIdx (ix2 p c) ((contrEquiv1 (Dow) 384 rfl rfl).symm k) = ix2 k c := funext fun a => Fin.ext (by
    match a with
    | ⟨0, _⟩ => exact (ow_rhs_0 _ _).trans hk
    | ⟨1, _⟩ => exact ow_rhs_1 _ _)
  rw [el, er]

/-! ## One head's piece of the block -/

theorem inbH (h : Fin 8) : ∀ a, (![0, h.val, 0, 0] : Fin 4 → Nat) a + S1x1x768x48.size a ≤ S1x8x768x48.size a := by
  intro a; have := h.isLt
  match a with
  | ⟨0, _⟩ => show 0 + 1 ≤ 1; omega
  | ⟨1, _⟩ => show h.val + 1 ≤ 8; omega
  | ⟨2, _⟩ => show 0 + 768 ≤ 768; omega
  | ⟨3, _⟩ => show 0 + 48 ≤ 48; omega

/-- Head `h` of a staged [1, 8, 768, 48] block, as a [768, 48] matrix. -/
def headPiece (x0 : Vec Ideal S1x8x768x48 .bf16) (h : Fin 8) : S768x48.Idx → EReal :=
  shapeCast S768x48 (View.ld x0 (Rect.unit (s := S1x8x768x48) ![0, h.val, 0, 0] S1x1x768x48.size (inbH h))) shapeCasts_S1x1x768x48_S768x48

theorem headPiece_apply (x0 : Vec Ideal S1x8x768x48 .bf16) (h : Fin 8) (p : Fin 768) (d : Fin 48) :
    headPiece x0 h (ix2 p d) = x0 (ix4 0 h p d) := by
  unfold headPiece
  refine (shapeCast_apply _ _ (ix2 p d) (ix4 0 0 p d) ?_).trans ?_
  · rw [Shape.rowMajor_val_four, Shape.rowMajor_val_two]
    show ((0 * 1 + 0) * 768 + p.val) * 48 + d.val = p.val * 48 + d.val
    omega
  · show x0 _ = x0 _
    congr 1
    funext a
    apply Fin.ext
    match a with
    | ⟨0, _⟩ => show 0 + 1 * 0 = 0; rfl
    | ⟨1, _⟩ => show h.val + 1 * 0 = h.val; omega
    | ⟨2, _⟩ => show 0 + 1 * p.val = p.val; omega
    | ⟨3, _⟩ => show 0 + 1 * d.val = d.val; omega

/-! ## Eight [768, 48] pieces joined along lanes: column `e` is lane `e % 48` of piece `e / 48` -/

theorem concat8_apply (f : Fin 8 → (S768x48.Idx → EReal))
    (hc : Shape.Concatenates ((List.ofFn fun n : Fin 8 => (⟨S768x48, f n⟩ : (s : Shape) × (s.Idx → EReal))).map (·.1)) S768x384 1)
    (p : Fin 768) (e : Fin 384) :
    concatenate S768x384 1 (List.ofFn fun n : Fin 8 => (⟨S768x48, f n⟩ : (s : Shape) × (s.Idx → EReal))) hc (ix2 p e)
      = f (headOf e) (ix2 p (laneOf e)) :=
  concatenate_ofFn_apply (t := S768x384) (s₁ := S768x48) 1 f hc rfl 48 rfl (ix2 p e) (headOf e) rfl (ix2 p (laneOf e)) rfl
    (fun b hb => by
      match b with
      | ⟨0, _⟩ => rfl
      | ⟨1, _⟩ => exact absurd rfl hb)

/-! ## The body's two payloads without their intermediate names -/

theorem k2_pay1_eq (v20 : FVec Ideal S768x768 .f32) (v21 : Vec Ideal S1x768 .f32) :
    k2_pay1 v20 v21 = shapeCast S1x768x768 (addf v20 (broadcastTo S768x768 (shapeCast S1x768 v21 shapeCasts_S1x768_S1x768) broadcasts_S1x768_S768x768)) shapeCasts_S768x768_S1x768x768 := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The eight head pieces of a block, in head order. -/
abbrev headList (x0 : Vec Ideal S1x8x768x48 .bf16) : List ((s : Shape) × (s.Idx → EReal)) :=
  List.ofFn fun n : Fin 8 => (⟨S768x48, headPiece x0 n⟩ : (s : Shape) × (s.Idx → EReal))

theorem headList_cat (x0 : Vec Ideal S1x8x768x48 .bf16) : Shape.Concatenates ((headList x0).map (·.1)) S768x384 1 :=
  concatenates_S768x48_S768x48_S768x48_S768x48_S768x48_S768x48_S768x48_S768x48_S768x384_d1

theorem k2_pay2_eq (x0 : Vec Ideal S1x8x768x48 .bf16) (x1 : Vec Ideal S384x768 .f32) :
    k2_pay2 (View.ld x0 r2_0) (View.ld x0 r2_1) (View.ld x0 r2_2) (View.ld x0 r2_3) (View.ld x0 r2_4) (View.ld x0 r2_5) (View.ld x0 r2_6) (View.ld x0 r2_7) x1
      = matmul (Dow) none
          (concatenate S768x384 1 (headList x0) (headList_cat x0) : FVec Ideal S768x384 .bf16)
          (truncf .bf16 (shapeCast S384x768 x1 shapeCasts_S384x768_S384x768) bitsLt_bf16_f32)
          (constant S768x768 .f32 0x00000000#32) := rfl

/-- What one grid point leaves in the output block: row `p`, column `c` is the 384-term dot product of the merged head
    row with the weight column, plus the bias at `c`. -/
theorem proj_block (x0 : Vec Ideal S1x8x768x48 .bf16) (x1 : Vec Ideal S384x768 .f32) (x2 : Vec Ideal S1x768 .f32) (p c : Fin 768) :
    out2_3 x0 x1 x2 (ix3 0 p c) = (∑ e : Fin 384, x0 (ix4 0 (headOf e) p (laneOf e)) * x1 (ix2 e c)) + x2 (ix2 0 c) := by
  unfold out2_3
  rw [View.canon_unit_zero hz3]
  simp only [View.ld_unit_zero (S := S384x768) hz2, View.ld_unit_zero (S := S1x768) hz2]
  rw [k2_pay1_eq, k2_pay2_eq]
  refine (shapeCast_apply _ _ (ix3 0 p c) (ix2 p c) ?_).trans ?_
  · rw [Shape.rowMajor_val_two, Shape.rowMajor_val_three]
    show p.val * 768 + c.val = ((0 * 768 + p.val) * 768) + c.val
    omega
  rw [addf_apply, matmul_ow_apply]
  congr 1
  · refine Finset.sum_congr rfl fun e _ => ?_
    rw [concat8_apply, headPiece_apply, truncf_apply, shapeCast_self]
  · refine (broadcastTo_apply _ _ (ix2 p c) (ix2 0 c) ?_).trans ?_
    · intro a
      match a with
      | ⟨0, _⟩ => rfl
      | ⟨1, _⟩ => rfl
    · rw [shapeCast_self]

/-- The same at any index of the block: its leading coordinate is 0, the block having one batch entry. -/
theorem proj_block_idx (x0 : Vec Ideal S1x8x768x48 .bf16) (x1 : Vec Ideal S384x768 .f32) (x2 : Vec Ideal S1x768 .f32) (y : S1x768x768.Idx) :
    out2_3 x0 x1 x2 y = (∑ e : Fin 384, x0 (ix4 0 (headOf e) (y 1) (laneOf e)) * x1 (ix2 e (y 2))) + x2 (ix2 0 (y 2)) := by
  obtain ⟨a, p, q, rfl⟩ : ∃ (a : Fin 1) (p q : Fin 768), y = ix3 a p q := ⟨y 0, y 1, y 2, eq_ix3 y⟩
  have ha : a = 0 := Fin.ext (by have := a.isLt; omega)
  subst ha
  exact proj_block x0 x1 x2 p q

end Cert.KernelIdeal.OutR2

end
-- ==== Proof.RegionOut.lean ====
/-
  The output projection's array after its twelve grid points.

  Grid point (b, j) reads batch `b`, rows 768 j … 768 j + 767 of all eight heads, the whole weight and the bias, and
  writes rows 768 j … 768 j + 767 of batch `b` of the result. The twelve blocks tile the [4, 2304, 768] result, so the
  array ends as one function of the three input arrays: entry (b, n, c) is the dot product over the 384 merged
  columns of the attention output at (b, ·, n, ·) with weight column `c`, plus the bias at `c`.
-/
import proofs.«138608_j36636071035070_2_alg».proof.Proof.RegionOutBody

set_option maxRecDepth 16384

noncomputable section

namespace Cert.KernelIdeal.OutR2

open Cert.KernelIdeal Cert.KernelIdeal.Gen Idealize.ShloMosaic Idealize.ShloMosaic.TcCoe Idealize.ShloMosaic.ValueIdx Idealize.SL.Sem Cert.Attn
open Idealize.ShloMosaic.Pipeline (Dat)

variable (V : (c : Dev nD) → (b : Ref sig .tc) → Buf (Elt Ideal) ((c : Thread nD τ).loc b)) (c : Dev nD)

/-- The region's three input arrays as functions of an index. -/
abbrev arrO : S4x8x2304x48.Idx → EReal := V c main_v7
abbrev arrW : S384x768.Idx → EReal := V c main_v8
abbrev arrB : S1x768.Idx → EReal := V c main_v9

/-- The result array as a function of the attention output, the transposed weight and the bias row. -/
def projArr : S4x2304x768.Idx → EReal := fun i =>
  outp (heads4 (V c main_v7)) (fun cc e => V c main_v8 (ix2 e cc)) (fun cc => V c main_v9 (ix2 0 cc)) (i 0) (i 1) (i 2)

/-- The block index maps over the grid: the head block moves with the output block on the batch and row axes, the
    weight and the bias stay at block 0, and the output block indices range over 4 batches and 3 row tiles. -/
theorem idx_facts : ∀ t : Fin cfg2.N,
    win2_0.index t (0 : Fin 4) = win2_3.index t (0 : Fin 3)
    ∧ win2_0.index t (1 : Fin 4) = 0
    ∧ win2_0.index t (2 : Fin 4) = win2_3.index t (1 : Fin 3)
    ∧ win2_0.index t (3 : Fin 4) = 0
    ∧ win2_1.index t (0 : Fin 2) = 0 ∧ win2_1.index t (1 : Fin 2) = 0
    ∧ win2_2.index t (0 : Fin 2) = 0 ∧ win2_2.index t (1 : Fin 2) = 0
    ∧ win2_3.index t (2 : Fin 3) = 0
    ∧ win2_3.index t (0 : Fin 3) ≤ 3 ∧ win2_3.index t (1 : Fin 3) ≤ 2 :=
  (by decide +kernel : ∀ t : Fin grid2.N, _)

/-- Every (batch, row tile) is some grid point's output block. -/
theorem idx_onto : ∀ (q0 : Fin 4) (q1 : Fin 3), ∃ t : Fin cfg2.N, win2_3.index t = ![q0.val, q1.val, 0] :=
  (by decide +kernel : ∀ (q0 : Fin 4) (q1 : Fin 3), ∃ t : Fin grid2.N, win2_3.index t = ![q0.val, q1.val, 0])

/-- What grid point `t` writes back is block `t` of `projArr`. -/
theorem flushed_eq (t : Fin cfg2.N) :
    (dat2 (F := Ideal) V c).flushed 3 t = ((cfg2.win 3).blk t).view.read (Elt Ideal) (projArr V c) := by
  show (cfg2.win 3).cut (grid2.coords t) ((dat2 (F := Ideal) V c).after 3 t) = _
  rw [after2_3]
  obtain ⟨e0, e1, e2, e3, e4, e5, e6, e7, e8, e9, e10⟩ := idx_facts t
  funext y
  have hy0 : (y 0).val < 1 := (y 0).isLt
  have hy1 : (y 1).val < 768 := (y 1).isLt
  have hy2 : (y 2).val < 768 := (y 2).isLt
  refine (proj_block_idx (iblk2 V c 0 t) (iblk2 V c 1 t) (iblk2 V c 2 t) y).trans ?_
  show (∑ e : Fin 384, arrO V c (((cfg2.win 0).blk t).view.emb (ix4 0 (headOf e) (y 1) (laneOf e)))
          * arrW V c (((cfg2.win 1).blk t).view.emb (ix2 e (y 2))))
        + arrB V c (((cfg2.win 2).blk t).view.emb (ix2 0 (y 2)))
      = (∑ e : Fin 384, arrO V c (ix4 ((((cfg2.win 3).blk t).view.emb y) 0) (headOf e) ((((cfg2.win 3).blk t).view.emb y) 1) (laneOf e))
          * arrW V c (ix2 e ((((cfg2.win 3).blk t).view.emb y) 2)))
        + arrB V c (ix2 0 ((((cfg2.win 3).blk t).view.emb y) 2))
  have h0 : ∀ (h : Fin 8) (d : Fin 48), ((cfg2.win 0).blk t).view.emb (ix4 0 h (y 1) d)
      = ix4 ((((cfg2.win 3).blk t).view.emb y) 0) h ((((cfg2.win 3).blk t).view.emb y) 1) d := by
    intro h d
    funext a; apply Fin.ext
    match a with
    | ⟨0, _⟩ => show win2_0.index t (0 : Fin 4) * 1 + 1 * 0 = win2_3.index t (0 : Fin 3) * 1 + 1 * (y 0).val; omega
    | ⟨1, _⟩ => show win2_0.index t (1 : Fin 4) * 8 + 1 * h.val = h.val; omega
    | ⟨2, _⟩ => show win2_0.index t (2 : Fin 4) * 768 + 1 * (y 1).val = win2_3.index t (1 : Fin 3) * 768 + 1 * (y 1).val; omega
    | ⟨3, _⟩ => show win2_0.index t (3 : Fin 4) * 48 + 1 * d.val = d.val; omega
  have h1 : ∀ e : Fin 384, ((cfg2.win 1).blk t).view.emb (ix2 e (y 2)) = ix2 e ((((cfg2.win 3).blk t).view.emb y) 2) := by
    intro e
    funext a; apply Fin.ext
    match a with
    | ⟨0, _⟩ => show win2_1.index t (0 : Fin 2) * 384 + 1 * e.val = e.val; omega
    | ⟨1, _⟩ => show win2_1.index t (1 : Fin 2) * 768 + 1 * (y 2).val = win2_3.index t (2 : Fin 3) * 768 + 1 * (y 2).val; omega
  have h2 : ((cfg2.win 2).blk t).view.emb (ix2 0 (y 2)) = ix2 0 ((((cfg2.win 3).blk t).view.emb y) 2) := by
    funext a; apply Fin.ext
    match a with
    | ⟨0, _⟩ => show win2_2.index t (0 : Fin 2) * 1 + 1 * 0 = 0; omega
    | ⟨1, _⟩ => show win2_2.index t (1 : Fin 2) * 768 + 1 * (y 2).val = win2_3.index t (2 : Fin 3) * 768 + 1 * (y 2).val; omega
  rw [h2]
  congr 1
  exact Finset.sum_congr rfl fun e _ => by rw [h0, h1]; rfl

/-- An index of the result is in grid point `t`'s block iff each coordinate is in the block's range on its axis. -/
theorem mem_blk (t : Fin cfg2.N) (i : S4x2304x768.Idx) :
    i ∈ ((cfg2.win 3).blk t).view.set ↔ ∀ a : Fin 3, win2_3.index t a * S1x768x768.size a ≤ (i a).val ∧ (i a).val < win2_3.index t a * S1x768x768.size a + S1x768x768.size a := by
  show i ∈ ((View.whole main_v10).slice (win2_3.rect t)).set ↔ _
  rw [View.set_slice_whole, Rect.mem_set_unit]
  exact Iff.rfl

/-- The blocks tile the result: row `n` of batch `b` is in the block of the point with row tile `n / 768`. -/
theorem cover (i : S4x2304x768.Idx) : ∃ t : Fin cfg2.N, (cfg2.win 3).flush t = true ∧ i ∈ ((cfg2.win 3).blk t).view.set := by
  have hi0 : (i 0).val < 4 := (i 0).isLt
  have hi1 : (i 1).val < 2304 := (i 1).isLt
  have hi2 : (i 2).val < 768 := (i 2).isLt
  obtain ⟨t, ht⟩ := idx_onto ⟨(i 0).val, hi0⟩ ⟨(i 1).val / 768, by omega⟩
  have q0 : win2_3.index t (0 : Fin 3) = (i 0).val := congrFun ht 0
  have q1 : win2_3.index t (1 : Fin 3) = (i 1).val / 768 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 768 ≤ (i 1).val ∧ (i 1).val < win2_3.index t (1 : Fin 3) * 768 + 768; omega
  | ⟨2, _⟩ => show win2_3.index t (2 : Fin 3) * 768 ≤ (i 2).val ∧ (i 2).val < win2_3.index t (2 : Fin 3) * 768 + 768; omega

/-- The result array after the region: the projection of the attention output, entry by entry. -/
theorem outp_final : (dat2 (F := Ideal) V c).arrAt 3 cfg2.N = fun i =>
    outp (heads4 (V c main_v7)) (fun cc e => V c main_v8 (ix2 e cc)) (fun cc => V c main_v9 (ix2 0 cc)) (i 0) (i 1) (i 2) :=
  (dat2 (F := Ideal) V c).arrAt_eq_of_cover 3 (projArr V c) (fun t _ => flushed_eq V c t) (cover)

end Cert.KernelIdeal.OutR2

end
-- ==== Proof.KernelValue.lean ====
/-
  The idealized kernel program's result as one function of its arguments.

  The result buffer is the unflattened third region's output; that output is the output projection of the second
  region's output with the transposed weight and the bias row the host prepared; the second region's output is the
  late-division attention of the first region's three head arrays; and those are the rotated query heads, rotated key
  heads and value heads of the flattened image with the transposed weights. A weight transposed on the host and read
  transposed by the region is the weight itself, a bias given a unit row axis and read along that row is the bias.
  The first two regions' values are hypotheses of this module's theorems, stated for any entry contents; they are
  supplied where the claim is assembled.
-/
import proofs.«138608_j36636071035070_2_alg».proof.Proof.Glue
import proofs.«138608_j36636071035070_2_alg».proof.Proof.RegionOut
import Idealize.ShloMosaic.Lib.ValueLayout

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen Cert.Attn

variable (m : (ℓ : Loc nD τ sig) → Buf (Elt Ideal) ℓ) (ρ : Dev nD → PrngReg) (c : Dev nD)

section Hyp
variable
  (q_final : ∀ (V : (c : Dev nD) → (b : Ref sig .tc) → Buf (Elt Ideal) ((c : Thread nD τ).loc b)) (c : Dev nD),
    (dat0 (F := Ideal) V c).arrAt 8 cfg0.N = fun i => qh (fun b n k => V c main_v0 (ix3 b n k)) (fun e k => V c main_v1 (ix2 k e)) (fun e => V c main_v4 (ix2 0 e)) (fun n d => V c main_arg1 (ix2 n d)) (fun n d => V c main_arg2 (ix2 n d)) (i 0) (i 1) (i 2) (i 3))
  (k_final : ∀ (V : (c : Dev nD) → (b : Ref sig .tc) → Buf (Elt Ideal) ((c : Thread nD τ).loc b)) (c : Dev nD),
    (dat0 (F := Ideal) V c).arrAt 9 cfg0.N = fun i => kh (fun b n k => V c main_v0 (ix3 b n k)) (fun e k => V c main_v2 (ix2 k e)) (fun n d => V c main_arg1 (ix2 n d)) (fun n d => V c main_arg2 (ix2 n d)) (i 0) (i 1) (i 2) (i 3))
  (v_final : ∀ (V : (c : Dev nD) → (b : Ref sig .tc) → Buf (Elt Ideal) ((c : Thread nD τ).loc b)) (c : Dev nD),
    (dat0 (F := Ideal) V c).arrAt 10 cfg0.N = fun i => vh (fun b n k => V c main_v0 (ix3 b n k)) (fun e k => V c main_v3 (ix2 k e)) (fun e => V c main_v5 (ix2 0 e)) (i 0) (i 1) (i 2) (i 3))
  (attn_final : ∀ (V : (c : Dev nD) → (b : Ref sig .tc) → Buf (Elt Ideal) ((c : Thread nD τ).loc b)) (c : Dev nD),
    (dat1 (F := Ideal) V c).arrAt 3 cfg1.N = fun i => attnK (heads4 (V c main_v6_0)) (heads4 (V c main_v6_1)) (heads4 (V c main_v6_2)) (i 0) (i 1) (i 2) (i 3))

/-- The flattened image the first region reads is the token rows of the image argument. -/
theorem tokens_eq : (fun b n k => V1 m ρ c main_v0 (ix3 b n k)) = tokens (m ((c : Thread nD τ).loc main_arg0)) := by
  rw [Glue.V1_v0]; rfl
/-- A projection weight transposed on the host and read transposed is the weight. -/
theorem wq_eq : (fun e k => V1 m ρ c main_v1 (ix2 k e)) = mat2 (m ((c : Thread nD τ).loc main_arg3)) := by
  funext e k; rw [Glue.V1_v1]; exact transpose_ix2_apply _ _ k e
theorem wk_eq : (fun e k => V1 m ρ c main_v2 (ix2 k e)) = mat2 (m ((c : Thread nD τ).loc main_arg4)) := by
  funext e k; rw [Glue.V1_v2]; exact transpose_ix2_apply _ _ k e
theorem wv_eq : (fun e k => V1 m ρ c main_v3 (ix2 k e)) = mat2 (m ((c : Thread nD τ).loc main_arg5)) := by
  funext e k; rw [Glue.V1_v3]; exact transpose_ix2_apply _ _ k e
/-- A bias with a unit row axis read along that row is the bias. -/
theorem qb_eq : (fun e => V1 m ρ c main_v4 (ix2 0 e)) = vec1 (m ((c : Thread nD τ).loc main_arg6)) := by
  funext e; rw [Glue.V1_v4]; exact shapeCast_a_1a_apply _ _ 0 e
theorem vb_eq : (fun e => V1 m ρ c main_v5 (ix2 0 e)) = vec1 (m ((c : Thread nD τ).loc main_arg7)) := by
  funext e; rw [Glue.V1_v5]; exact shapeCast_a_1a_apply _ _ 0 e
theorem cos_eq : (fun n d => V1 m ρ c main_arg1 (ix2 n d)) = mat2 (m ((c : Thread nD τ).loc main_arg1)) := by
  rw [Glue.V1_arg1]; rfl
theorem sin_eq : (fun n d => V1 m ρ c main_arg2 (ix2 n d)) = mat2 (m ((c : Thread nD τ).loc main_arg2)) := by
  rw [Glue.V1_arg2]; rfl
theorem wp_eq : (fun cc e => V4 m ρ c main_v8 (ix2 e cc)) = mat2 (m ((c : Thread nD τ).loc main_arg8)) := by
  funext cc e; rw [Glue.V4_v8]; exact transpose_ix2_apply _ _ e cc
theorem bp_eq : (fun cc => V4 m ρ c main_v9 (ix2 0 cc)) = vec1 (m ((c : Thread nD τ).loc main_arg9)) := by
  funext cc; rw [Glue.V4_v9]; exact shapeCast_a_1a_apply _ _ 0 cc

include q_final in
/-- The query heads the second region reads. -/
theorem q_eq : heads4 (V2 m ρ c main_v6_0)
    = Qof (m ((c : Thread nD τ).loc main_arg0)) (m ((c : Thread nD τ).loc main_arg1)) (m ((c : Thread nD τ).loc main_arg2))
        (m ((c : Thread nD τ).loc main_arg3)) (m ((c : Thread nD τ).loc main_arg6)) := by
  rw [Glue.V2_q, q_final (V1 m ρ) c, tokens_eq, wq_eq, qb_eq, cos_eq, sin_eq]; rfl
include k_final in
theorem k_eq : heads4 (V2 m ρ c main_v6_1)
    = Kof (m ((c : Thread nD τ).loc main_arg0)) (m ((c : Thread nD τ).loc main_arg1)) (m ((c : Thread nD τ).loc main_arg2))
        (m ((c : Thread nD τ).loc main_arg4)) := by
  rw [Glue.V2_k, k_final (V1 m ρ) c, tokens_eq, wk_eq, cos_eq, sin_eq]; rfl
include v_final in
theorem v_eq : heads4 (V2 m ρ c main_v6_2)
    = Vof (m ((c : Thread nD τ).loc main_arg0)) (m ((c : Thread nD τ).loc main_arg5)) (m ((c : Thread nD τ).loc main_arg7)) := by
  rw [Glue.V2_v, v_final (V1 m ρ) c, tokens_eq, wv_eq, vb_eq]; rfl

include q_final k_final v_final attn_final in
/-- The result buffer after the run is the late-division specification of the argument arrays. -/
theorem kernel_value : W6 m ρ c (Proc.devRef .tc main_v11)
    = GK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  have hO : heads4 (V4 m ρ c main_v7) = attnK (heads4 (V2 m ρ c main_v6_0)) (heads4 (V2 m ρ c main_v6_1)) (heads4 (V2 m ρ c main_v6_2)) := by
    rw [Glue.V4_v7, attn_final (V2 m ρ) c]; rfl
  rw [Glue.W6_v11, OutR2.outp_final (V4 m ρ) c, hO, q_eq m ρ c q_final, k_eq m ρ c k_final, v_eq m ρ c v_final, wp_eq, bp_eq]
  rfl

end Hyp

end Cert.KernelIdeal.KernelValue

end
-- ==== Proof.RegionQKVHead.lean ====
/-
  One grid point of the fused projection: what the body's arithmetic leaves at a row and a lane, read over
  abstract blocks on the extended reals.

  A token block of 768 rows is multiplied with a 768 x 384 weight block (every float format change is the identity
  here), a bias row may be added, and the 384 output columns are read as 8 heads of 48 lanes: head h is the
  columns 48 h .. 48 h + 47.  A query or key head is then rotated by the cosine and sine rows of its position.
-/
import proofs.«138608_j36636071035070_2_alg».proof.Proof.Gen.KernelIdeal.Frame
import proofs.«138608_j36636071035070_2_alg».proof.Proof.Spec
import Idealize.ShloMosaic.Lib.Pipeline.Value
import Idealize.ShloMosaic.PureOps.Ideal.Laws

noncomputable section

namespace Cert.KernelIdeal.QKV

open Cert.KernelIdeal Cert.KernelIdeal.Gen Idealize.ShloMosaic Idealize.ShloMosaic.ValueIdx

/-! ## The projection at a row and a column -/

theorem lhs0 (j : S768x384.Idx) (q : dot_S768x768_S768x384_S768x384_1_0_0_1_n_n.contr.Idx) :
    (dot_S768x768_S768x384_S768x384_1_0_0_1_n_n.lhsIdx j q 0).val = (j 0).val := by
  unfold DotDims.lhsIdx
  rw [dif_neg (show ¬(0 : Fin S768x768.rank) ∈ dot_S768x768_S768x384_S768x384_1_0_0_1_n_n.lhsBatch by decide),
    dif_pos (show (0 : Fin S768x768.rank) ∈ dot_S768x768_S768x384_S768x384_1_0_0_1_n_n.lhsNonContracting by decide)]
  rfl
theorem lhs1 (j : S768x384.Idx) (q : dot_S768x768_S768x384_S768x384_1_0_0_1_n_n.contr.Idx) :
    (dot_S768x768_S768x384_S768x384_1_0_0_1_n_n.lhsIdx j q 1).val = (q ⟨0, by decide⟩).val :=
  dot_S768x768_S768x384_S768x384_1_0_0_1_n_n.lhsIdx_val_of_single rfl j q
theorem rhs0 (j : S768x384.Idx) (q : dot_S768x768_S768x384_S768x384_1_0_0_1_n_n.contr.Idx) :
    (dot_S768x768_S768x384_S768x384_1_0_0_1_n_n.rhsIdx j q 0).val = (q ⟨0, by decide⟩).val :=
  dot_S768x768_S768x384_S768x384_1_0_0_1_n_n.rhsIdx_val_of_single rfl j q
theorem rhs1 (j : S768x384.Idx) (q : dot_S768x768_S768x384_S768x384_1_0_0_1_n_n.contr.Idx) :
    (dot_S768x768_S768x384_S768x384_1_0_0_1_n_n.rhsIdx j q 1).val = (j 1).val := by
  unfold DotDims.rhsIdx
  rw [dif_neg (show ¬(1 : Fin S768x384.rank) ∈ dot_S768x768_S768x384_S768x384_1_0_0_1_n_n.rhsBatch by decide),
    dif_pos (show (1 : Fin S768x384.rank) ∈ dot_S768x768_S768x384_S768x384_1_0_0_1_n_n.rhsNonContracting by decide)]
  rfl

/-- The product of a token block with a weight block, at row `r` and column `e`: the dot product of token row `r`
    with weight column `e`. -/
theorem proj_apply (x0 : Vec Ideal S1x768x768 .f32) (w : Vec Ideal S768x384 .f32) (r : Fin 768) (e : Fin 384) :
    (matmul dot_S768x768_S768x384_S768x384_1_0_0_1_n_n none (k0_pay3 x0)
        (truncf .bf16 (shapeCast S768x384 w shapeCasts_S768x384_S768x384) bitsLt_bf16_f32)
        (constant S768x384 .f32 0x00000000#32) : FVec Ideal S768x384 .f32) (ix2 r e)
      = Attn.dot768 (fun k => x0 (ix3 0 r k)) (fun k => w (ix2 k e)) := by
  simp only [matmul]
  rw [Ideal.matmul_constant_zero_apply,
    ← Equiv.sum_comp (contrEquiv1 dot_S768x768_S768x384_S768x384_1_0_0_1_n_n 768 rfl rfl).symm]
  unfold Attn.dot768
  refine Finset.sum_congr rfl fun k _ => ?_
  have hk := contrEquiv1_symm_val dot_S768x768_S768x384_S768x384_1_0_0_1_n_n 768 rfl rfl k
  congr 1
  · unfold k0_pay3
    show shapeCast S768x768 x0 shapeCasts_S1x768x768_S768x768 _ = _
    refine shapeCast_apply x0 shapeCasts_S1x768x768_S768x768 _ (ix3 0 r k) ?_
    rewrite [Shape.rowMajor_val_three, Shape.rowMajor_val_two, lhs0, lhs1, hk]
    show (0 * 768 + r.val) * 768 + k.val = r.val * 768 + k.val
    omega
  · rw [shapeCast_self]
    show w _ = w _
    congr 1
    funext a
    apply Fin.ext
    match a with
    | ⟨0, _⟩ => exact (rhs0 _ _).trans hk
    | ⟨1, _⟩ => exact rhs1 _ _

/-- A bias row broadcast over the 768 rows, at row `r` and column `e`: the bias of column `e`. -/
theorem bias_apply (x4 : Vec Ideal S1x384 .f32) (r : Fin 768) (e : Fin 384) :
    (broadcastTo S768x384 (shapeCast S1x384 x4 shapeCasts_S1x384_S1x384) broadcasts_S1x384_S768x384
        : FVec Ideal S768x384 .f32) (ix2 r e) = x4 (ix2 0 e) := by
  rw [shapeCast_self]
  refine broadcastTo_apply x4 broadcasts_S1x384_S768x384 (ix2 r e) (ix2 0 e) fun a => ?_
  match a with
  | ⟨0, _⟩ => show (0 : Nat) = if (1 : Nat) = 1 then 0 else r.val; rw [if_pos rfl]
  | ⟨1, _⟩ => show e.val = if (384 : Nat) = 1 then 0 else e.val; rw [if_neg (by decide)]

/-- The query projection with its bias, at a row and a column. -/
theorem pay4_apply (x0 : Vec Ideal S1x768x768 .f32) (w : Vec Ideal S768x384 .f32) (x4 : Vec Ideal S1x384 .f32)
    (r : Fin 768) (e : Fin 384) :
    k0_pay4 x0 w x4 (ix2 r e) = Attn.dot768 (fun k => x0 (ix3 0 r k)) (fun k => w (ix2 k e)) + x4 (ix2 0 e) := by
  unfold k0_pay4
  show _ + _ = _
  exact congrArg₂ (· + ·) (proj_apply x0 w r e) (bias_apply x4 r e)

/-- The key projection (no bias), at a row and a column. -/
theorem pay5_apply (x0 : Vec Ideal S1x768x768 .f32) (w : Vec Ideal S768x384 .f32) (r : Fin 768) (e : Fin 384) :
    k0_pay5 x0 w (ix2 r e) = Attn.dot768 (fun k => x0 (ix3 0 r k)) (fun k => w (ix2 k e)) := by
  unfold k0_pay5
  exact proj_apply x0 w r e

/-- The value projection with its bias, at a row and a column. -/
theorem pay6_apply (x0 : Vec Ideal S1x768x768 .f32) (w : Vec Ideal S768x384 .f32) (x5 : Vec Ideal S1x384 .f32)
    (r : Fin 768) (e : Fin 384) :
    k0_pay6 x0 w x5 (ix2 r e) = Attn.dot768 (fun k => x0 (ix3 0 r k)) (fun k => w (ix2 k e)) + x5 (ix2 0 e) := by
  unfold k0_pay6
  show _ + _ = _
  exact congrArg₂ (· + ·) (proj_apply x0 w r e) (bias_apply x5 r e)

/-! ## One head: 48 consecutive columns, rotated -/

/-- The 48 columns from offset `o` of a 384-column block. -/
def headSlice (o : Nat) (hs : S768x384.Slices ![0, o] S768x48) (p : FVec Ideal S768x384 .f32) : FVec Ideal S768x48 .f32 :=
  extractStridedSlice S768x48 ![0, o] p hs

theorem headSlice_apply (o : Nat) (hs : S768x384.Slices ![0, o] S768x48) (p : FVec Ideal S768x384 .f32)
    (r : Fin 768) (d : Fin 48) (e : Fin 384) (he : e.val = o + d.val) :
    headSlice o hs p (ix2 r d) = p (ix2 r e) := by
  unfold headSlice
  refine extractStridedSlice_apply _ p hs (ix2 r d) (ix2 r e) fun a => ?_
  match a with
  | ⟨0, _⟩ => show r.val = 0 + r.val; omega
  | ⟨1, _⟩ => exact he

/-- Rotate-half of a 48-lane block as the body spells it: the upper 24 lanes subtracted from a zero splat, then the lower 24
    lanes, side by side. -/
def rotHalf (t : FVec Ideal S768x48 .f32) : FVec Ideal S768x48 .f32 :=
  concatenate S768x48 1
    [⟨S768x24, subf (broadcast S768x24 (Scalar.ofBits .f32 0x00000000#32 : Ideal .f32))
        (extractStridedSlice S768x24 ![0, 24] t slices_S768x48_o0_24_S768x24)⟩,
     ⟨S768x24, extractStridedSlice S768x24 ![0, 0] t slices_S768x48_o0_0_S768x24⟩]
    concatenates_S768x24_S768x24_S768x48_d1

theorem rotHalf_apply (t : FVec Ideal S768x48 .f32) (r : Fin 768) (d : Fin 48) :
    rotHalf t (ix2 r d) = Attn.rot (fun d' => t (ix2 r d')) d := by
  unfold rotHalf Attn.rot
  by_cases hd : d.val < 24
  · rw [dif_pos hd]
    refine (concatenate_pair_apply_left (1 : Fin S768x48.rank) _ _ concatenates_S768x24_S768x24_S768x48_d1
      (ix2 r d) rfl (ix2 r ⟨d.val, hd⟩) ?_).trans ?_
    · intro b
      match b with
      | ⟨0, _⟩ => rfl
      | ⟨1, _⟩ => rfl
    · show (Ideal.ofBits .f32 0x00000000#32 : EReal) - _ = _
      rw [Ideal.ofBits_zero_f32, zero_sub]
      refine congrArg Neg.neg ?_
      refine extractStridedSlice_apply _ t slices_S768x48_o0_24_S768x24 _ _ fun a => ?_
      match a with
      | ⟨0, _⟩ => show r.val = 0 + r.val; omega
      | ⟨1, _⟩ => show d.val + 24 = 24 + d.val; omega
  · rw [dif_neg hd]
    have hd' : d.val - 24 < 24 := by have := d.isLt; omega
    refine (concatenate_pair_apply_right (1 : Fin S768x48.rank) _ _ concatenates_S768x24_S768x24_S768x48_d1
      (ix2 r d) rfl rfl (ix2 r ⟨d.val - 24, hd'⟩) ?_ ?_).trans ?_
    · intro b hb
      match b with
      | ⟨0, _⟩ => rfl
      | ⟨1, _⟩ => exact absurd rfl hb
    · show d.val - 24 + 24 = d.val
      omega
    · refine extractStridedSlice_apply _ t slices_S768x48_o0_0_S768x24 _ _ fun a => ?_
      match a with
      | ⟨0, _⟩ => show r.val = 0 + r.val; omega
      | ⟨1, _⟩ => show d.val - 24 = 0 + (d.val - 24); omega

/-- A rotated head: the head's lanes times the cosine block plus their rotate-half times the sine block. -/
def ropeHead (o : Nat) (hs : S768x384.Slices ![0, o] S768x48) (p : FVec Ideal S768x384 .f32)
    (cs sn : Vec Ideal S768x48 .f32) : FVec Ideal S768x48 .f32 :=
  addf (mulf (headSlice o hs p) cs) (mulf (rotHalf (headSlice o hs p)) sn)

/-- At row `r` and lane `d` it is the rotary embedding of head `h`'s lanes of row `r` by that row's cosines and sines. -/
theorem ropeHead_apply (o : Nat) (hs : S768x384.Slices ![0, o] S768x48) (p : FVec Ideal S768x384 .f32)
    (cs sn : Vec Ideal S768x48 .f32) (h : Fin 8) (ho : o = h.val * 48) (r : Fin 768) (d : Fin 48) :
    ropeHead o hs p cs sn (ix2 r d)
      = Attn.rope (fun d' => p (ix2 r (Attn.col h d'))) (fun d' => cs (ix2 r d')) (fun d' => sn (ix2 r d')) d := by
  have hsl : ∀ d' : Fin 48, headSlice o hs p (ix2 r d') = p (ix2 r (Attn.col h d')) := fun d' =>
    headSlice_apply o hs p r d' (Attn.col h d') (by rw [ho]; rfl)
  unfold ropeHead Attn.rope
  show headSlice o hs p (ix2 r d) * cs (ix2 r d) + rotHalf (headSlice o hs p) (ix2 r d) * sn (ix2 r d) = _
  rw [rotHalf_apply, hsl d]
  simp only [hsl]

/-- A head's block as the body stores it: its float format changed (the identity here) and two unit axes added in front. -/
def piece (t : FVec Ideal S768x48 .f32) : FVec Ideal S1x1x768x48 .bf16 :=
  shapeCast S1x1x768x48 (truncf .bf16 t bitsLt_bf16_f32) shapeCasts_S768x48_S1x1x768x48

theorem piece_apply (t : FVec Ideal S768x48 .f32) (y : S1x1x768x48.Idx) (r : Fin 768) (d : Fin 48)
    (hr : (y 2).val = r.val) (hd : (y 3).val = d.val) : piece t y = t (ix2 r d) := by
  unfold piece
  refine (shapeCast_apply (truncf .bf16 t bitsLt_bf16_f32) shapeCasts_S768x48_S1x1x768x48 y (ix2 r d) ?_).trans rfl
  rewrite [Shape.rowMajor_val_two, Shape.rowMajor_val_four]
  have h0 : (y 0).val < 1 := (y 0).isLt
  have h1 : (y 1).val < 1 := (y 1).isLt
  show r.val * 48 + d.val = (((y 0).val * 1 + (y 1).val) * 768 + (y 2).val) * 48 + (y 3).val
  rw [hr, hd]
  omega

end Cert.KernelIdeal.QKV

end
-- ==== Proof.RegionQKVBlock.lean ====
/-
  One grid point of the fused projection, block by block: each of the three output blocks holds eight heads, stored
  one head at a time, and every head's stored value is the same computation at column offset 48 h.  Each output block is
  therefore one function of the block index (head, row, lane) and of the point's input blocks.
-/
import proofs.«138608_j36636071035070_2_alg».proof.Proof.RegionQKVHead

noncomputable section

namespace Cert.KernelIdeal.QKV

open Cert.KernelIdeal Cert.KernelIdeal.Gen Idealize.ShloMosaic Idealize.ShloMosaic.ValueIdx

/-! ## Every stored head is the head-generic computation at its column offset -/

section Chains
variable (a0 : Vec Ideal S1x768x768 .f32) (a1 a2 a3 : Vec Ideal S768x384 .f32) (a4 a5 : Vec Ideal S1x384 .f32)
  (cs sn : Vec Ideal S768x48 .f32)

theorem q_chain0 : k0_pay11 (k0_pay9 a0 a1 a4 cs sn) = piece (ropeHead 0 slices_S768x384_o0_0_S768x48 (k0_pay4 a0 a1 a4) cs sn) := rfl
theorem q_chain1 : k0_pay17 (k0_pay16 (k0_pay4 a0 a1 a4) cs sn) = piece (ropeHead 48 slices_S768x384_o0_48_S768x48 (k0_pay4 a0 a1 a4) cs sn) := rfl
theorem q_chain2 : k0_pay21 (k0_pay4 a0 a1 a4) cs sn = piece (ropeHead 96 slices_S768x384_o0_96_S768x48 (k0_pay4 a0 a1 a4) cs sn) := rfl
theorem q_chain3 : k0_pay25 (k0_pay4 a0 a1 a4) cs sn = piece (ropeHead 144 slices_S768x384_o0_144_S768x48 (k0_pay4 a0 a1 a4) cs sn) := rfl
theorem q_chain4 : k0_pay29 cs sn (k0_pay28 (k0_pay4 a0 a1 a4)) = piece (ropeHead 192 slices_S768x384_o0_192_S768x48 (k0_pay4 a0 a1 a4) cs sn) := rfl
theorem q_chain5 : k0_pay36 (k0_pay34 (k0_pay4 a0 a1 a4) cs sn) = piece (ropeHead 240 slices_S768x384_o0_240_S768x48 (k0_pay4 a0 a1 a4) cs sn) := rfl
theorem q_chain6 : k0_pay42 (k0_pay41 (k0_pay4 a0 a1 a4) cs sn) = piece (ropeHead 288 slices_S768x384_o0_288_S768x48 (k0_pay4 a0 a1 a4) cs sn) := rfl
theorem q_chain7 : k0_pay46 (k0_pay4 a0 a1 a4) cs sn = piece (ropeHead 336 slices_S768x384_o0_336_S768x48 (k0_pay4 a0 a1 a4) cs sn) := rfl
theorem k_chain0 : k0_pay12 sn (k0_pay7 a0 a2) (k0_pay10 a0 a2 cs) = piece (ropeHead 0 slices_S768x384_o0_0_S768x48 (k0_pay5 a0 a2) cs sn) := rfl
theorem k_chain1 : k0_pay18 (k0_pay15 (k0_pay5 a0 a2) cs sn) = piece (ropeHead 48 slices_S768x384_o0_48_S768x48 (k0_pay5 a0 a2) cs sn) := rfl
theorem k_chain2 : k0_pay23 (k0_pay22 (k0_pay5 a0 a2) cs sn) = piece (ropeHead 96 slices_S768x384_o0_96_S768x48 (k0_pay5 a0 a2) cs sn) := rfl
theorem k_chain3 : k0_pay26 (k0_pay5 a0 a2) cs sn = piece (ropeHead 144 slices_S768x384_o0_144_S768x48 (k0_pay5 a0 a2) cs sn) := rfl
theorem k_chain4 : k0_pay30 (k0_pay5 a0 a2) cs sn = piece (ropeHead 192 slices_S768x384_o0_192_S768x48 (k0_pay5 a0 a2) cs sn) := rfl
theorem k_chain5 : k0_pay37 sn (k0_pay32 (k0_pay5 a0 a2)) (k0_pay35 (k0_pay5 a0 a2) cs) = piece (ropeHead 240 slices_S768x384_o0_240_S768x48 (k0_pay5 a0 a2) cs sn) := rfl
theorem k_chain6 : k0_pay43 (k0_pay40 (k0_pay5 a0 a2) cs sn) = piece (ropeHead 288 slices_S768x384_o0_288_S768x48 (k0_pay5 a0 a2) cs sn) := rfl
theorem k_chain7 : k0_pay1 (k0_pay47 (k0_pay5 a0 a2) cs sn) = piece (ropeHead 336 slices_S768x384_o0_336_S768x48 (k0_pay5 a0 a2) cs sn) := rfl
theorem v_chain0 : k0_pay13 (k0_pay8 a0 a3 a5) = piece (headSlice 0 slices_S768x384_o0_0_S768x48 (k0_pay6 a0 a3 a5)) := rfl
theorem v_chain1 : k0_pay19 (k0_pay14 (k0_pay6 a0 a3 a5)) = piece (headSlice 48 slices_S768x384_o0_48_S768x48 (k0_pay6 a0 a3 a5)) := rfl
theorem v_chain2 : k0_pay24 (k0_pay20 (k0_pay6 a0 a3 a5)) = piece (headSlice 96 slices_S768x384_o0_96_S768x48 (k0_pay6 a0 a3 a5)) := rfl
theorem v_chain3 : k0_pay27 (k0_pay6 a0 a3 a5) = piece (headSlice 144 slices_S768x384_o0_144_S768x48 (k0_pay6 a0 a3 a5)) := rfl
theorem v_chain4 : k0_pay31 (k0_pay6 a0 a3 a5) = piece (headSlice 192 slices_S768x384_o0_192_S768x48 (k0_pay6 a0 a3 a5)) := rfl
theorem v_chain5 : k0_pay38 (k0_pay33 (k0_pay6 a0 a3 a5)) = piece (headSlice 240 slices_S768x384_o0_240_S768x48 (k0_pay6 a0 a3 a5)) := rfl
theorem v_chain6 : k0_pay44 (k0_pay39 (k0_pay6 a0 a3 a5)) = piece (headSlice 288 slices_S768x384_o0_288_S768x48 (k0_pay6 a0 a3 a5)) := rfl
theorem v_chain7 : k0_pay2 (k0_pay45 (k0_pay6 a0 a3 a5)) = piece (headSlice 336 slices_S768x384_o0_336_S768x48 (k0_pay6 a0 a3 a5)) := rfl

end Chains

/-! ## The three output blocks as functions of the block index -/

theorem hz2 : (![0, 0] : Fin 2 → Nat) = fun _ => 0 := funext fun a => by fin_cases a <;> rfl
theorem hz3 : (![0, 0, 0] : Fin 3 → Nat) = fun _ => 0 := funext fun a => by fin_cases a <;> rfl

/-- The query block at (head, row, lane): the rotary embedding, by the row's cosines and sines, of the head's 48 biased dot
    products of the row with the weight columns of that head. -/
def qBlock (x0 : Vec Ideal S1x768x768 .f32) (x1 : Vec Ideal S768x384 .f32) (x4 : Vec Ideal S1x384 .f32)
    (x6 x7 : Vec Ideal S768x48 .f32) : Vec Ideal S1x8x768x48 .bf16 := fun y =>
  Attn.rope (fun d' => Attn.dot768 (fun k => x0 (ix3 0 (y 2) k)) (fun k => x1 (ix2 k (Attn.col (y 1) d')))
      + x4 (ix2 0 (Attn.col (y 1) d')))
    (fun d' => x6 (ix2 (y 2) d')) (fun d' => x7 (ix2 (y 2) d')) (y 3)

/-- The key block at (head, row, lane): the same without a bias. -/
def kBlock (x0 : Vec Ideal S1x768x768 .f32) (x2 : Vec Ideal S768x384 .f32)
    (x6 x7 : Vec Ideal S768x48 .f32) : Vec Ideal S1x8x768x48 .bf16 := fun y =>
  Attn.rope (fun d' => Attn.dot768 (fun k => x0 (ix3 0 (y 2) k)) (fun k => x2 (ix2 k (Attn.col (y 1) d'))))
    (fun d' => x6 (ix2 (y 2) d')) (fun d' => x7 (ix2 (y 2) d')) (y 3)

/-- The value block at (head, row, lane): the biased dot product of the row with the weight column of that head and lane. -/
def vBlock (x0 : Vec Ideal S1x768x768 .f32) (x3 : Vec Ideal S768x384 .f32) (x5 : Vec Ideal S1x384 .f32) :
    Vec Ideal S1x8x768x48 .bf16 := fun y =>
  Attn.dot768 (fun k => x0 (ix3 0 (y 2) k)) (fun k => x3 (ix2 k (Attn.col (y 1) (y 3)))) + x5 (ix2 0 (Attn.col (y 1) (y 3)))

section AtCoordinates
variable (x0 : Vec Ideal S1x768x768 .f32) (x1 x2 x3 : Vec Ideal S768x384 .f32) (x4 x5 : Vec Ideal S1x384 .f32)
  (x6 x7 : Vec Ideal S768x48 .f32)

theorem qBlock_at (y : S1x8x768x48.Idx) (h : Fin 8) (r : Fin 768) (d : Fin 48)
    (h1 : (y 1).val = h.val) (h2 : (y 2).val = r.val) (h3 : (y 3).val = d.val) :
    qBlock x0 x1 x4 x6 x7 y
      = Attn.rope (fun d' => Attn.dot768 (fun k => x0 (ix3 0 r k)) (fun k => x1 (ix2 k (Attn.col h d')))
            + x4 (ix2 0 (Attn.col h d')))
          (fun d' => x6 (ix2 r d')) (fun d' => x7 (ix2 r d')) d := by
  have e1 : y 1 = h := Fin.ext h1
  have e2 : y 2 = r := Fin.ext h2
  have e3 : y 3 = d := Fin.ext h3
  unfold qBlock
  rw [e1, e2, e3]

theorem kBlock_at (y : S1x8x768x48.Idx) (h : Fin 8) (r : Fin 768) (d : Fin 48)
    (h1 : (y 1).val = h.val) (h2 : (y 2).val = r.val) (h3 : (y 3).val = d.val) :
    kBlock x0 x2 x6 x7 y
      = Attn.rope (fun d' => Attn.dot768 (fun k => x0 (ix3 0 r k)) (fun k => x2 (ix2 k (Attn.col h d'))))
          (fun d' => x6 (ix2 r d')) (fun d' => x7 (ix2 r d')) d := by
  have e1 : y 1 = h := Fin.ext h1
  have e2 : y 2 = r := Fin.ext h2
  have e3 : y 3 = d := Fin.ext h3
  unfold kBlock
  rw [e1, e2, e3]

theorem vBlock_at (y : S1x8x768x48.Idx) (h : Fin 8) (r : Fin 768) (d : Fin 48)
    (h1 : (y 1).val = h.val) (h2 : (y 2).val = r.val) (h3 : (y 3).val = d.val) :
    vBlock x0 x3 x5 y
      = Attn.dot768 (fun k => x0 (ix3 0 r k)) (fun k => x3 (ix2 k (Attn.col h d))) + x5 (ix2 0 (Attn.col h d)) := by
  have e1 : y 1 = h := Fin.ext h1
  have e2 : y 2 = r := Fin.ext h2
  have e3 : y 3 = d := Fin.ext h3
  unfold vBlock
  rw [e1, e2, e3]

/-- A stored query head at a piece index of row `r` and lane `d`. -/
theorem q_head_apply (o : Nat) (hs : S768x384.Slices ![0, o] S768x48) (h : Fin 8) (ho : o = h.val * 48)
    (x : S1x1x768x48.Idx) (r : Fin 768) (d : Fin 48) (hr : (x 2).val = r.val) (hd : (x 3).val = d.val) :
    piece (ropeHead o hs (k0_pay4 x0 x1 x4) x6 x7) x
      = Attn.rope (fun d' => Attn.dot768 (fun k => x0 (ix3 0 r k)) (fun k => x1 (ix2 k (Attn.col h d')))
            + x4 (ix2 0 (Attn.col h d')))
          (fun d' => x6 (ix2 r d')) (fun d' => x7 (ix2 r d')) d := by
  rw [piece_apply _ x r d hr hd, ropeHead_apply o hs _ _ _ h ho]
  simp only [pay4_apply]

theorem k_head_apply (o : Nat) (hs : S768x384.Slices ![0, o] S768x48) (h : Fin 8) (ho : o = h.val * 48)
    (x : S1x1x768x48.Idx) (r : Fin 768) (d : Fin 48) (hr : (x 2).val = r.val) (hd : (x 3).val = d.val) :
    piece (ropeHead o hs (k0_pay5 x0 x2) x6 x7) x
      = Attn.rope (fun d' => Attn.dot768 (fun k => x0 (ix3 0 r k)) (fun k => x2 (ix2 k (Attn.col h d'))))
          (fun d' => x6 (ix2 r d')) (fun d' => x7 (ix2 r d')) d := by
  rw [piece_apply _ x r d hr hd, ropeHead_apply o hs _ _ _ h ho]
  simp only [pay5_apply]

theorem v_head_apply (o : Nat) (hs : S768x384.Slices ![0, o] S768x48) (h : Fin 8) (ho : o = h.val * 48)
    (x : S1x1x768x48.Idx) (r : Fin 768) (d : Fin 48) (hr : (x 2).val = r.val) (hd : (x 3).val = d.val) :
    piece (headSlice o hs (k0_pay6 x0 x3 x5)) x
      = Attn.dot768 (fun k => x0 (ix3 0 r k)) (fun k => x3 (ix2 k (Attn.col h d))) + x5 (ix2 0 (Attn.col h d)) := by
  rw [piece_apply _ x r d hr hd, headSlice_apply o hs _ r d (Attn.col h d) (by rw [ho]; rfl), pay6_apply]

/-- The query window's block after the body is `qBlock` of the point's input blocks. -/
theorem out0_8_eq : out0_8 x0 x1 x2 x3 x4 x5 x6 x7 = qBlock x0 x1 x4 x6 x7 := by
  funext y
  unfold out0_8
  simp only [View.ld_unit_zero (S := S1x768x768) hz3, View.ld_unit_zero (S := S768x384) hz2,
    View.ld_unit_zero (S := S1x384) hz2, View.ld_unit_zero (S := S768x48) hz2]
  refine View.canon_apply_of_pieces (qBlock x0 x1 x4 x6 x7) _ ?_ y (cover0_8 _ _ _ _ _ _ _ _ y)
  intro p hp x
  simp only [List.mem_cons, List.not_mem_nil, or_false] at hp
  rcases hp with rfl | rfl | rfl | rfl | rfl | rfl | rfl | rfl
  · exact ((congrFun (q_chain7 x0 x1 x4 x6 x7) x).trans
        (q_head_apply x0 x1 x4 x6 x7 336 slices_S768x384_o0_336_S768x48 7 rfl x (x 2) (x 3) rfl rfl)).trans
      (qBlock_at x0 x1 x4 x6 x7 (r0_11.emb x) 7 (x 2) (x 3)
        (by have hx : (x 1).val < 1 := (x 1).isLt; show 7 + 1 * (x 1).val = 7; omega)
        (by show 0 + 1 * (x 2).val = (x 2).val; omega) (by show 0 + 1 * (x 3).val = (x 3).val; omega)).symm
  · exact ((congrFun (q_chain6 x0 x1 x4 x6 x7) x).trans
        (q_head_apply x0 x1 x4 x6 x7 288 slices_S768x384_o0_288_S768x48 6 rfl x (x 2) (x 3) rfl rfl)).trans
      (qBlock_at x0 x1 x4 x6 x7 (r0_10.emb x) 6 (x 2) (x 3)
        (by have hx : (x 1).val < 1 := (x 1).isLt; show 6 + 1 * (x 1).val = 6; omega)
        (by show 0 + 1 * (x 2).val = (x 2).val; omega) (by show 0 + 1 * (x 3).val = (x 3).val; omega)).symm
  · exact ((congrFun (q_chain5 x0 x1 x4 x6 x7) x).trans
        (q_head_apply x0 x1 x4 x6 x7 240 slices_S768x384_o0_240_S768x48 5 rfl x (x 2) (x 3) rfl rfl)).trans
      (qBlock_at x0 x1 x4 x6 x7 (r0_9.emb x) 5 (x 2) (x 3)
        (by have hx : (x 1).val < 1 := (x 1).isLt; show 5 + 1 * (x 1).val = 5; omega)
        (by show 0 + 1 * (x 2).val = (x 2).val; omega) (by show 0 + 1 * (x 3).val = (x 3).val; omega)).symm
  · exact ((congrFun (q_chain4 x0 x1 x4 x6 x7) x).trans
        (q_head_apply x0 x1 x4 x6 x7 192 slices_S768x384_o0_192_S768x48 4 rfl x (x 2) (x 3) rfl rfl)).trans
      (qBlock_at x0 x1 x4 x6 x7 (r0_8.emb x) 4 (x 2) (x 3)
        (by have hx : (x 1).val < 1 := (x 1).isLt; show 4 + 1 * (x 1).val = 4; omega)
        (by show 0 + 1 * (x 2).val = (x 2).val; omega) (by show 0 + 1 * (x 3).val = (x 3).val; omega)).symm
  · exact ((congrFun (q_chain3 x0 x1 x4 x6 x7) x).trans
        (q_head_apply x0 x1 x4 x6 x7 144 slices_S768x384_o0_144_S768x48 3 rfl x (x 2) (x 3) rfl rfl)).trans
      (qBlock_at x0 x1 x4 x6 x7 (r0_7.emb x) 3 (x 2) (x 3)
        (by have hx : (x 1).val < 1 := (x 1).isLt; show 3 + 1 * (x 1).val = 3; omega)
        (by show 0 + 1 * (x 2).val = (x 2).val; omega) (by show 0 + 1 * (x 3).val = (x 3).val; omega)).symm
  · exact ((congrFun (q_chain2 x0 x1 x4 x6 x7) x).trans
        (q_head_apply x0 x1 x4 x6 x7 96 slices_S768x384_o0_96_S768x48 2 rfl x (x 2) (x 3) rfl rfl)).trans
      (qBlock_at x0 x1 x4 x6 x7 (r0_6.emb x) 2 (x 2) (x 3)
        (by have hx : (x 1).val < 1 := (x 1).isLt; show 2 + 1 * (x 1).val = 2; omega)
        (by show 0 + 1 * (x 2).val = (x 2).val; omega) (by show 0 + 1 * (x 3).val = (x 3).val; omega)).symm
  · exact ((congrFun (q_chain1 x0 x1 x4 x6 x7) x).trans
        (q_head_apply x0 x1 x4 x6 x7 48 slices_S768x384_o0_48_S768x48 1 rfl x (x 2) (x 3) rfl rfl)).trans
      (qBlock_at x0 x1 x4 x6 x7 (r0_5.emb x) 1 (x 2) (x 3)
        (by have hx : (x 1).val < 1 := (x 1).isLt; show 1 + 1 * (x 1).val = 1; omega)
        (by show 0 + 1 * (x 2).val = (x 2).val; omega) (by show 0 + 1 * (x 3).val = (x 3).val; omega)).symm
  · exact ((congrFun (q_chain0 x0 x1 x4 x6 x7) x).trans
        (q_head_apply x0 x1 x4 x6 x7 0 slices_S768x384_o0_0_S768x48 0 rfl x (x 2) (x 3) rfl rfl)).trans
      (qBlock_at x0 x1 x4 x6 x7 (r0_4.emb x) 0 (x 2) (x 3)
        (by have hx : (x 1).val < 1 := (x 1).isLt; show 0 + 1 * (x 1).val = 0; omega)
        (by show 0 + 1 * (x 2).val = (x 2).val; omega) (by show 0 + 1 * (x 3).val = (x 3).val; omega)).symm

/-- The key window's block after the body is `kBlock` of the point's input blocks. -/
theorem out0_9_eq : out0_9 x0 x1 x2 x3 x4 x5 x6 x7 = kBlock x0 x2 x6 x7 := by
  funext y
  unfold out0_9
  simp only [View.ld_unit_zero (S := S1x768x768) hz3, View.ld_unit_zero (S := S768x384) hz2,
    View.ld_unit_zero (S := S768x48) hz2]
  refine View.canon_apply_of_pieces (kBlock x0 x2 x6 x7) _ ?_ y (cover0_9 _ _ _ _ _ _ _ _ y)
  intro p hp x
  simp only [List.mem_cons, List.not_mem_nil, or_false] at hp
  rcases hp with rfl | rfl | rfl | rfl | rfl | rfl | rfl | rfl
  · exact ((congrFun (k_chain7 x0 x2 x6 x7) x).trans
        (k_head_apply x0 x2 x6 x7 336 slices_S768x384_o0_336_S768x48 7 rfl x (x 2) (x 3) rfl rfl)).trans
      (kBlock_at x0 x2 x6 x7 (r0_11.emb x) 7 (x 2) (x 3)
        (by have hx : (x 1).val < 1 := (x 1).isLt; show 7 + 1 * (x 1).val = 7; omega)
        (by show 0 + 1 * (x 2).val = (x 2).val; omega) (by show 0 + 1 * (x 3).val = (x 3).val; omega)).symm
  · exact ((congrFun (k_chain6 x0 x2 x6 x7) x).trans
        (k_head_apply x0 x2 x6 x7 288 slices_S768x384_o0_288_S768x48 6 rfl x (x 2) (x 3) rfl rfl)).trans
      (kBlock_at x0 x2 x6 x7 (r0_10.emb x) 6 (x 2) (x 3)
        (by have hx : (x 1).val < 1 := (x 1).isLt; show 6 + 1 * (x 1).val = 6; omega)
        (by show 0 + 1 * (x 2).val = (x 2).val; omega) (by show 0 + 1 * (x 3).val = (x 3).val; omega)).symm
  · exact ((congrFun (k_chain5 x0 x2 x6 x7) x).trans
        (k_head_apply x0 x2 x6 x7 240 slices_S768x384_o0_240_S768x48 5 rfl x (x 2) (x 3) rfl rfl)).trans
      (kBlock_at x0 x2 x6 x7 (r0_9.emb x) 5 (x 2) (x 3)
        (by have hx : (x 1).val < 1 := (x 1).isLt; show 5 + 1 * (x 1).val = 5; omega)
        (by show 0 + 1 * (x 2).val = (x 2).val; omega) (by show 0 + 1 * (x 3).val = (x 3).val; omega)).symm
  · exact ((congrFun (k_chain4 x0 x2 x6 x7) x).trans
        (k_head_apply x0 x2 x6 x7 192 slices_S768x384_o0_192_S768x48 4 rfl x (x 2) (x 3) rfl rfl)).trans
      (kBlock_at x0 x2 x6 x7 (r0_8.emb x) 4 (x 2) (x 3)
        (by have hx : (x 1).val < 1 := (x 1).isLt; show 4 + 1 * (x 1).val = 4; omega)
        (by show 0 + 1 * (x 2).val = (x 2).val; omega) (by show 0 + 1 * (x 3).val = (x 3).val; omega)).symm
  · exact ((congrFun (k_chain3 x0 x2 x6 x7) x).trans
        (k_head_apply x0 x2 x6 x7 144 slices_S768x384_o0_144_S768x48 3 rfl x (x 2) (x 3) rfl rfl)).trans
      (kBlock_at x0 x2 x6 x7 (r0_7.emb x) 3 (x 2) (x 3)
        (by have hx : (x 1).val < 1 := (x 1).isLt; show 3 + 1 * (x 1).val = 3; omega)
        (by show 0 + 1 * (x 2).val = (x 2).val; omega) (by show 0 + 1 * (x 3).val = (x 3).val; omega)).symm
  · exact ((congrFun (k_chain2 x0 x2 x6 x7) x).trans
        (k_head_apply x0 x2 x6 x7 96 slices_S768x384_o0_96_S768x48 2 rfl x (x 2) (x 3) rfl rfl)).trans
      (kBlock_at x0 x2 x6 x7 (r0_6.emb x) 2 (x 2) (x 3)
        (by have hx : (x 1).val < 1 := (x 1).isLt; show 2 + 1 * (x 1).val = 2; omega)
        (by show 0 + 1 * (x 2).val = (x 2).val; omega) (by show 0 + 1 * (x 3).val = (x 3).val; omega)).symm
  · exact ((congrFun (k_chain1 x0 x2 x6 x7) x).trans
        (k_head_apply x0 x2 x6 x7 48 slices_S768x384_o0_48_S768x48 1 rfl x (x 2) (x 3) rfl rfl)).trans
      (kBlock_at x0 x2 x6 x7 (r0_5.emb x) 1 (x 2) (x 3)
        (by have hx : (x 1).val < 1 := (x 1).isLt; show 1 + 1 * (x 1).val = 1; omega)
        (by show 0 + 1 * (x 2).val = (x 2).val; omega) (by show 0 + 1 * (x 3).val = (x 3).val; omega)).symm
  · exact ((congrFun (k_chain0 x0 x2 x6 x7) x).trans
        (k_head_apply x0 x2 x6 x7 0 slices_S768x384_o0_0_S768x48 0 rfl x (x 2) (x 3) rfl rfl)).trans
      (kBlock_at x0 x2 x6 x7 (r0_4.emb x) 0 (x 2) (x 3)
        (by have hx : (x 1).val < 1 := (x 1).isLt; show 0 + 1 * (x 1).val = 0; omega)
        (by show 0 + 1 * (x 2).val = (x 2).val; omega) (by show 0 + 1 * (x 3).val = (x 3).val; omega)).symm

/-- The value window's block after the body is `vBlock` of the point's input blocks. -/
theorem out0_10_eq : out0_10 x0 x1 x2 x3 x4 x5 x6 x7 = vBlock x0 x3 x5 := by
  funext y
  unfold out0_10
  simp only [View.ld_unit_zero (S := S1x768x768) hz3, View.ld_unit_zero (S := S768x384) hz2,
    View.ld_unit_zero (S := S1x384) hz2]
  refine View.canon_apply_of_pieces (vBlock x0 x3 x5) _ ?_ y (cover0_10 _ _ _ _ _ _ _ _ y)
  intro p hp x
  simp only [List.mem_cons, List.not_mem_nil, or_false] at hp
  rcases hp with rfl | rfl | rfl | rfl | rfl | rfl | rfl | rfl
  · exact ((congrFun (v_chain7 x0 x3 x5) x).trans
        (v_head_apply x0 x3 x5 336 slices_S768x384_o0_336_S768x48 7 rfl x (x 2) (x 3) rfl rfl)).trans
      (vBlock_at x0 x3 x5 (r0_11.emb x) 7 (x 2) (x 3)
        (by have hx : (x 1).val < 1 := (x 1).isLt; show 7 + 1 * (x 1).val = 7; omega)
        (by show 0 + 1 * (x 2).val = (x 2).val; omega) (by show 0 + 1 * (x 3).val = (x 3).val; omega)).symm
  · exact ((congrFun (v_chain6 x0 x3 x5) x).trans
        (v_head_apply x0 x3 x5 288 slices_S768x384_o0_288_S768x48 6 rfl x (x 2) (x 3) rfl rfl)).trans
      (vBlock_at x0 x3 x5 (r0_10.emb x) 6 (x 2) (x 3)
        (by have hx : (x 1).val < 1 := (x 1).isLt; show 6 + 1 * (x 1).val = 6; omega)
        (by show 0 + 1 * (x 2).val = (x 2).val; omega) (by show 0 + 1 * (x 3).val = (x 3).val; omega)).symm
  · exact ((congrFun (v_chain5 x0 x3 x5) x).trans
        (v_head_apply x0 x3 x5 240 slices_S768x384_o0_240_S768x48 5 rfl x (x 2) (x 3) rfl rfl)).trans
      (vBlock_at x0 x3 x5 (r0_9.emb x) 5 (x 2) (x 3)
        (by have hx : (x 1).val < 1 := (x 1).isLt; show 5 + 1 * (x 1).val = 5; omega)
        (by show 0 + 1 * (x 2).val = (x 2).val; omega) (by show 0 + 1 * (x 3).val = (x 3).val; omega)).symm
  · exact ((congrFun (v_chain4 x0 x3 x5) x).trans
        (v_head_apply x0 x3 x5 192 slices_S768x384_o0_192_S768x48 4 rfl x (x 2) (x 3) rfl rfl)).trans
      (vBlock_at x0 x3 x5 (r0_8.emb x) 4 (x 2) (x 3)
        (by have hx : (x 1).val < 1 := (x 1).isLt; show 4 + 1 * (x 1).val = 4; omega)
        (by show 0 + 1 * (x 2).val = (x 2).val; omega) (by show 0 + 1 * (x 3).val = (x 3).val; omega)).symm
  · exact ((congrFun (v_chain3 x0 x3 x5) x).trans
        (v_head_apply x0 x3 x5 144 slices_S768x384_o0_144_S768x48 3 rfl x (x 2) (x 3) rfl rfl)).trans
      (vBlock_at x0 x3 x5 (r0_7.emb x) 3 (x 2) (x 3)
        (by have hx : (x 1).val < 1 := (x 1).isLt; show 3 + 1 * (x 1).val = 3; omega)
        (by show 0 + 1 * (x 2).val = (x 2).val; omega) (by show 0 + 1 * (x 3).val = (x 3).val; omega)).symm
  · exact ((congrFun (v_chain2 x0 x3 x5) x).trans
        (v_head_apply x0 x3 x5 96 slices_S768x384_o0_96_S768x48 2 rfl x (x 2) (x 3) rfl rfl)).trans
      (vBlock_at x0 x3 x5 (r0_6.emb x) 2 (x 2) (x 3)
        (by have hx : (x 1).val < 1 := (x 1).isLt; show 2 + 1 * (x 1).val = 2; omega)
        (by show 0 + 1 * (x 2).val = (x 2).val; omega) (by show 0 + 1 * (x 3).val = (x 3).val; omega)).symm
  · exact ((congrFun (v_chain1 x0 x3 x5) x).trans
        (v_head_apply x0 x3 x5 48 slices_S768x384_o0_48_S768x48 1 rfl x (x 2) (x 3) rfl rfl)).trans
      (vBlock_at x0 x3 x5 (r0_5.emb x) 1 (x 2) (x 3)
        (by have hx : (x 1).val < 1 := (x 1).isLt; show 1 + 1 * (x 1).val = 1; omega)
        (by show 0 + 1 * (x 2).val = (x 2).val; omega) (by show 0 + 1 * (x 3).val = (x 3).val; omega)).symm
  · exact ((congrFun (v_chain0 x0 x3 x5) x).trans
        (v_head_apply x0 x3 x5 0 slices_S768x384_o0_0_S768x48 0 rfl x (x 2) (x 3) rfl rfl)).trans
      (vBlock_at x0 x3 x5 (r0_4.emb x) 0 (x 2) (x 3)
        (by have hx : (x 1).val < 1 := (x 1).isLt; show 0 + 1 * (x 1).val = 0; omega)
        (by show 0 + 1 * (x 2).val = (x 2).val; omega) (by show 0 + 1 * (x 3).val = (x 3).val; omega)).symm

end AtCoordinates

end Cert.KernelIdeal.QKV

end
-- ==== Proof.RegionQKVArray.lean ====
/-
  The whole run of the fused projection: every grid point writes back its block of one whole-array function of the
  region's input arrays, and the blocks tile each output array, so each output array ends holding that function.

  Grid point (b, n) reads token rows 768 n .. 768 n + 767 of batch b, the same rows of the cosine and sine tables, and
  the whole weights and biases; it writes the [8, 768, 48] block of batch b at rows 768 n .. of each output.
-/
import proofs.«138608_j36636071035070_2_alg».proof.Proof.RegionQKVBlock

noncomputable section

namespace Cert.KernelIdeal.QKV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-! ## The index maps over the grid -/

/-- The index maps at each of the 12 grid points: the token window moves with the output's batch and row
    block, the rotary tables with its row block, the weights and biases stay, and the three outputs move together. -/
theorem idx_facts : ∀ t : Fin cfg0.N,
    win0_0.index t (0 : Fin 3) = win0_8.index t (0 : Fin 4) ∧ win0_0.index t (1 : Fin 3) = win0_8.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = win0_8.index t (2 : Fin 4) ∧ win0_6.index t (1 : Fin 2) = 0
    ∧ win0_7.index t (0 : Fin 2) = win0_8.index t (2 : Fin 4) ∧ win0_7.index t (1 : Fin 2) = 0
    ∧ win0_8.index t (1 : Fin 4) = 0 ∧ win0_8.index t (3 : Fin 4) = 0
    ∧ win0_8.index t (0 : Fin 4) ≤ 3 ∧ win0_8.index t (2 : Fin 4) ≤ 2
    ∧ win0_9.index t = win0_8.index t ∧ win0_10.index t = win0_8.index t :=
  (by decide +kernel : ∀ t : Fin grid0.N, _)

/-- Every (batch, row block) is some grid point's. -/
theorem idx_onto : ∀ (q0 : Fin 4) (q2 : Fin 3), ∃ t : Fin cfg0.N, win0_8.index t = ![q0.val, 0, q2.val, 0] :=
  (by decide +kernel : ∀ (q0 : Fin 4) (q2 : Fin 3), ∃ t : Fin grid0.N, win0_8.index t = ![q0.val, 0, q2.val, 0])

/-! ## The input blocks read at coordinates -/

/-- The token block at point `t`, row `r`: row `768 n + r` of batch `b`, for the point's (b, n). -/
theorem tok_block (t : Fin cfg0.N) (r k : Fin 768) (b : Fin 4) (n : Fin 2304)
    (hb : b.val = win0_0.index t (0 : Fin 3)) (hn : n.val = win0_0.index t (1 : Fin 3) * 768 + r.val)
    (h2 : win0_0.index t (2 : Fin 3) = 0) :
    (iblk0 V c 0 t : Vec Ideal S1x768x768 .f32) (ix3 0 r k) = (V c main_v0 : S4x2304x768.Idx → EReal) (ix3 b n k) := by
  unfold iblk0
  rw [View.read_apply]
  show V c main_v0 _ = V c main_v0 _
  congr 1
  funext a
  apply Fin.ext
  match a with
  | ⟨0, _⟩ => show win0_0.index t (0 : Fin 3) * 1 + 1 * 0 = b.val; omega
  | ⟨1, _⟩ => show win0_0.index t (1 : Fin 3) * 768 + 1 * r.val = n.val; omega
  | ⟨2, _⟩ => show win0_0.index t (2 : Fin 3) * 768 + 1 * k.val = k.val; omega

/-- A weight window's block is the whole weight array. -/
theorem w_block1 (t : Fin cfg0.N) (k : Fin 768) (e : Fin 384)
    (h0 : win0_1.index t (0 : Fin 2) = 0) (h1 : win0_1.index t (1 : Fin 2) = 0) :
    (iblk0 V c 1 t : Vec Ideal S768x384 .f32) (ix2 k e) = (V c main_v1 : S768x384.Idx → EReal) (ix2 k e) := by
  unfold iblk0
  rw [View.read_apply]
  show V c main_v1 _ = V c main_v1 _
  congr 1
  funext a
  apply Fin.ext
  match a with
  | ⟨0, _⟩ => show win0_1.index t (0 : Fin 2) * 768 + 1 * k.val = k.val; omega
  | ⟨1, _⟩ => show win0_1.index t (1 : Fin 2) * 384 + 1 * e.val = e.val; omega
theorem w_block2 (t : Fin cfg0.N) (k : Fin 768) (e : Fin 384)
    (h0 : win0_2.index t (0 : Fin 2) = 0) (h1 : win0_2.index t (1 : Fin 2) = 0) :
    (iblk0 V c 2 t : Vec Ideal S768x384 .f32) (ix2 k e) = (V c main_v2 : S768x384.Idx → EReal) (ix2 k e) := by
  unfold iblk0
  rw [View.read_apply]
  show V c main_v2 _ = V c main_v2 _
  congr 1
  funext a
  apply Fin.ext
  match a with
  | ⟨0, _⟩ => show win0_2.index t (0 : Fin 2) * 768 + 1 * k.val = k.val; omega
  | ⟨1, _⟩ => show win0_2.index t (1 : Fin 2) * 384 + 1 * e.val = e.val; omega
theorem w_block3 (t : Fin cfg0.N) (k : Fin 768) (e : Fin 384)
    (h0 : win0_3.index t (0 : Fin 2) = 0) (h1 : win0_3.index t (1 : Fin 2) = 0) :
    (iblk0 V c 3 t : Vec Ideal S768x384 .f32) (ix2 k e) = (V c main_v3 : S768x384.Idx → EReal) (ix2 k e) := by
  unfold iblk0
  rw [View.read_apply]
  show V c main_v3 _ = V c main_v3 _
  congr 1
  funext a
  apply Fin.ext
  match a with
  | ⟨0, _⟩ => show win0_3.index t (0 : Fin 2) * 768 + 1 * k.val = k.val; omega
  | ⟨1, _⟩ => show win0_3.index t (1 : Fin 2) * 384 + 1 * e.val = e.val; omega
/-- A bias window's block is the whole bias row. -/
theorem b_block4 (t : Fin cfg0.N) (e : Fin 384)
    (h0 : win0_4.index t (0 : Fin 2) = 0) (h1 : win0_4.index t (1 : Fin 2) = 0) :
    (iblk0 V c 4 t : Vec Ideal S1x384 .f32) (ix2 0 e) = (V c main_v4 : S1x384.Idx → EReal) (ix2 0 e) := by
  unfold iblk0
  rw [View.read_apply]
  show V c main_v4 _ = V c main_v4 _
  congr 1
  funext a
  apply Fin.ext
  match a with
  | ⟨0, _⟩ => show win0_4.index t (0 : Fin 2) * 1 + 1 * 0 = 0; omega
  | ⟨1, _⟩ => show win0_4.index t (1 : Fin 2) * 384 + 1 * e.val = e.val; omega
theorem b_block5 (t : Fin cfg0.N) (e : Fin 384)
    (h0 : win0_5.index t (0 : Fin 2) = 0) (h1 : win0_5.index t (1 : Fin 2) = 0) :
    (iblk0 V c 5 t : Vec Ideal S1x384 .f32) (ix2 0 e) = (V c main_v5 : S1x384.Idx → EReal) (ix2 0 e) := by
  unfold iblk0
  rw [View.read_apply]
  show V c main_v5 _ = V c main_v5 _
  congr 1
  funext a
  apply Fin.ext
  match a with
  | ⟨0, _⟩ => show win0_5.index t (0 : Fin 2) * 1 + 1 * 0 = 0; omega
  | ⟨1, _⟩ => show win0_5.index t (1 : Fin 2) * 384 + 1 * e.val = e.val; omega
/-- A rotary table window's block at point `t`, row `r`: row `768 n + r` of the table. -/
theorem r_block6 (t : Fin cfg0.N) (r : Fin 768) (d : Fin 48) (n : Fin 2304)
    (hn : n.val = win0_6.index t (0 : Fin 2) * 768 + r.val) (h1 : win0_6.index t (1 : Fin 2) = 0) :
    (iblk0 V c 6 t : Vec Ideal S768x48 .f32) (ix2 r d) = (V c main_arg1 : S2304x48.Idx → EReal) (ix2 n d) := by
  unfold iblk0
  rw [View.read_apply]
  show V c main_arg1 _ = V c main_arg1 _
  congr 1
  funext a
  apply Fin.ext
  match a with
  | ⟨0, _⟩ => show win0_6.index t (0 : Fin 2) * 768 + 1 * r.val = n.val; omega
  | ⟨1, _⟩ => show win0_6.index t (1 : Fin 2) * 48 + 1 * d.val = d.val; omega
theorem r_block7 (t : Fin cfg0.N) (r : Fin 768) (d : Fin 48) (n : Fin 2304)
    (hn : n.val = win0_7.index t (0 : Fin 2) * 768 + r.val) (h1 : win0_7.index t (1 : Fin 2) = 0) :
    (iblk0 V c 7 t : Vec Ideal S768x48 .f32) (ix2 r d) = (V c main_arg2 : S2304x48.Idx → EReal) (ix2 n d) := by
  unfold iblk0
  rw [View.read_apply]
  show V c main_arg2 _ = V c main_arg2 _
  congr 1
  funext a
  apply Fin.ext
  match a with
  | ⟨0, _⟩ => show win0_7.index t (0 : Fin 2) * 768 + 1 * r.val = n.val; omega
  | ⟨1, _⟩ => show win0_7.index t (1 : Fin 2) * 48 + 1 * d.val = d.val; omega

/-! ## A block of the result is the block function of the point's input blocks -/

section Pure
variable (X : Fin 4 → Fin 2304 → Fin 768 → EReal) (W : Fin 384 → Fin 768 → EReal) (B : Fin 384 → EReal)
  (cs sn : Fin 2304 → Fin 48 → EReal)
  (x0 : Vec Ideal S1x768x768 .f32) (x1 : Vec Ideal S768x384 .f32) (x4 : Vec Ideal S1x384 .f32) (x6 x7 : Vec Ideal S768x48 .f32)
  (b : Fin 4) (n : Fin 2304) (y : S1x8x768x48.Idx) (h : Fin 8) (r : Fin 768) (d : Fin 48)

theorem qBlock_eq (h1 : (y 1).val = h.val) (h2 : (y 2).val = r.val) (h3 : (y 3).val = d.val)
    (hx0 : ∀ k, x0 (ix3 0 r k) = X b n k) (hx1 : ∀ k e, x1 (ix2 k e) = W e k) (hx4 : ∀ e, x4 (ix2 0 e) = B e)
    (hx6 : ∀ d', x6 (ix2 r d') = cs n d') (hx7 : ∀ d', x7 (ix2 r d') = sn n d') :
    qBlock x0 x1 x4 x6 x7 y = Attn.qh X W B cs sn b h n d := by
  rw [qBlock_at x0 x1 x4 x6 x7 y h r d h1 h2 h3]
  unfold Attn.qh
  simp only [hx0, hx1, hx4, hx6, hx7]

theorem kBlock_eq (h1 : (y 1).val = h.val) (h2 : (y 2).val = r.val) (h3 : (y 3).val = d.val)
    (hx0 : ∀ k, x0 (ix3 0 r k) = X b n k) (hx1 : ∀ k e, x1 (ix2 k e) = W e k)
    (hx6 : ∀ d', x6 (ix2 r d') = cs n d') (hx7 : ∀ d', x7 (ix2 r d') = sn n d') :
    kBlock x0 x1 x6 x7 y = Attn.kh X W cs sn b h n d := by
  rw [kBlock_at x0 x1 x6 x7 y h r d h1 h2 h3]
  unfold Attn.kh
  simp only [hx0, hx1, hx6, hx7]

theorem vBlock_eq (h1 : (y 1).val = h.val) (h2 : (y 2).val = r.val) (h3 : (y 3).val = d.val)
    (hx0 : ∀ k, x0 (ix3 0 r k) = X b n k) (hx1 : ∀ k e, x1 (ix2 k e) = W e k) (hx4 : ∀ e, x4 (ix2 0 e) = B e) :
    vBlock x0 x1 x4 y = Attn.vh X W B b h n d := by
  rw [vBlock_at x0 x1 x4 y h r d h1 h2 h3]
  unfold Attn.vh
  simp only [hx0, hx1, hx4]

end Pure

/-! ## The three output arrays as functions of the region's input arrays -/

/-- The rotated query heads of the arrays the region finds. -/
def qArr : S4x8x2304x48.Idx → EReal := fun i =>
  Attn.qh (fun b n k => (V c main_v0 : S4x2304x768.Idx → EReal) (ix3 b n k))
    (fun e k => (V c main_v1 : S768x384.Idx → EReal) (ix2 k e)) (fun e => (V c main_v4 : S1x384.Idx → EReal) (ix2 0 e))
    (fun n d => (V c main_arg1 : S2304x48.Idx → EReal) (ix2 n d)) (fun n d => (V c main_arg2 : S2304x48.Idx → EReal) (ix2 n d))
    (i 0) (i 1) (i 2) (i 3)

/-- The rotated key heads of the arrays the region finds. -/
def kArr : S4x8x2304x48.Idx → EReal := fun i =>
  Attn.kh (fun b n k => (V c main_v0 : S4x2304x768.Idx → EReal) (ix3 b n k))
    (fun e k => (V c main_v2 : S768x384.Idx → EReal) (ix2 k e))
    (fun n d => (V c main_arg1 : S2304x48.Idx → EReal) (ix2 n d)) (fun n d => (V c main_arg2 : S2304x48.Idx → EReal) (ix2 n d))
    (i 0) (i 1) (i 2) (i 3)

/-- The value heads of the arrays the region finds. -/
def vArr : S4x8x2304x48.Idx → EReal := fun i =>
  Attn.vh (fun b n k => (V c main_v0 : S4x2304x768.Idx → EReal) (ix3 b n k))
    (fun e k => (V c main_v3 : S768x384.Idx → EReal) (ix2 k e)) (fun e => (V c main_v5 : S1x384.Idx → EReal) (ix2 0 e))
    (i 0) (i 1) (i 2) (i 3)

/-! ## What a point writes back is its block of the array function -/

theorem flushed8_eq (t : Fin cfg0.N) :
    (dat0 V c).flushed 8 t = ((cfg0.win 8).blk t).view.read (Elt Ideal) (qArr V c) := by
  show (cfg0.win 8).cut (grid0.coords t) ((dat0 V c).after 8 t) = _
  rw [after0_8, out0_8_eq]
  obtain ⟨e00, e01, e02, e10, e11, e20, e21, e30, e31, e40, e41, e50, e51, e60, e61, e70, e71, e81, e83, b0, b2, e9, e10'⟩ :=
    idx_facts t
  have o0 : win0_8.index t (0 : Fin 4) = win0_8.index t (0 : Fin 4) := rfl
  have o1 : win0_8.index t (1 : Fin 4) = 0 := e81
  have o2 : win0_8.index t (2 : Fin 4) = win0_8.index t (2 : Fin 4) := rfl
  have o3 : win0_8.index t (3 : Fin 4) = 0 := e83
  funext j
  have hj0 : (j 0).val < 1 := (j 0).isLt
  have hj1 : (j 1).val < 8 := (j 1).isLt
  have hj2 : (j 2).val < 768 := (j 2).isLt
  have hj3 : (j 3).val < 48 := (j 3).isLt
  have hb : win0_8.index t (0 : Fin 4) < 4 := by omega
  have hn : win0_8.index t (2 : Fin 4) * 768 + (j 2).val < 2304 := by omega
  have hi : ((cfg0.win 8).blk t).view.emb j
      = ix4 (⟨win0_8.index t (0 : Fin 4), hb⟩ : Fin 4) (⟨(j 1).val, hj1⟩ : Fin 8)
          (⟨win0_8.index t (2 : Fin 4) * 768 + (j 2).val, hn⟩ : Fin 2304) (⟨(j 3).val, hj3⟩ : Fin 48) := by
    funext a
    apply Fin.ext
    match a with
    | ⟨0, _⟩ => show win0_8.index t (0 : Fin 4) * 1 + 1 * (j 0).val = win0_8.index t (0 : Fin 4); omega
    | ⟨1, _⟩ => show win0_8.index t (1 : Fin 4) * 8 + 1 * (j 1).val = (j 1).val; omega
    | ⟨2, _⟩ => show win0_8.index t (2 : Fin 4) * 768 + 1 * (j 2).val = win0_8.index t (2 : Fin 4) * 768 + (j 2).val; omega
    | ⟨3, _⟩ => show win0_8.index t (3 : Fin 4) * 48 + 1 * (j 3).val = (j 3).val; omega
  show qBlock (iblk0 V c 0 t) (iblk0 V c 1 t) (iblk0 V c 4 t) (iblk0 V c 6 t) (iblk0 V c 7 t) j = qArr V c (((cfg0.win 8).blk t).view.emb j)
  rw [hi]
  exact qBlock_eq _ _ _ _ _ (iblk0 V c 0 t) (iblk0 V c 1 t) (iblk0 V c 4 t) (iblk0 V c 6 t) (iblk0 V c 7 t) _ _ j ⟨(j 1).val, hj1⟩ ⟨(j 2).val, hj2⟩ ⟨(j 3).val, hj3⟩ rfl rfl rfl
    (fun k => tok_block V c t ⟨(j 2).val, hj2⟩ k ⟨win0_8.index t (0 : Fin 4), hb⟩ ⟨win0_8.index t (2 : Fin 4) * 768 + (j 2).val, hn⟩ e00.symm (by show win0_8.index t (2 : Fin 4) * 768 + (j 2).val = win0_0.index t (1 : Fin 3) * 768 + (j 2).val; omega) e02)
    (fun k e => w_block1 V c t k e e10 e11) (fun e => b_block4 V c t e e40 e41)
    (fun d' => r_block6 V c t ⟨(j 2).val, hj2⟩ d' ⟨win0_8.index t (2 : Fin 4) * 768 + (j 2).val, hn⟩ (by show win0_8.index t (2 : Fin 4) * 768 + (j 2).val = win0_6.index t (0 : Fin 2) * 768 + (j 2).val; omega) e61)
    (fun d' => r_block7 V c t ⟨(j 2).val, hj2⟩ d' ⟨win0_8.index t (2 : Fin 4) * 768 + (j 2).val, hn⟩ (by show win0_8.index t (2 : Fin 4) * 768 + (j 2).val = win0_7.index t (0 : Fin 2) * 768 + (j 2).val; omega) e71)

theorem flushed9_eq (t : Fin cfg0.N) :
    (dat0 V c).flushed 9 t = ((cfg0.win 9).blk t).view.read (Elt Ideal) (kArr V c) := by
  show (cfg0.win 9).cut (grid0.coords t) ((dat0 V c).after 9 t) = _
  rw [after0_9, out0_9_eq]
  obtain ⟨e00, e01, e02, e10, e11, e20, e21, e30, e31, e40, e41, e50, e51, e60, e61, e70, e71, e81, e83, b0, b2, e9, e10'⟩ :=
    idx_facts t
  have o0 : win0_9.index t (0 : Fin 4) = win0_8.index t (0 : Fin 4) := congrFun e9 0
  have o1 : win0_9.index t (1 : Fin 4) = 0 := (congrFun e9 1).trans e81
  have o2 : win0_9.index t (2 : Fin 4) = win0_8.index t (2 : Fin 4) := congrFun e9 2
  have o3 : win0_9.index t (3 : Fin 4) = 0 := (congrFun e9 3).trans e83
  funext j
  have hj0 : (j 0).val < 1 := (j 0).isLt
  have hj1 : (j 1).val < 8 := (j 1).isLt
  have hj2 : (j 2).val < 768 := (j 2).isLt
  have hj3 : (j 3).val < 48 := (j 3).isLt
  have hb : win0_8.index t (0 : Fin 4) < 4 := by omega
  have hn : win0_8.index t (2 : Fin 4) * 768 + (j 2).val < 2304 := by omega
  have hi : ((cfg0.win 9).blk t).view.emb j
      = ix4 (⟨win0_8.index t (0 : Fin 4), hb⟩ : Fin 4) (⟨(j 1).val, hj1⟩ : Fin 8)
          (⟨win0_8.index t (2 : Fin 4) * 768 + (j 2).val, hn⟩ : Fin 2304) (⟨(j 3).val, hj3⟩ : Fin 48) := by
    funext a
    apply Fin.ext
    match a with
    | ⟨0, _⟩ => show win0_9.index t (0 : Fin 4) * 1 + 1 * (j 0).val = win0_8.index t (0 : Fin 4); omega
    | ⟨1, _⟩ => show win0_9.index t (1 : Fin 4) * 8 + 1 * (j 1).val = (j 1).val; omega
    | ⟨2, _⟩ => show win0_9.index t (2 : Fin 4) * 768 + 1 * (j 2).val = win0_8.index t (2 : Fin 4) * 768 + (j 2).val; omega
    | ⟨3, _⟩ => show win0_9.index t (3 : Fin 4) * 48 + 1 * (j 3).val = (j 3).val; omega
  show kBlock (iblk0 V c 0 t) (iblk0 V c 2 t) (iblk0 V c 6 t) (iblk0 V c 7 t) j = kArr V c (((cfg0.win 9).blk t).view.emb j)
  rw [hi]
  exact kBlock_eq _ _ _ _ (iblk0 V c 0 t) (iblk0 V c 2 t) (iblk0 V c 6 t) (iblk0 V c 7 t) _ _ j ⟨(j 1).val, hj1⟩ ⟨(j 2).val, hj2⟩ ⟨(j 3).val, hj3⟩ rfl rfl rfl
    (fun k => tok_block V c t ⟨(j 2).val, hj2⟩ k ⟨win0_8.index t (0 : Fin 4), hb⟩ ⟨win0_8.index t (2 : Fin 4) * 768 + (j 2).val, hn⟩ e00.symm (by show win0_8.index t (2 : Fin 4) * 768 + (j 2).val = win0_0.index t (1 : Fin 3) * 768 + (j 2).val; omega) e02)
    (fun k e => w_block2 V c t k e e20 e21)
    (fun d' => r_block6 V c t ⟨(j 2).val, hj2⟩ d' ⟨win0_8.index t (2 : Fin 4) * 768 + (j 2).val, hn⟩ (by show win0_8.index t (2 : Fin 4) * 768 + (j 2).val = win0_6.index t (0 : Fin 2) * 768 + (j 2).val; omega) e61)
    (fun d' => r_block7 V c t ⟨(j 2).val, hj2⟩ d' ⟨win0_8.index t (2 : Fin 4) * 768 + (j 2).val, hn⟩ (by show win0_8.index t (2 : Fin 4) * 768 + (j 2).val = win0_7.index t (0 : Fin 2) * 768 + (j 2).val; omega) e71)

theorem flushed10_eq (t : Fin cfg0.N) :
    (dat0 V c).flushed 10 t = ((cfg0.win 10).blk t).view.read (Elt Ideal) (vArr V c) := by
  show (cfg0.win 10).cut (grid0.coords t) ((dat0 V c).after 10 t) = _
  rw [after0_10, out0_10_eq]
  obtain ⟨e00, e01, e02, e10, e11, e20, e21, e30, e31, e40, e41, e50, e51, e60, e61, e70, e71, e81, e83, b0, b2, e9, e10'⟩ :=
    idx_facts t
  have o0 : win0_10.index t (0 : Fin 4) = win0_8.index t (0 : Fin 4) := congrFun e10' 0
  have o1 : win0_10.index t (1 : Fin 4) = 0 := (congrFun e10' 1).trans e81
  have o2 : win0_10.index t (2 : Fin 4) = win0_8.index t (2 : Fin 4) := congrFun e10' 2
  have o3 : win0_10.index t (3 : Fin 4) = 0 := (congrFun e10' 3).trans e83
  funext j
  have hj0 : (j 0).val < 1 := (j 0).isLt
  have hj1 : (j 1).val < 8 := (j 1).isLt
  have hj2 : (j 2).val < 768 := (j 2).isLt
  have hj3 : (j 3).val < 48 := (j 3).isLt
  have hb : win0_8.index t (0 : Fin 4) < 4 := by omega
  have hn : win0_8.index t (2 : Fin 4) * 768 + (j 2).val < 2304 := by omega
  have hi : ((cfg0.win 10).blk t).view.emb j
      = ix4 (⟨win0_8.index t (0 : Fin 4), hb⟩ : Fin 4) (⟨(j 1).val, hj1⟩ : Fin 8)
          (⟨win0_8.index t (2 : Fin 4) * 768 + (j 2).val, hn⟩ : Fin 2304) (⟨(j 3).val, hj3⟩ : Fin 48) := by
    funext a
    apply Fin.ext
    match a with
    | ⟨0, _⟩ => show win0_10.index t (0 : Fin 4) * 1 + 1 * (j 0).val = win0_8.index t (0 : Fin 4); omega
    | ⟨1, _⟩ => show win0_10.index t (1 : Fin 4) * 8 + 1 * (j 1).val = (j 1).val; omega
    | ⟨2, _⟩ => show win0_10.index t (2 : Fin 4) * 768 + 1 * (j 2).val = win0_8.index t (2 : Fin 4) * 768 + (j 2).val; omega
    | ⟨3, _⟩ => show win0_10.index t (3 : Fin 4) * 48 + 1 * (j 3).val = (j 3).val; omega
  show vBlock (iblk0 V c 0 t) (iblk0 V c 3 t) (iblk0 V c 5 t) j = vArr V c (((cfg0.win 10).blk t).view.emb j)
  rw [hi]
  exact vBlock_eq _ _ _ (iblk0 V c 0 t) (iblk0 V c 3 t) (iblk0 V c 5 t) _ _ j ⟨(j 1).val, hj1⟩ ⟨(j 2).val, hj2⟩ ⟨(j 3).val, hj3⟩ rfl rfl rfl
    (fun k => tok_block V c t ⟨(j 2).val, hj2⟩ k ⟨win0_8.index t (0 : Fin 4), hb⟩ ⟨win0_8.index t (2 : Fin 4) * 768 + (j 2).val, hn⟩ e00.symm (by show win0_8.index t (2 : Fin 4) * 768 + (j 2).val = win0_0.index t (1 : Fin 3) * 768 + (j 2).val; omega) e02)
    (fun k e => w_block3 V c t k e e30 e31) (fun e => b_block5 V c t e e50 e51)

/-! ## The blocks tile each output array -/

/-- An index of the array is in point `t`'s block iff each coordinate is in the block's range on its axis. -/
theorem mem_blk8 (t : Fin cfg0.N) (i : S4x8x2304x48.Idx) :
    i ∈ ((cfg0.win 8).blk t).view.set ↔ ∀ a : Fin 4, win0_8.index t a * S1x8x768x48.size a ≤ (i a).val
      ∧ (i a).val < win0_8.index t a * S1x8x768x48.size a + S1x8x768x48.size a := by
  show i ∈ ((View.whole main_v6_0).slice (win0_8.rect t)).set ↔ _
  rw [View.set_slice_whole, Rect.mem_set_unit]
  exact Iff.rfl

/-- Every index of the array is in the block of the point of its batch and row block. -/
theorem cover8 (i : S4x8x2304x48.Idx) :
    ∃ t : Fin cfg0.N, (cfg0.win 8).flush t = true ∧ i ∈ ((cfg0.win 8).blk t).view.set := by
  have hi0 : (i 0).val < 4 := (i 0).isLt
  have hi1 : (i 1).val < 8 := (i 1).isLt
  have hi2 : (i 2).val < 2304 := (i 2).isLt
  have hi3 : (i 3).val < 48 := (i 3).isLt
  obtain ⟨t, ht⟩ := idx_onto ⟨(i 0).val, hi0⟩ ⟨(i 2).val / 768, by omega⟩
  have hw : win0_8.index t = ![(i 0).val, 0, (i 2).val / 768, 0] := ht
  have q0 : win0_8.index t (0 : Fin 4) = (i 0).val := congrFun hw 0
  have q1 : win0_8.index t (1 : Fin 4) = 0 := congrFun hw 1
  have q2 : win0_8.index t (2 : Fin 4) = (i 2).val / 768 := congrFun hw 2
  have q3 : win0_8.index t (3 : Fin 4) = 0 := congrFun hw 3
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 8 ≤ (i 1).val ∧ (i 1).val < win0_8.index t (1 : Fin 4) * 8 + 8; omega
  | ⟨2, _⟩ => show win0_8.index t (2 : Fin 4) * 768 ≤ (i 2).val ∧ (i 2).val < win0_8.index t (2 : Fin 4) * 768 + 768; omega
  | ⟨3, _⟩ => show win0_8.index t (3 : Fin 4) * 48 ≤ (i 3).val ∧ (i 3).val < win0_8.index t (3 : Fin 4) * 48 + 48; omega

/-- An index of the array is in point `t`'s block iff each coordinate is in the block's range on its axis. -/
theorem mem_blk9 (t : Fin cfg0.N) (i : S4x8x2304x48.Idx) :
    i ∈ ((cfg0.win 9).blk t).view.set ↔ ∀ a : Fin 4, win0_9.index t a * S1x8x768x48.size a ≤ (i a).val
      ∧ (i a).val < win0_9.index t a * S1x8x768x48.size a + S1x8x768x48.size a := by
  show i ∈ ((View.whole main_v6_1).slice (win0_9.rect t)).set ↔ _
  rw [View.set_slice_whole, Rect.mem_set_unit]
  exact Iff.rfl

/-- Every index of the array is in the block of the point of its batch and row block. -/
theorem cover9 (i : S4x8x2304x48.Idx) :
    ∃ t : Fin cfg0.N, (cfg0.win 9).flush t = true ∧ i ∈ ((cfg0.win 9).blk t).view.set := by
  have hi0 : (i 0).val < 4 := (i 0).isLt
  have hi1 : (i 1).val < 8 := (i 1).isLt
  have hi2 : (i 2).val < 2304 := (i 2).isLt
  have hi3 : (i 3).val < 48 := (i 3).isLt
  obtain ⟨t, ht⟩ := idx_onto ⟨(i 0).val, hi0⟩ ⟨(i 2).val / 768, by omega⟩
  have hw : win0_9.index t = ![(i 0).val, 0, (i 2).val / 768, 0] := ((idx_facts t).2.2.2.2.2.2.2.2.2.2.2.2.2.2.2.2.2.2.2.2.2.1.trans ht)
  have q0 : win0_9.index t (0 : Fin 4) = (i 0).val := congrFun hw 0
  have q1 : win0_9.index t (1 : Fin 4) = 0 := congrFun hw 1
  have q2 : win0_9.index t (2 : Fin 4) = (i 2).val / 768 := congrFun hw 2
  have q3 : win0_9.index t (3 : Fin 4) = 0 := congrFun hw 3
  refine ⟨t, flush0_9 t, ?_⟩
  rw [mem_blk9]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 8 ≤ (i 1).val ∧ (i 1).val < win0_9.index t (1 : Fin 4) * 8 + 8; omega
  | ⟨2, _⟩ => show win0_9.index t (2 : Fin 4) * 768 ≤ (i 2).val ∧ (i 2).val < win0_9.index t (2 : Fin 4) * 768 + 768; omega
  | ⟨3, _⟩ => show win0_9.index t (3 : Fin 4) * 48 ≤ (i 3).val ∧ (i 3).val < win0_9.index t (3 : Fin 4) * 48 + 48; omega

/-- An index of the array is in point `t`'s block iff each coordinate is in the block's range on its axis. -/
theorem mem_blk10 (t : Fin cfg0.N) (i : S4x8x2304x48.Idx) :
    i ∈ ((cfg0.win 10).blk t).view.set ↔ ∀ a : Fin 4, win0_10.index t a * S1x8x768x48.size a ≤ (i a).val
      ∧ (i a).val < win0_10.index t a * S1x8x768x48.size a + S1x8x768x48.size a := by
  show i ∈ ((View.whole main_v6_2).slice (win0_10.rect t)).set ↔ _
  rw [View.set_slice_whole, Rect.mem_set_unit]
  exact Iff.rfl

/-- Every index of the array is in the block of the point of its batch and row block. -/
theorem cover10 (i : S4x8x2304x48.Idx) :
    ∃ t : Fin cfg0.N, (cfg0.win 10).flush t = true ∧ i ∈ ((cfg0.win 10).blk t).view.set := by
  have hi0 : (i 0).val < 4 := (i 0).isLt
  have hi1 : (i 1).val < 8 := (i 1).isLt
  have hi2 : (i 2).val < 2304 := (i 2).isLt
  have hi3 : (i 3).val < 48 := (i 3).isLt
  obtain ⟨t, ht⟩ := idx_onto ⟨(i 0).val, hi0⟩ ⟨(i 2).val / 768, by omega⟩
  have hw : win0_10.index t = ![(i 0).val, 0, (i 2).val / 768, 0] := ((idx_facts t).2.2.2.2.2.2.2.2.2.2.2.2.2.2.2.2.2.2.2.2.2.2.trans ht)
  have q0 : win0_10.index t (0 : Fin 4) = (i 0).val := congrFun hw 0
  have q1 : win0_10.index t (1 : Fin 4) = 0 := congrFun hw 1
  have q2 : win0_10.index t (2 : Fin 4) = (i 2).val / 768 := congrFun hw 2
  have q3 : win0_10.index t (3 : Fin 4) = 0 := congrFun hw 3
  refine ⟨t, flush0_10 t, ?_⟩
  rw [mem_blk10]
  intro a
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 8 ≤ (i 1).val ∧ (i 1).val < win0_10.index t (1 : Fin 4) * 8 + 8; omega
  | ⟨2, _⟩ => show win0_10.index t (2 : Fin 4) * 768 ≤ (i 2).val ∧ (i 2).val < win0_10.index t (2 : Fin 4) * 768 + 768; omega
  | ⟨3, _⟩ => show win0_10.index t (3 : Fin 4) * 48 ≤ (i 3).val ∧ (i 3).val < win0_10.index t (3 : Fin 4) * 48 + 48; omega

/-! ## The arrays after the region -/

/-- The query array after the region: the rotated query heads of the arrays the region found. -/
theorem q_final : (dat0 (F := Ideal) V c).arrAt 8 cfg0.N = fun i =>
    Attn.qh (fun b n k => V c main_v0 (ix3 b n k)) (fun e k => V c main_v1 (ix2 k e)) (fun e => V c main_v4 (ix2 0 e))
      (fun n d => V c main_arg1 (ix2 n d)) (fun n d => V c main_arg2 (ix2 n d)) (i 0) (i 1) (i 2) (i 3) :=
  (dat0 V c).arrAt_eq_of_cover 8 (qArr V c) (fun t _ => flushed8_eq V c t) cover8

/-- The key array after the region: the rotated key heads. -/
theorem k_final : (dat0 (F := Ideal) V c).arrAt 9 cfg0.N = fun i =>
    Attn.kh (fun b n k => V c main_v0 (ix3 b n k)) (fun e k => V c main_v2 (ix2 k e))
      (fun n d => V c main_arg1 (ix2 n d)) (fun n d => V c main_arg2 (ix2 n d)) (i 0) (i 1) (i 2) (i 3) :=
  (dat0 V c).arrAt_eq_of_cover 9 (kArr V c) (fun t _ => flushed9_eq V c t) cover9

/-- The value array after the region: the value heads. -/
theorem v_final : (dat0 (F := Ideal) V c).arrAt 10 cfg0.N = fun i =>
    Attn.vh (fun b n k => V c main_v0 (ix3 b n k)) (fun e k => V c main_v3 (ix2 k e)) (fun e => V c main_v5 (ix2 0 e))
      (i 0) (i 1) (i 2) (i 3) :=
  (dat0 V c).arrAt_eq_of_cover 10 (vArr V c) (fun t _ => flushed10_eq V c t) cover10

end Cert.KernelIdeal.QKV

end
-- ==== Proof.RegionAttnBody.lean ====
/-
  The attention body at one grid point, read at an index.

  The body takes 768 query rows and all 2304 key rows and value rows of one head. It multiplies each query lane by the
  score scale, contracts query rows with key rows over their 48 lanes (the scores), takes each query row's largest
  score, exponentiates the scores less that maximum, sums the exponentials along the row, contracts the exponentials with
  the value rows over the 2304 key positions, and divides each result row by its sum of exponentials. Entry (q, d) of
  what it leaves is therefore the weighted sum of value lanes `d` divided by row `q`'s sum of weights.
-/
import proofs.«138608_j36636071035070_2_alg».proof.Proof.Gen.KernelIdeal.Frame
import proofs.«138608_j36636071035070_2_alg».proof.Proof.Spec
import Idealize.ShloMosaic.Lib.Pipeline.Value
import Idealize.ShloMosaic.Lib.ValueIdx
import Idealize.ShloMosaic.PureOps.Ideal.Laws

noncomputable section

namespace Cert.KernelIdeal.AttnR1

open Cert.KernelIdeal Cert.KernelIdeal.Gen Idealize.ShloMosaic Idealize.ShloMosaic.ValueIdx Cert.Attn

local notation "Dqk" => dot_S768x48_S2304x48_S768x2304_1_1_0_0_n_n
local notation "Dpv" => dot_S768x2304_S2304x48_S768x48_1_0_0_1_n_n

/-! ## The two matmuls at an index -/

theorem qk_lhs_0 (i : S768x2304.Idx) (q : (Dqk).contr.Idx) : ((Dqk).lhsIdx i q 0).val = (i 0).val := by
  unfold DotDims.lhsIdx
  rw [dif_neg (show ¬(0 : Fin S768x48.rank) ∈ (Dqk).lhsBatch by decide), dif_pos (show (0 : Fin S768x48.rank) ∈ (Dqk).lhsNonContracting by decide)]
  rfl
theorem qk_lhs_1 (i : S768x2304.Idx) (q : (Dqk).contr.Idx) : ((Dqk).lhsIdx i q 1).val = (q ⟨0, by decide⟩).val :=
  (Dqk).lhsIdx_val_of_single rfl i q
theorem qk_rhs_0 (i : S768x2304.Idx) (q : (Dqk).contr.Idx) : ((Dqk).rhsIdx i q 0).val = (i 1).val := by
  unfold DotDims.rhsIdx
  rw [dif_neg (show ¬(0 : Fin S2304x48.rank) ∈ (Dqk).rhsBatch by decide), dif_pos (show (0 : Fin S2304x48.rank) ∈ (Dqk).rhsNonContracting by decide)]
  rfl
theorem qk_rhs_1 (i : S768x2304.Idx) (q : (Dqk).contr.Idx) : ((Dqk).rhsIdx i q 1).val = (q ⟨0, by decide⟩).val :=
  (Dqk).rhsIdx_val_of_single rfl i q

/-- Query rows against key rows: both operands are contracted along their 48 lanes. -/
theorem matmul_qk_apply (l : FVec Ideal S768x48 .bf16) (r : FVec Ideal S2304x48 .bf16) (q : Fin 768) (n : Fin 2304) :
    matmul (Dqk) none l r (constant S768x2304 .f32 0x00000000#32) (ix2 q n)
      = ∑ k : Fin 48, l (ix2 q k) * r (ix2 n k) := by
  simp only [matmul]
  rw [Ideal.matmul_constant_zero_apply, ← Equiv.sum_comp (contrEquiv1 (Dqk) 48 rfl rfl).symm]
  refine Finset.sum_congr rfl fun k _ => ?_
  have hk := contrEquiv1_symm_val (Dqk) 48 rfl rfl k
  have el : (Dqk).lhsIdx (ix2 q n) ((contrEquiv1 (Dqk) 48 rfl rfl).symm k) = ix2 q k := funext fun a => Fin.ext (by
    match a with
    | ⟨0, _⟩ => exact qk_lhs_0 _ _
    | ⟨1, _⟩ => exact (qk_lhs_1 _ _).trans hk)
  have er : (Dqk).rhsIdx (ix2 q n) ((contrEquiv1 (Dqk) 48 rfl rfl).symm k) = ix2 n k := funext fun a => Fin.ext (by
    match a with
    | ⟨0, _⟩ => exact qk_rhs_0 _ _
    | ⟨1, _⟩ => exact (qk_rhs_1 _ _).trans hk)
  rw [el, er]

theorem pv_lhs_0 (i : S768x48.Idx) (q : (Dpv).contr.Idx) : ((Dpv).lhsIdx i q 0).val = (i 0).val := by
  unfold DotDims.lhsIdx
  rw [dif_neg (show ¬(0 : Fin S768x2304.rank) ∈ (Dpv).lhsBatch by decide), dif_pos (show (0 : Fin S768x2304.rank) ∈ (Dpv).lhsNonContracting by decide)]
  rfl
theorem pv_lhs_1 (i : S768x48.Idx) (q : (Dpv).contr.Idx) : ((Dpv).lhsIdx i q 1).val = (q ⟨0, by decide⟩).val :=
  (Dpv).lhsIdx_val_of_single rfl i q
theorem pv_rhs_0 (i : S768x48.Idx) (q : (Dpv).contr.Idx) : ((Dpv).rhsIdx i q 0).val = (q ⟨0, by decide⟩).val :=
  (Dpv).rhsIdx_val_of_single rfl i q
theorem pv_rhs_1 (i : S768x48.Idx) (q : (Dpv).contr.Idx) : ((Dpv).rhsIdx i q 1).val = (i 1).val := by
  unfold DotDims.rhsIdx
  rw [dif_neg (show ¬(1 : Fin S2304x48.rank) ∈ (Dpv).rhsBatch by decide), dif_pos (show (1 : Fin S2304x48.rank) ∈ (Dpv).rhsNonContracting by decide)]
  rfl

/-- Weights against value rows: a sum over the 2304 key positions. -/
theorem matmul_pv_apply (l : FVec Ideal S768x2304 .bf16) (r : FVec Ideal S2304x48 .bf16) (q : Fin 768) (d : Fin 48) :
    matmul (Dpv) none l r (constant S768x48 .f32 0x00000000#32) (ix2 q d)
      = ∑ n : Fin 2304, l (ix2 q n) * r (ix2 n d) := by
  simp only [matmul]
  rw [Ideal.matmul_constant_zero_apply, ← Equiv.sum_comp (contrEquiv1 (Dpv) 2304 rfl rfl).symm]
  refine Finset.sum_congr rfl fun k _ => ?_
  have hk := contrEquiv1_symm_val (Dpv) 2304 rfl rfl k
  have el : (Dpv).lhsIdx (ix2 q d) ((contrEquiv1 (Dpv) 2304 rfl rfl).symm k) = ix2 q k := funext fun a => Fin.ext (by
    match a with
    | ⟨0, _⟩ => exact pv_lhs_0 _ _
    | ⟨1, _⟩ => exact (pv_lhs_1 _ _).trans hk)
  have er : (Dpv).rhsIdx (ix2 q d) ((contrEquiv1 (Dpv) 2304 rfl rfl).symm k) = ix2 k d := funext fun a => Fin.ext (by
    match a with
    | ⟨0, _⟩ => exact (pv_rhs_0 _ _).trans hk
    | ⟨1, _⟩ => exact pv_rhs_1 _ _)
  rw [el, er]

/-! ## The body's intermediate matrices -/

/-- The 768 query rows of the block, each lane multiplied by the score scale. -/
def qs (v0 : Vec Ideal S1x1x768x48 .bf16) : FVec Ideal S768x48 .bf16 :=
  truncf .bf16 (mulf (extf .f32 (shapeCast S768x48 v0 shapeCasts_S1x1x768x48_S768x48 : FVec Ideal S768x48 .bf16) bitsLt_bf16_f32 : FVec Ideal S768x48 .f32)
    (broadcast S768x48 (Scalar.ofBits .f32 0x3E13CD3A#32 : Ideal .f32))) bitsLt_bf16_f32
/-- A [1, 1, 2304, 48] block as a [2304, 48] matrix. -/
def rows (v : Vec Ideal S1x1x2304x48 .bf16) : FVec Ideal S2304x48 .bf16 := shapeCast S2304x48 v shapeCasts_S1x1x2304x48_S2304x48
/-- Scores: scaled query rows against key rows. -/
def sc (v0 : Vec Ideal S1x1x768x48 .bf16) (v6 : Vec Ideal S1x1x2304x48 .bf16) : FVec Ideal S768x2304 .f32 :=
  matmul (Dqk) none (qs v0) (rows v6) (constant S768x2304 .f32 0x00000000#32)
/-- Each query row's largest score. -/
def mx (v0 : Vec Ideal S1x1x768x48 .bf16) (v6 : Vec Ideal S1x1x2304x48 .bf16) : FVec Ideal S768 .f32 :=
  multiReduction .maximumf [1] S768 (sc v0 v6) 0xFF800000#32 reduces_S768x2304_S768 (.inl rfl) rfl
/-- The exponentials of the scores less their row's largest. -/
def ex (v0 : Vec Ideal S1x1x768x48 .bf16) (v6 : Vec Ideal S1x1x2304x48 .bf16) : FVec Ideal S768x2304 .f32 :=
  exp (subf (sc v0 v6) (broadcastTo S768x2304 (shapeCast S768x1 (mx v0 v6) shapeCasts_S768_S768x1 : FVec Ideal S768x1 .f32) broadcasts_S768x1_S768x2304))
/-- Each query row's sum of exponentials. -/
def sm (v0 : Vec Ideal S1x1x768x48 .bf16) (v6 : Vec Ideal S1x1x2304x48 .bf16) : FVec Ideal S768 .f32 :=
  multiReduction .add [1] S768 (ex v0 v6) 0x00000000#32 reduces_S768x2304_S768 (.inl rfl) rfl
/-- The exponentials against the value rows. -/
def pv (v0 : Vec Ideal S1x1x768x48 .bf16) (v6 v8 : Vec Ideal S1x1x2304x48 .bf16) : FVec Ideal S768x48 .f32 :=
  matmul (Dpv) none (truncf .bf16 (ex v0 v6) bitsLt_bf16_f32 : FVec Ideal S768x2304 .bf16) (rows v8) (constant S768x48 .f32 0x00000000#32)

theorem k1_pay1_eq (v0 : Vec Ideal S1x1x768x48 .bf16) (v6 v8 : Vec Ideal S1x1x2304x48 .bf16) :
    k1_pay1 v0 v6 v8 = shapeCast S1x1x768x48
      (truncf .bf16 (divf (pv v0 v6 v8) (broadcastTo S768x48 (shapeCast S768x1 (sm v0 v6) shapeCasts_S768_S768x1 : FVec Ideal S768x1 .f32) broadcasts_S768x1_S768x48)) bitsLt_bf16_f32 : FVec Ideal S768x48 .bf16)
      shapeCasts_S768x48_S1x1x768x48 := rfl

/-! ## Each of them at an index -/

theorem qs_apply (v0 : Vec Ideal S1x1x768x48 .bf16) (q : Fin 768) (k : Fin 48) : qs v0 (ix2 q k) = v0 (ix4 0 0 q k) * scale := by
  show (shapeCast S768x48 v0 shapeCasts_S1x1x768x48_S768x48 (ix2 q k) : EReal) * scale = _
  refine congrArg (· * scale) (shapeCast_apply v0 _ (ix2 q k) (ix4 0 0 q k) ?_)
  rw [Shape.rowMajor_val_four, Shape.rowMajor_val_two]
  show ((0 * 1 + 0) * 768 + q.val) * 48 + k.val = q.val * 48 + k.val
  omega

theorem rows_apply (v : Vec Ideal S1x1x2304x48 .bf16) (n : Fin 2304) (k : Fin 48) : rows v (ix2 n k) = v (ix4 0 0 n k) := by
  unfold rows
  refine shapeCast_apply v _ (ix2 n k) (ix4 0 0 n k) ?_
  rw [Shape.rowMajor_val_four, Shape.rowMajor_val_two]
  show ((0 * 1 + 0) * 2304 + n.val) * 48 + k.val = n.val * 48 + k.val
  omega

theorem sc_apply (v0 : Vec Ideal S1x1x768x48 .bf16) (v6 : Vec Ideal S1x1x2304x48 .bf16) (q : Fin 768) (n : Fin 2304) :
    sc v0 v6 (ix2 q n) = ∑ k : Fin 48, (v0 (ix4 0 0 q k) * scale) * v6 (ix4 0 0 n k) := by
  unfold sc
  rw [matmul_qk_apply]
  exact Finset.sum_congr rfl fun k _ => by rw [qs_apply, rows_apply]

/-- The word the row maximum starts from is the bottom element. -/
theorem ninf : (FloatOps.ofBits .f32 0xFF800000#32 : Ideal .f32) = (⊥ : EReal) := by
  show Ideal.ofBits .f32 0xFF800000#32 = ⊥
  simp [Ideal.ofBits, Ideal.ieee]

/-- Reinserting the key position `n` into a row index gives the matrix index (q, n). -/
theorem lift_row (q : Fin 768) (n : Fin 2304) : reduces_S768x2304_S768.lift (ix1 q) n = ix2 q n :=
  funext fun a => Fin.ext (by
    match a with
    | ⟨0, _⟩ => rfl
    | ⟨1, _⟩ => rfl)

theorem mx_apply (v0 : Vec Ideal S1x1x768x48 .bf16) (v6 : Vec Ideal S1x1x2304x48 .bf16) (q : Fin 768) :
    mx v0 v6 (ix1 q) = (Finset.univ : Finset (Fin 2304)).fold max (⊥ : EReal) (fun n => sc v0 v6 (ix2 q n)) := by
  unfold mx
  refine (Ideal.multiReduction_maximumf_single (sc v0 v6) 0xFF800000#32 reduces_S768x2304_S768 (.inl rfl) rfl (ix1 q)).trans ?_
  rw [ninf]
  show (Finset.univ : Finset (Fin 2304)).fold max (⊥ : EReal) (fun n => sc v0 v6 (reduces_S768x2304_S768.lift (ix1 q) n)) = _
  exact congrArg (fun f : Fin 2304 → EReal => (Finset.univ : Finset (Fin 2304)).fold max (⊥ : EReal) f)
    (funext fun n => congrArg (sc v0 v6) (lift_row q n))

/-- A vector of 768 row values as a one-column matrix. -/
theorem col_apply (v : FVec Ideal S768 .f32) (q : Fin 768) : shapeCast S768x1 v shapeCasts_S768_S768x1 (ix2 q 0) = v (ix1 q) :=
  shapeCast_apply v _ (ix2 q 0) (ix1 q) (by
    rw [Shape.rowMajor_val_one, Shape.rowMajor_val_two]
    show q.val = q.val * 1 + 0
    omega)

/-- A one-column matrix spread over 2304 columns, and over 48. -/
theorem spread_wide (col : FVec Ideal S768x1 .f32) (q : Fin 768) (n : Fin 2304) :
    broadcastTo S768x2304 col broadcasts_S768x1_S768x2304 (ix2 q n) = col (ix2 q 0) :=
  broadcastTo_apply col _ (ix2 q n) (ix2 q 0) (fun a => by
    match a with
    | ⟨0, _⟩ => rfl
    | ⟨1, _⟩ => rfl)
theorem spread_lanes (col : FVec Ideal S768x1 .f32) (q : Fin 768) (d : Fin 48) :
    broadcastTo S768x48 col broadcasts_S768x1_S768x48 (ix2 q d) = col (ix2 q 0) :=
  broadcastTo_apply col _ (ix2 q d) (ix2 q 0) (fun a => by
    match a with
    | ⟨0, _⟩ => rfl
    | ⟨1, _⟩ => rfl)

theorem ex_apply (v0 : Vec Ideal S1x1x768x48 .bf16) (v6 : Vec Ideal S1x1x2304x48 .bf16) (q : Fin 768) (n : Fin 2304) :
    ex v0 v6 (ix2 q n) = Ideal.exp (sc v0 v6 (ix2 q n) - mx v0 v6 (ix1 q)) := by
  show Ideal.exp (sc v0 v6 (ix2 q n) - broadcastTo S768x2304 (shapeCast S768x1 (mx v0 v6) shapeCasts_S768_S768x1 : FVec Ideal S768x1 .f32) broadcasts_S768x1_S768x2304 (ix2 q n)) = _
  rw [spread_wide, col_apply]

theorem sm_apply (v0 : Vec Ideal S1x1x768x48 .bf16) (v6 : Vec Ideal S1x1x2304x48 .bf16) (q : Fin 768) :
    sm v0 v6 (ix1 q) = ∑ n : Fin 2304, ex v0 v6 (ix2 q n) := by
  unfold sm
  refine (Ideal.multiReduction_add_single (ex v0 v6) 0x00000000#32 reduces_S768x2304_S768 (.inl rfl) rfl (ix1 q)).trans ?_
  show ∑ n : Fin 2304, ex v0 v6 (reduces_S768x2304_S768.lift (ix1 q) n) = _
  exact Finset.sum_congr rfl fun n _ => congrArg (ex v0 v6) (lift_row q n)

theorem pv_apply (v0 : Vec Ideal S1x1x768x48 .bf16) (v6 v8 : Vec Ideal S1x1x2304x48 .bf16) (q : Fin 768) (d : Fin 48) :
    pv v0 v6 v8 (ix2 q d) = ∑ n : Fin 2304, ex v0 v6 (ix2 q n) * v8 (ix4 0 0 n d) := by
  unfold pv
  rw [matmul_pv_apply]
  exact Finset.sum_congr rfl fun n _ => by rw [truncf_apply, rows_apply]

theorem hz4 : (![0, 0, 0, 0] : Fin 4 → Nat) = fun _ => 0 := funext fun a => by fin_cases a <;> rfl

/-- What one grid point leaves in the output block: at (q, d) the exponentials' weighted sum of value lanes `d`
    divided by row `q`'s sum of exponentials. -/
theorem attn_block (x0 : Vec Ideal S1x1x768x48 .bf16) (x1 x2 : Vec Ideal S1x1x2304x48 .bf16) (q : Fin 768) (d : Fin 48) :
    out1_3 x0 x1 x2 (ix4 0 0 q d) = Ideal.div (pv x0 x1 x2 (ix2 q d)) (sm x0 x1 (ix1 q)) := by
  unfold out1_3
  rw [View.canon_unit_zero hz4]
  simp only [View.ld_unit_zero (S := S1x1x768x48) hz4, View.ld_unit_zero (S := S1x1x2304x48) hz4]
  rw [k1_pay1_eq]
  refine (shapeCast_apply _ _ (ix4 0 0 q d) (ix2 q d) ?_).trans ?_
  · rw [Shape.rowMajor_val_two, Shape.rowMajor_val_four]
    show q.val * 48 + d.val = ((0 * 1 + 0) * 768 + q.val) * 48 + d.val
    omega
  show Ideal.div (pv x0 x1 x2 (ix2 q d)) (broadcastTo S768x48 (shapeCast S768x1 (sm x0 x1) shapeCasts_S768_S768x1 : FVec Ideal S768x1 .f32) broadcasts_S768x1_S768x48 (ix2 q d)) = _
  rw [spread_lanes, col_apply]

/-- The same in the specification's words: if the block's query rows are row `n` … of head (b, h) of `Q` and its key and
    value rows are all 2304 rows of head (b, h) of `K` and `W`, the block's entry is the attention value at (b, h, n, ·). -/
theorem attn_block_spec (x0 : Vec Ideal S1x1x768x48 .bf16) (x1 x2 : Vec Ideal S1x1x2304x48 .bf16) (Q K W : Heads)
    (b : Fin 4) (h : Fin 8) (n : Fin 2304) (y : S1x1x768x48.Idx)
    (hq : ∀ k : Fin 48, x0 (ix4 0 0 (y 2) k) = Q b h n k)
    (hk : ∀ (m : Fin 2304) (k : Fin 48), x1 (ix4 0 0 m k) = K b h m k)
    (hv : ∀ (m : Fin 2304) (k : Fin 48), x2 (ix4 0 0 m k) = W b h m k) :
    out1_3 x0 x1 x2 y = attnK Q K W b h n (y 3) := by
  obtain ⟨a0, a1, q, d, rfl⟩ : ∃ (a0 a1 : Fin 1) (q : Fin 768) (d : Fin 48), y = ix4 a0 a1 q d := ⟨y 0, y 1, y 2, y 3, eq_ix4 y⟩
  have h0 : a0 = 0 := Fin.ext (by have := a0.isLt; omega)
  have h1 : a1 = 0 := Fin.ext (by have := a1.isLt; omega)
  subst h0 h1
  have hq' : ∀ k : Fin 48, x0 (ix4 0 0 q k) = Q b h n k := hq
  have hs : ∀ m : Fin 2304, sc x0 x1 (ix2 q m) = score Q K b h n m := fun m => by
    rw [sc_apply]; unfold score
    exact Finset.sum_congr rfl fun k _ => by rw [hq', hk]
  have hm : mx x0 x1 (ix1 q) = rowMax Q K b h n := by
    rw [mx_apply]; unfold rowMax
    exact congrArg (fun f : Fin 2304 → EReal => (Finset.univ : Finset (Fin 2304)).fold max (⊥ : EReal) f) (funext hs)
  have he : ∀ m : Fin 2304, ex x0 x1 (ix2 q m) = expo Q K b h n m := fun m => by
    rw [ex_apply, hs, hm]; rfl
  show out1_3 x0 x1 x2 (ix4 0 0 q d) = attnK Q K W b h n d
  rw [attn_block, pv_apply, sm_apply]
  unfold attnK denom
  exact congrArg₂ Ideal.div (Finset.sum_congr rfl fun m _ => by rw [he, hv]) (Finset.sum_congr rfl fun m _ => he m)

end Cert.KernelIdeal.AttnR1

end
-- ==== Proof.RegionAttn.lean ====
/-
  The attention array after its 96 grid points.

  Grid point (b, h, j) reads query rows 768 j … 768 j + 767 of head (b, h) and all 2304 key rows and value rows of that
  head, and writes rows 768 j … 768 j + 767 of head (b, h) of the result. The 96 blocks tile the [4, 8, 2304, 48] result,
  so the array ends as one function of the three head arrays: entry (b, h, n, d) is the softmax-weighted average of the
  value lanes `d` over the key positions, the weights being the exponentials of row `n`'s scaled scores less their
  largest, and the division by their sum coming last.
-/
import proofs.«138608_j36636071035070_2_alg».proof.Proof.RegionAttnBody

set_option maxRecDepth 16384

noncomputable section

namespace Cert.KernelIdeal.AttnR1

open Cert.KernelIdeal Cert.KernelIdeal.Gen Idealize.ShloMosaic Idealize.ShloMosaic.TcCoe Idealize.ShloMosaic.ValueIdx Idealize.SL.Sem Cert.Attn
open Idealize.ShloMosaic.Pipeline (Dat)

variable (V : (c : Dev nD) → (b : Ref sig .tc) → Buf (Elt Ideal) ((c : Thread nD τ).loc b)) (c : Dev nD)

/-- The region's three input arrays as functions of an index. -/
abbrev arrQ : S4x8x2304x48.Idx → EReal := V c main_v6_0
abbrev arrK : S4x8x2304x48.Idx → EReal := V c main_v6_1
abbrev arrV : S4x8x2304x48.Idx → EReal := V c main_v6_2

/-- The result array as a function of the query, key and value head arrays. -/
def attnArr : S4x8x2304x48.Idx → EReal := fun i =>
  attnK (heads4 (V c main_v6_0)) (heads4 (V c main_v6_1)) (heads4 (V c main_v6_2)) (i 0) (i 1) (i 2) (i 3)

/-- The block index maps over the grid: the query block moves with the output block; the key and value blocks follow
    it on the batch and head axes and stay at row block 0; the output block indices range over 4 batches, 8 heads and
    3 row tiles. -/
theorem idx_facts : ∀ t : Fin cfg1.N,
    win1_0.index t (0 : Fin 4) = win1_3.index t (0 : Fin 4)
    ∧ win1_0.index t (1 : Fin 4) = win1_3.index t (1 : Fin 4)
    ∧ win1_0.index t (2 : Fin 4) = win1_3.index t (2 : Fin 4)
    ∧ win1_0.index t (3 : Fin 4) = 0
    ∧ win1_1.index t (0 : Fin 4) = win1_3.index t (0 : Fin 4)
    ∧ win1_1.index t (1 : Fin 4) = win1_3.index t (1 : Fin 4)
    ∧ win1_1.index t (2 : Fin 4) = 0
    ∧ win1_1.index t (3 : Fin 4) = 0
    ∧ win1_2.index t (0 : Fin 4) = win1_3.index t (0 : Fin 4)
    ∧ win1_2.index t (1 : Fin 4) = win1_3.index t (1 : Fin 4)
    ∧ win1_2.index t (2 : Fin 4) = 0
    ∧ win1_2.index t (3 : Fin 4) = 0
    ∧ win1_3.index t (3 : Fin 4) = 0
    ∧ win1_3.index t (0 : Fin 4) ≤ 3 ∧ win1_3.index t (1 : Fin 4) ≤ 7 ∧ win1_3.index t (2 : Fin 4) ≤ 2 :=
  (by decide +kernel : ∀ t : Fin grid1.N, _)

/-- Every (batch, head, row tile) is some grid point's output block. -/
theorem idx_onto : ∀ (q0 : Fin 4) (q1 : Fin 8) (q2 : Fin 3), ∃ t : Fin cfg1.N, win1_3.index t = ![q0.val, q1.val, q2.val, 0] :=
  (by decide +kernel : ∀ (q0 : Fin 4) (q1 : Fin 8) (q2 : Fin 3), ∃ t : Fin grid1.N, win1_3.index t = ![q0.val, q1.val, q2.val, 0])

/-- What grid point `t` writes back is block `t` of `attnArr`. -/
theorem flushed_eq (t : Fin cfg1.N) :
    (dat1 (F := Ideal) V c).flushed 3 t = ((cfg1.win 3).blk t).view.read (Elt Ideal) (attnArr V c) := by
  show (cfg1.win 3).cut (grid1.coords t) ((dat1 (F := Ideal) V c).after 3 t) = _
  rw [after1_3]
  obtain ⟨e0, e1, e2, e3, e4, e5, e6, e7, e8, e9, e10, e11, e12, e13, e14, e15⟩ := idx_facts t
  funext y
  have hy0 : (y 0).val < 1 := (y 0).isLt
  have hy1 : (y 1).val < 1 := (y 1).isLt
  have hy2 : (y 2).val < 768 := (y 2).isLt
  have hy3 : (y 3).val < 48 := (y 3).isLt
  have hq : ∀ k : Fin 48, iblk1 V c 0 t (ix4 0 0 (y 2) k)
      = heads4 (V c main_v6_0) ((((cfg1.win 3).blk t).view.emb y) 0) ((((cfg1.win 3).blk t).view.emb y) 1) ((((cfg1.win 3).blk t).view.emb y) 2) k := by
    intro k
    show arrQ V c (((cfg1.win 0).blk t).view.emb (ix4 0 0 (y 2) k))
      = arrQ V c (ix4 ((((cfg1.win 3).blk t).view.emb y) 0) ((((cfg1.win 3).blk t).view.emb y) 1) ((((cfg1.win 3).blk t).view.emb y) 2) k)
    refine congrArg (arrQ V c) (funext fun a => Fin.ext ?_)
    match a with
    | ⟨0, _⟩ => show win1_0.index t (0 : Fin 4) * 1 + 1 * 0 = win1_3.index t (0 : Fin 4) * 1 + 1 * (y 0).val; omega
    | ⟨1, _⟩ => show win1_0.index t (1 : Fin 4) * 1 + 1 * 0 = win1_3.index t (1 : Fin 4) * 1 + 1 * (y 1).val; omega
    | ⟨2, _⟩ => show win1_0.index t (2 : Fin 4) * 768 + 1 * (y 2).val = win1_3.index t (2 : Fin 4) * 768 + 1 * (y 2).val; omega
    | ⟨3, _⟩ => show win1_0.index t (3 : Fin 4) * 48 + 1 * k.val = k.val; omega
  have hk : ∀ (m : Fin 2304) (k : Fin 48), iblk1 V c 1 t (ix4 0 0 m k)
      = heads4 (V c main_v6_1) ((((cfg1.win 3).blk t).view.emb y) 0) ((((cfg1.win 3).blk t).view.emb y) 1) m k := by
    intro m k
    show arrK V c (((cfg1.win 1).blk t).view.emb (ix4 0 0 m k))
      = arrK V c (ix4 ((((cfg1.win 3).blk t).view.emb y) 0) ((((cfg1.win 3).blk t).view.emb y) 1) m k)
    refine congrArg (arrK V c) (funext fun a => Fin.ext ?_)
    match a with
    | ⟨0, _⟩ => show win1_1.index t (0 : Fin 4) * 1 + 1 * 0 = win1_3.index t (0 : Fin 4) * 1 + 1 * (y 0).val; omega
    | ⟨1, _⟩ => show win1_1.index t (1 : Fin 4) * 1 + 1 * 0 = win1_3.index t (1 : Fin 4) * 1 + 1 * (y 1).val; omega
    | ⟨2, _⟩ => show win1_1.index t (2 : Fin 4) * 2304 + 1 * m.val = m.val; omega
    | ⟨3, _⟩ => show win1_1.index t (3 : Fin 4) * 48 + 1 * k.val = k.val; omega
  have hv : ∀ (m : Fin 2304) (k : Fin 48), iblk1 V c 2 t (ix4 0 0 m k)
      = heads4 (V c main_v6_2) ((((cfg1.win 3).blk t).view.emb y) 0) ((((cfg1.win 3).blk t).view.emb y) 1) m k := by
    intro m k
    show arrV V c (((cfg1.win 2).blk t).view.emb (ix4 0 0 m k))
      = arrV V c (ix4 ((((cfg1.win 3).blk t).view.emb y) 0) ((((cfg1.win 3).blk t).view.emb y) 1) m k)
    refine congrArg (arrV V c) (funext fun a => Fin.ext ?_)
    match a with
    | ⟨0, _⟩ => show win1_2.index t (0 : Fin 4) * 1 + 1 * 0 = win1_3.index t (0 : Fin 4) * 1 + 1 * (y 0).val; omega
    | ⟨1, _⟩ => show win1_2.index t (1 : Fin 4) * 1 + 1 * 0 = win1_3.index t (1 : Fin 4) * 1 + 1 * (y 1).val; omega
    | ⟨2, _⟩ => show win1_2.index t (2 : Fin 4) * 2304 + 1 * m.val = m.val; omega
    | ⟨3, _⟩ => show win1_2.index t (3 : Fin 4) * 48 + 1 * k.val = k.val; omega
  have hd : (y 3 : Fin 48) = (((cfg1.win 3).blk t).view.emb y) 3 :=
    Fin.ext (by show (y 3).val = win1_3.index t (3 : Fin 4) * 48 + 1 * (y 3).val; omega)
  refine (attn_block_spec (iblk1 V c 0 t) (iblk1 V c 1 t) (iblk1 V c 2 t)
    (heads4 (V c main_v6_0)) (heads4 (V c main_v6_1)) (heads4 (V c main_v6_2))
    ((((cfg1.win 3).blk t).view.emb y) 0) ((((cfg1.win 3).blk t).view.emb y) 1) ((((cfg1.win 3).blk t).view.emb y) 2) y hq hk hv).trans ?_
  exact congrArg (attnK (heads4 (V c main_v6_0)) (heads4 (V c main_v6_1)) (heads4 (V c main_v6_2))
    ((((cfg1.win 3).blk t).view.emb y) 0) ((((cfg1.win 3).blk t).view.emb y) 1) ((((cfg1.win 3).blk t).view.emb y) 2)) hd

/-- An index of the result is in grid point `t`'s block iff each coordinate is in the block's range on its axis. -/
theorem mem_blk (t : Fin cfg1.N) (i : S4x8x2304x48.Idx) :
    i ∈ ((cfg1.win 3).blk t).view.set ↔ ∀ a : Fin 4, win1_3.index t a * S1x1x768x48.size a ≤ (i a).val ∧ (i a).val < win1_3.index t a * S1x1x768x48.size a + S1x1x768x48.size a := by
  show i ∈ ((View.whole main_v7).slice (win1_3.rect t)).set ↔ _
  rw [View.set_slice_whole, Rect.mem_set_unit]
  exact Iff.rfl

/-- The blocks tile the result: row `n` of head (b, h) is in the block of the point with row tile `n / 768`. -/
theorem cover (i : S4x8x2304x48.Idx) : ∃ t : Fin cfg1.N, (cfg1.win 3).flush t = true ∧ i ∈ ((cfg1.win 3).blk t).view.set := by
  have hi0 : (i 0).val < 4 := (i 0).isLt
  have hi1 : (i 1).val < 8 := (i 1).isLt
  have hi2 : (i 2).val < 2304 := (i 2).isLt
  have hi3 : (i 3).val < 48 := (i 3).isLt
  obtain ⟨t, ht⟩ := idx_onto ⟨(i 0).val, hi0⟩ ⟨(i 1).val, hi1⟩ ⟨(i 2).val / 768, by omega⟩
  have q0 : win1_3.index t (0 : Fin 4) = (i 0).val := congrFun ht 0
  have q1 : win1_3.index t (1 : Fin 4) = (i 1).val := congrFun ht 1
  have q2 : win1_3.index t (2 : Fin 4) = (i 2).val / 768 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 768 ≤ (i 2).val ∧ (i 2).val < win1_3.index t (2 : Fin 4) * 768 + 768; omega
  | ⟨3, _⟩ => show win1_3.index t (3 : Fin 4) * 48 ≤ (i 3).val ∧ (i 3).val < win1_3.index t (3 : Fin 4) * 48 + 48; omega

/-- The result array after the region: attention with the late division, entry by entry. -/
theorem attn_final : (dat1 (F := Ideal) V c).arrAt 3 cfg1.N = fun i =>
    attnK (heads4 (V c main_v6_0)) (heads4 (V c main_v6_1)) (heads4 (V c main_v6_2)) (i 0) (i 1) (i 2) (i 3) :=
  (dat1 (F := Ideal) V c).arrAt_eq_of_cover 3 (attnArr V c) (fun t _ => flushed_eq V c t) (cover)

end Cert.KernelIdeal.AttnR1

end
-- ==== Proof.RefTypes.lean ====
/-
  Names for the types of the reference's arrays over the extended reals: the ten argument arrays with the shapes
  the reference program declares for them, and the head arrays (batch, head, position, lane) its middle stages pass
  along.
-/
import proofs.«138608_j36636071035070_2_alg».proof.Proof.Gen.ReferenceIdeal.Read
import proofs.«138608_j36636071035070_2_alg».proof.Proof.Spec

noncomputable section

namespace Cert.ReferenceIdeal.RefSpec

open Cert Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The image array: batch, two spatial axes, channels. -/
abbrev TA := (⟨S4x48x48x768, .f32⟩ : BufTy).Contents (Elt Ideal)
/-- A rotary table: position, lane. -/
abbrev TT := (⟨S2304x48, .f32⟩ : BufTy).Contents (Elt Ideal)
/-- A projection's weight matrix: output column, channel. -/
abbrev TW := (⟨S384x768, .f32⟩ : BufTy).Contents (Elt Ideal)
/-- A projection's bias: output column. -/
abbrev TB := (⟨S384, .f32⟩ : BufTy).Contents (Elt Ideal)
/-- The output projection's weight matrix: channel, merged column. -/
abbrev TP := (⟨S768x384, .f32⟩ : BufTy).Contents (Elt Ideal)
/-- The output projection's bias: channel. -/
abbrev TC := (⟨S768, .f32⟩ : BufTy).Contents (Elt Ideal)
/-- A head array: batch, head, position, lane. -/
abbrev TH := (⟨S4x8x2304x48, .f32⟩ : BufTy).Contents (Elt Ideal)

end Cert.ReferenceIdeal.RefSpec

end
-- ==== Proof.RefProj.lean ====
/-
  The three projections of the reference, read at a coordinate.

  Each of the 384 output columns of a projection is the dot product of a token row with one weight row (plus a bias
  entry for the query and the value). The reference then reads the 384 columns as 8 heads of 48 lanes (a reshape)
  and moves the head axis in front of the position axis (a transpose). At head `h`, position `n`, lane `d` the
  result is therefore column `h * 48 + d` of the projection of token row `n`.
-/
import proofs.«138608_j36636071035070_2_alg».proof.Proof.RefTypes

noncomputable section

open scoped BigOperators

namespace Cert.ReferenceIdeal.RefSpec

open Cert Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## One column of a projection -/

theorem lidx_proj (b : Fin 4) (n : Fin 2304) (e : Fin 384) (k : Fin 768) : lidx_main_v1 (ix3 b n e) k = ix3 b n k := by
  funext a; apply Fin.ext
  match a with
  | ⟨0, _⟩ => rfl
  | ⟨1, _⟩ => rfl
  | ⟨2, _⟩ => rfl

theorem ridx_proj (b : Fin 4) (n : Fin 2304) (e : Fin 384) (k : Fin 768) : ridx_main_v1 (ix3 b n e) k = ix2 e k := by
  funext a; apply Fin.ext
  match a with
  | ⟨0, _⟩ => rfl
  | ⟨1, _⟩ => rfl

/-- Column `e` of the projection of token row `(b, n)` by the weight matrix `w` is the dot product of the row with
    weight row `e`. -/
theorem proj_apply (x0 : TA) (w : TW) (b : Fin 4) (n : Fin 2304) (e : Fin 384) :
    val_main_v1 (F := Ideal) x0 w (ix3 b n e) = Attn.dot768 (Attn.tokens x0 b n) (Attn.mat2 w e) := by
  rw [val_main_v1_apply]
  simp only [lidx_proj, ridx_proj]
  rfl

/-- The key and value projections are the same operation on other weights. -/
theorem proj_apply_k (x0 : TA) (w : TW) (b : Fin 4) (n : Fin 2304) (e : Fin 384) :
    val_main_v5 (F := Ideal) x0 w (ix3 b n e) = Attn.dot768 (Attn.tokens x0 b n) (Attn.mat2 w e) :=
  proj_apply x0 w b n e

theorem proj_apply_v (x0 : TA) (w : TW) (b : Fin 4) (n : Fin 2304) (e : Fin 384) :
    val_main_v6 (F := Ideal) x0 w (ix3 b n e) = Attn.dot768 (Attn.tokens x0 b n) (Attn.mat2 w e) :=
  proj_apply x0 w b n e

/-! ## The bias, broadcast over batch and position -/

theorem idx_bias (b : Fin 4) (n : Fin 2304) (e : Fin 384) : idx_main_v2 (idx_main_v3 (ix3 b n e)) = ix1 e := by
  funext a; apply Fin.ext
  match a with
  | ⟨0, _⟩ => rfl

theorem bias_apply (v : TB) (b : Fin 4) (n : Fin 2304) (e : Fin 384) :
    val_main_v3 (F := Ideal) v (ix3 b n e) = Attn.vec1 v e := by
  rw [val_main_v3_apply, val_main_v2_apply, idx_bias]
  rfl

theorem bias_apply_v (v : TB) (b : Fin 4) (n : Fin 2304) (e : Fin 384) :
    val_main_v8 (F := Ideal) v (ix3 b n e) = Attn.vec1 v e :=
  bias_apply v b n e

/-! ## Columns as heads and lanes -/

/-- Reading the 384 columns as 8 heads of 48 lanes: lane `d` of head `h` is column `h * 48 + d`. -/
theorem idx_split (b : Fin 4) (n : Fin 2304) (h : Fin 8) (d : Fin 48) :
    idx_main_v10 (ix4 b n h d) = ix3 b n (Attn.col h d) := by
  have hb := b.isLt; have hn := n.isLt; have hh := h.isLt; have hd := d.isLt
  funext a; apply Fin.ext
  match a with
  | ⟨0, _⟩ => show (((b.val * 2304 + n.val) * 8 + h.val) * 48 + d.val) / 884736 = b.val; omega
  | ⟨1, _⟩ => show (((b.val * 2304 + n.val) * 8 + h.val) * 48 + d.val) / 384 % 2304 = n.val; omega
  | ⟨2, _⟩ => show (((b.val * 2304 + n.val) * 8 + h.val) * 48 + d.val) % 384 = h.val * 48 + d.val; omega

/-- Moving the head axis in front of the position axis. -/
theorem idx_swap (b : Fin 4) (h : Fin 8) (n : Fin 2304) (d : Fin 48) : idx_main_v11 (ix4 b h n d) = ix4 b n h d := by
  funext a; apply Fin.ext
  match a with
  | ⟨0, _⟩ => rfl
  | ⟨1, _⟩ => rfl
  | ⟨2, _⟩ => rfl
  | ⟨3, _⟩ => rfl

/-! ## The three head arrays before the rotation -/

/-- The query heads before the rotation. -/
theorem preQ (x0 : TA) (x3 : TW) (x6 : TB) (b : Fin 4) (h : Fin 8) (n : Fin 2304) (d : Fin 48) :
    val_main_v11 (F := Ideal) x0 x3 x6 (ix4 b h n d)
      = Attn.dot768 (Attn.tokens x0 b n) (Attn.mat2 x3 (Attn.col h d)) + Attn.vec1 x6 (Attn.col h d) := by
  rw [val_main_v11_apply, idx_swap, val_main_v10_apply, idx_split, val_main_v4_apply, proj_apply, bias_apply]
  rfl

/-- The key heads before the rotation (no bias). -/
theorem preK (x0 : TA) (x4 : TW) (b : Fin 4) (h : Fin 8) (n : Fin 2304) (d : Fin 48) :
    val_main_v13 (F := Ideal) x0 x4 (ix4 b h n d) = Attn.dot768 (Attn.tokens x0 b n) (Attn.mat2 x4 (Attn.col h d)) := by
  rw [val_main_v13_apply, show idx_main_v13 (ix4 b h n d) = ix4 b n h d from idx_swap b h n d, val_main_v12_apply,
    show idx_main_v12 (ix4 b n h d) = ix3 b n (Attn.col h d) from idx_split b n h d, proj_apply_k]

/-- The value heads. -/
theorem stageV (x0 : TA) (x5 : TW) (x7 : TB) (b : Fin 4) (h : Fin 8) (n : Fin 2304) (d : Fin 48) :
    val_main_v15 (F := Ideal) x0 x5 x7 (ix4 b h n d) = Attn.Vof x0 x5 x7 b h n d := by
  rw [val_main_v15_apply, show idx_main_v15 (ix4 b h n d) = ix4 b n h d from idx_swap b h n d, val_main_v14_apply,
    show idx_main_v14 (ix4 b n h d) = ix3 b n (Attn.col h d) from idx_split b n h d, val_main_v9_apply, proj_apply_v,
    bias_apply_v]
  rfl

end Cert.ReferenceIdeal.RefSpec

end
-- ==== Proof.RefRope.lean ====
/-
  The rotary embedding of the reference, read at a coordinate, for any head array `T`.

  The reference multiplies `T` by the cosine table, builds the rotate-half of `T` by cutting each 48-lane vector
  into its two halves, negating the upper one and joining them in the opposite order, multiplies that by the sine
  table, and adds the two products. The tables are broadcast over batch and head, so at position `n` both read row
  `n`. Queries and keys go through the same operations, so the statement is made once, for a variable `T`.
-/
import proofs.«138608_j36636071035070_2_alg».proof.Proof.RefTypes

noncomputable section

open scoped BigOperators

namespace Cert.ReferenceIdeal.RefSpec

open Cert Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The tables, broadcast over batch and head -/

theorem idx_table (b : Fin 4) (h : Fin 8) (n : Fin 2304) (d : Fin 48) :
    idx_main_v16 (idx_main_v18 (ix4 b h n d)) = ix2 n d := by
  funext a; apply Fin.ext
  match a with
  | ⟨0, _⟩ => rfl
  | ⟨1, _⟩ => rfl

/-- The broadcast cosine table at (b, h, n, d) is the table's entry (n, d). -/
theorem cos_apply (x1 : TT) (b : Fin 4) (h : Fin 8) (n : Fin 2304) (d : Fin 48) :
    val_main_v18 (F := Ideal) x1 (ix4 b h n d) = Attn.mat2 x1 n d := by
  rw [val_main_v18_apply, val_main_v16_apply, idx_table]
  rfl

/-- The broadcast sine table at (b, h, n, d) is the table's entry (n, d). -/
theorem sin_apply (x2 : TT) (b : Fin 4) (h : Fin 8) (n : Fin 2304) (d : Fin 48) :
    val_main_v24 (F := Ideal) x2 (ix4 b h n d) = Attn.mat2 x2 n d := by
  rw [val_main_v24_apply, val_main_v17_apply,
    show idx_main_v17 (idx_main_v24 (ix4 b h n d)) = ix2 n d from idx_table b h n d]
  rfl

/-! ## Rotate-half: two slices, a negation, a join -/

/-- Joining two half-width arrays along the lane axis: a lane below 24 reads the first array at that lane. -/
theorem concat_lo {α : Type} (p q : S4x8x2304x24.Idx → α) (b : Fin 4) (h : Fin 8) (n : Fin 2304) (d : Fin 48)
    (hd : d.val < 24) :
    concatenate S4x8x2304x48 3 [⟨S4x8x2304x24, p⟩, ⟨S4x8x2304x24, q⟩]
        concatenates_S4x8x2304x24_S4x8x2304x24_S4x8x2304x48_d3 (ix4 b h n d)
      = p (ix4 b h n (⟨d.val, hd⟩ : Fin 24)) := by
  refine concatenate_pair_apply_left 3 p q _ (ix4 b h n d) rfl _ (fun c => ?_)
  match c with
  | ⟨0, _⟩ => rfl
  | ⟨1, _⟩ => rfl
  | ⟨2, _⟩ => rfl
  | ⟨3, _⟩ => rfl

/-- A lane from 24 up reads the second array, 24 lanes lower. -/
theorem concat_hi {α : Type} (p q : S4x8x2304x24.Idx → α) (b : Fin 4) (h : Fin 8) (n : Fin 2304) (d : Fin 48)
    (hd : ¬ d.val < 24) :
    concatenate S4x8x2304x48 3 [⟨S4x8x2304x24, p⟩, ⟨S4x8x2304x24, q⟩]
        concatenates_S4x8x2304x24_S4x8x2304x24_S4x8x2304x48_d3 (ix4 b h n d)
      = q (ix4 b h n (⟨d.val - 24, by have := d.isLt; omega⟩ : Fin 24)) := by
  refine concatenate_pair_apply_right 3 p q _ (ix4 b h n d) rfl rfl _ (fun c hc => ?_) ?_
  · match c with
    | ⟨0, _⟩ => rfl
    | ⟨1, _⟩ => rfl
    | ⟨2, _⟩ => rfl
    | ⟨3, _⟩ => exact absurd rfl hc
  · show d.val - 24 + 24 = d.val
    omega

/-- The upper half of the lanes: lane `d` of the slice is lane `d + 24` of the array. -/
theorem slice_hi_apply {α : Type} (T : S4x8x2304x48.Idx → α) (b : Fin 4) (h : Fin 8) (n : Fin 2304) (d : Fin 24) :
    extractStridedSlice S4x8x2304x24 ![0, 0, 0, 24] T slices_S4x8x2304x48_S4x8x2304x24_0_0_0_24 (ix4 b h n d)
      = T (ix4 b h n (⟨d.val + 24, by have := d.isLt; omega⟩ : Fin 48)) :=
  extractStridedSlice_apply ![0, 0, 0, 24] T slices_S4x8x2304x48_S4x8x2304x24_0_0_0_24 (ix4 b h n d) _ (fun a =>
    match a with
    | ⟨0, _⟩ => by show b.val = 0 + b.val; omega
    | ⟨1, _⟩ => by show h.val = 0 + h.val; omega
    | ⟨2, _⟩ => by show n.val = 0 + n.val; omega
    | ⟨3, _⟩ => by show d.val + 24 = 24 + d.val; omega)

/-- The lower half of the lanes: lane `d` of the slice is lane `d` of the array. -/
theorem slice_lo_apply {α : Type} (T : S4x8x2304x48.Idx → α) (b : Fin 4) (h : Fin 8) (n : Fin 2304) (d : Fin 24) :
    extractStridedSlice S4x8x2304x24 ![0, 0, 0, 0] T slices_S4x8x2304x48_S4x8x2304x24_0_0_0_0 (ix4 b h n d)
      = T (ix4 b h n (⟨d.val, by have := d.isLt; omega⟩ : Fin 48)) :=
  extractStridedSlice_apply ![0, 0, 0, 0] T slices_S4x8x2304x48_S4x8x2304x24_0_0_0_0 (ix4 b h n d) _ (fun a =>
    match a with
    | ⟨0, _⟩ => by show b.val = 0 + b.val; omega
    | ⟨1, _⟩ => by show h.val = 0 + h.val; omega
    | ⟨2, _⟩ => by show n.val = 0 + n.val; omega
    | ⟨3, _⟩ => by show d.val = 0 + d.val; omega)

/-- The reference's rotate-half of a head array. -/
def rotArr (T : TH) : TH :=
  concatenate S4x8x2304x48 3
    [⟨S4x8x2304x24, Host.negf (F := Ideal) (s := S4x8x2304x24) (φ := .f32)
        (extractStridedSlice S4x8x2304x24 ![0, 0, 0, 24] T slices_S4x8x2304x48_S4x8x2304x24_0_0_0_24)⟩,
     ⟨S4x8x2304x24, extractStridedSlice S4x8x2304x24 ![0, 0, 0, 0] T slices_S4x8x2304x48_S4x8x2304x24_0_0_0_0⟩]
    concatenates_S4x8x2304x24_S4x8x2304x24_S4x8x2304x48_d3

/-- At a coordinate it is the specification's rotate-half of the 48-lane vector there. -/
theorem rotArr_apply (T : TH) (b : Fin 4) (h : Fin 8) (n : Fin 2304) (d : Fin 48) :
    rotArr T (ix4 b h n d) = Attn.rot (fun d' => T (ix4 b h n d')) d := by
  unfold rotArr Attn.rot
  by_cases hd : d.val < 24
  · rw [dif_pos hd]
    exact (concat_lo _ _ b h n d hd).trans
      (congrArg (fun z : Ideal .f32 => -z) (slice_hi_apply T b h n (⟨d.val, hd⟩ : Fin 24)))
  · rw [dif_neg hd]
    exact (concat_hi _ _ b h n d hd).trans (slice_lo_apply T b h n _)

/-! ## The rotary embedding -/

/-- The reference's rotary embedding of a head array by the two tables. -/
def ropeArr (T : TH) (x1 x2 : TT) : TH :=
  addf (F := Ideal) (s := S4x8x2304x48) (φ := .f32)
    (mulf (F := Ideal) (s := S4x8x2304x48) (φ := .f32) T (val_main_v18 (F := Ideal) x1))
    (mulf (F := Ideal) (s := S4x8x2304x48) (φ := .f32) (rotArr T) (val_main_v24 (F := Ideal) x2))

/-- At a coordinate it is the specification's rotary embedding of the 48-lane vector there by row `n` of the tables. -/
theorem ropeArr_apply (T : TH) (x1 x2 : TT) (b : Fin 4) (h : Fin 8) (n : Fin 2304) (d : Fin 48) :
    ropeArr T x1 x2 (ix4 b h n d) = Attn.rope (fun d' => T (ix4 b h n d')) (Attn.mat2 x1 n) (Attn.mat2 x2 n) d := by
  unfold ropeArr Attn.rope
  rw [addf_apply, mulf_apply, mulf_apply, cos_apply, sin_apply, rotArr_apply]

/-- The rotated queries are the rotary embedding of the query heads. -/
theorem v26_eq (x0 : TA) (x1 x2 : TT) (x3 : TW) (x6 : TB) :
    val_main_v26 (F := Ideal) x0 x1 x2 x3 x6 = ropeArr (val_main_v11 (F := Ideal) x0 x3 x6) x1 x2 := rfl

/-- The rotated keys are the rotary embedding of the key heads. -/
theorem v35_eq (x0 : TA) (x1 x2 : TT) (x4 : TW) :
    val_main_v35 (F := Ideal) x0 x1 x2 x4 = ropeArr (val_main_v13 (F := Ideal) x0 x4) x1 x2 := rfl

end Cert.ReferenceIdeal.RefSpec

end
-- ==== Proof.RefAttn.lean ====
/-
  The attention of the reference, read at a coordinate, as a function of its three head arrays.

  For each batch and head the reference forms the scores of every query row against every key row (one dot product
  over the 48 lanes, the query scaled first), takes each query row's largest score, subtracts it and exponentiates,
  sums each row of exponentials, divides every exponential by its row's sum, and averages the value rows with those
  weights. The three head arrays stay unopened here: only their entries at a coordinate appear.
-/
import proofs.«138608_j36636071035070_2_alg».proof.Proof.RefTypes
import Idealize.ShloMosaic.Lib.IdealHost
import Idealize.ShloMosaic.PureOps.Reduce

noncomputable section

open scoped BigOperators

namespace Cert.ReferenceIdeal.RefSpec

open Cert Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The reference's rotated queries as a function of coordinates. -/
def Qr (x0 : TA) (x1 x2 : TT) (x3 : TW) (x6 : TB) : Attn.Heads := Attn.heads4 (val_main_v26 (F := Ideal) x0 x1 x2 x3 x6)
/-- The reference's rotated keys as a function of coordinates. -/
def Kr (x0 : TA) (x1 x2 : TT) (x4 : TW) : Attn.Heads := Attn.heads4 (val_main_v35 (F := Ideal) x0 x1 x2 x4)
/-- The reference's values as a function of coordinates. -/
def Vr (x0 : TA) (x5 : TW) (x7 : TB) : Attn.Heads := Attn.heads4 (val_main_v15 (F := Ideal) x0 x5 x7)

/-! ## Scores -/

theorem lidx_score (b : Fin 4) (h : Fin 8) (n m : Fin 2304) (k : Fin 48) :
    lidx_main_v38 (ix4 b h n m) k = ix4 b h n k := by
  funext a; apply Fin.ext
  match a with
  | ⟨0, _⟩ => rfl
  | ⟨1, _⟩ => rfl
  | ⟨2, _⟩ => rfl
  | ⟨3, _⟩ => rfl

theorem ridx_score (b : Fin 4) (h : Fin 8) (n m : Fin 2304) (k : Fin 48) :
    ridx_main_v38 (ix4 b h n m) k = ix4 b h m k := by
  funext a; apply Fin.ext
  match a with
  | ⟨0, _⟩ => rfl
  | ⟨1, _⟩ => rfl
  | ⟨2, _⟩ => rfl
  | ⟨3, _⟩ => rfl

/-- The score of query row `n` against key row `m`: the scaled query row dotted with the key row. -/
theorem score_apply (x0 : TA) (x1 x2 : TT) (x3 x4 : TW) (x6 : TB) (b : Fin 4) (h : Fin 8) (n m : Fin 2304) :
    val_main_v38 (F := Ideal) x0 x1 x2 x3 x4 x6 (ix4 b h n m)
      = Attn.score (Qr x0 x1 x2 x3 x6) (Kr x0 x1 x2 x4) b h n m := by
  rw [val_main_v38_apply]
  simp only [lidx_score, ridx_score, val_main_v37_apply, val_main_v36_apply, val_main_cst_apply]
  rfl

/-! ## The row maximum -/

/-- The binary word of minus infinity is the bottom element. -/
theorem negInf_eq_bot : Ideal.ofBits .f32 0xFF800000#32 = (⊥ : EReal) := by
  simp [Ideal.ofBits, Ideal.ieee]

/-- The reduced index with the coordinate `k` put back on the last axis. -/
theorem lift_last (hr : S4x8x2304x2304.Reduces [3] S4x8x2304) (b : Fin 4) (h : Fin 8) (n : Fin 2304)
    (k : Fin (S4x8x2304x2304.size 3)) : hr.lift (ix3 b h n) k = ix4 b h n (⟨k.val, k.isLt⟩ : Fin 2304) := by
  funext c; apply Fin.ext
  fin_cases c <;> rfl

/-- A maximum-reduce over the last axis is, at (b, h, n), the fold of `max` over that row from the initial element. -/
theorem reduce_max_apply (x : S4x8x2304x2304.Idx → Ideal .f32) (init : S_.Idx → Ideal .f32) (b : Fin 4) (h : Fin 8)
    (n : Fin 2304) :
    Host.reduce FloatOps.maximumf x init reducesTo_S4x8x2304x2304_S4x8x2304_d3 h_S_ (ix3 b h n)
      = (Finset.univ : Finset (Fin 2304)).fold max (init (Shape.Idx.first h_S_)) (fun m => x (ix4 b h n m)) := by
  have hr : S4x8x2304x2304.Reduces [3] S4x8x2304 := by decide
  rw [Host.reduce_eq_fold_single FloatOps.maximumf x init reducesTo_S4x8x2304x2304_S4x8x2304_d3 hr h_S_ (ix3 b h n)]
  have hf : (x ∘ hr.lift (ix3 b h n)) = fun m : Fin 2304 => x (ix4 b h n m) :=
    funext fun k => congrArg x (lift_last hr b h n k)
  exact congrArg (fun f => Finset.fold max (init (Shape.Idx.first h_S_)) f (Finset.univ : Finset (Fin 2304))) hf

/-- A query row's largest score. The reference folds from minus infinity and takes the maximum with minus infinity
    once more; both are the bottom element, so neither changes the fold from the bottom. -/
theorem rowMax_apply (x0 : TA) (x1 x2 : TT) (x3 x4 : TW) (x6 : TB) (b : Fin 4) (h : Fin 8) (n : Fin 2304) :
    val_main_v41 (F := Ideal) x0 x1 x2 x3 x4 x6 (ix3 b h n)
      = Attn.rowMax (Qr x0 x1 x2 x3 x6) (Kr x0 x1 x2 x4) b h n := by
  rw [val_main_v41_apply, val_main_v40_apply, val_main_cst_1_apply]
  unfold val_main_v39
  refine (congrArg (FloatOps.maximumf (F := Ideal) (FloatOps.ofBits .f32 0xFF800000#32))
    (reduce_max_apply _ _ b h n)).trans ?_
  simp only [val_main_cst_0_apply, Ideal.ofBits_def, Ideal.maximumf_def, negInf_eq_bot, score_apply]
  exact max_eq_right bot_le

/-! ## Exponentials, their row sums, and the weights -/

theorem idx_row (b : Fin 4) (h : Fin 8) (n m : Fin 2304) :
    idx_main_v42 (idx_main_v43 (ix4 b h n m)) = ix3 b h n := by
  funext a; apply Fin.ext
  match a with
  | ⟨0, _⟩ => rfl
  | ⟨1, _⟩ => rfl
  | ⟨2, _⟩ => rfl

/-- The unnormalised weight: the exponential of the score less its row's maximum. -/
theorem expo_apply (x0 : TA) (x1 x2 : TT) (x3 x4 : TW) (x6 : TB) (b : Fin 4) (h : Fin 8) (n m : Fin 2304) :
    val_main_v45 (F := Ideal) x0 x1 x2 x3 x4 x6 (ix4 b h n m)
      = Attn.expo (Qr x0 x1 x2 x3 x6) (Kr x0 x1 x2 x4) b h n m := by
  rw [val_main_v45_apply, val_main_v44_apply, val_main_v43_apply, val_main_v42_apply, idx_row, score_apply,
    rowMax_apply]
  rfl

theorem idx_sum (b : Fin 4) (h : Fin 8) (n : Fin 2304) (k : Fin 2304) : idx_main_v46 (ix3 b h n) k = ix4 b h n k := by
  funext a; apply Fin.ext
  match a with
  | ⟨0, _⟩ => rfl
  | ⟨1, _⟩ => rfl
  | ⟨2, _⟩ => rfl
  | ⟨3, _⟩ => rfl

/-- The softmax denominator: the row sum of the exponentials (the sum starts from zero). -/
theorem denom_apply (x0 : TA) (x1 x2 : TT) (x3 x4 : TW) (x6 : TB) (b : Fin 4) (h : Fin 8) (n : Fin 2304) :
    val_main_v46 (F := Ideal) x0 x1 x2 x3 x4 x6 (ix3 b h n)
      = Attn.denom (Qr x0 x1 x2 x3 x6) (Kr x0 x1 x2 x4) b h n := by
  rw [val_main_v46_apply]
  simp only [idx_sum, expo_apply, val_main_cst_2_apply, Ideal.ofBits_def]
  rw [Ideal.ofBits_zero_f32, zero_add]
  rfl

theorem idx_row' (b : Fin 4) (h : Fin 8) (n m : Fin 2304) :
    idx_main_v47 (idx_main_v48 (ix4 b h n m)) = ix3 b h n :=
  idx_row b h n m

/-- The softmax weight: the exponential divided by its row's sum. -/
theorem weight_apply (x0 : TA) (x1 x2 : TT) (x3 x4 : TW) (x6 : TB) (b : Fin 4) (h : Fin 8) (n m : Fin 2304) :
    val_main_v49 (F := Ideal) x0 x1 x2 x3 x4 x6 (ix4 b h n m)
      = Ideal.div (Attn.expo (Qr x0 x1 x2 x3 x6) (Kr x0 x1 x2 x4) b h n m)
          (Attn.denom (Qr x0 x1 x2 x3 x6) (Kr x0 x1 x2 x4) b h n) := by
  rw [val_main_v49_apply, val_main_v48_apply, val_main_v47_apply, idx_row', expo_apply, denom_apply]
  rfl

/-! ## The weighted sum of the value rows -/

theorem lidx_av (b : Fin 4) (h : Fin 8) (n : Fin 2304) (d : Fin 48) (k : Fin 2304) :
    lidx_main_v50 (ix4 b h n d) k = ix4 b h n k := by
  funext a; apply Fin.ext
  match a with
  | ⟨0, _⟩ => rfl
  | ⟨1, _⟩ => rfl
  | ⟨2, _⟩ => rfl
  | ⟨3, _⟩ => rfl

theorem ridx_av (b : Fin 4) (h : Fin 8) (n : Fin 2304) (d : Fin 48) (k : Fin 2304) :
    ridx_main_v50 (ix4 b h n d) k = ix4 b h k d := by
  funext a; apply Fin.ext
  match a with
  | ⟨0, _⟩ => rfl
  | ⟨1, _⟩ => rfl
  | ⟨2, _⟩ => rfl
  | ⟨3, _⟩ => rfl

/-- The attention output: the value rows averaged with the normalised weights. -/
theorem attn_apply (x0 : TA) (x1 x2 : TT) (x3 x4 x5 : TW) (x6 x7 : TB) (b : Fin 4) (h : Fin 8) (n : Fin 2304)
    (d : Fin 48) :
    val_main_v50 (F := Ideal) x0 x1 x2 x3 x4 x5 x6 x7 (ix4 b h n d)
      = Attn.attnR (Qr x0 x1 x2 x3 x6) (Kr x0 x1 x2 x4) (Vr x0 x5 x7) b h n d := by
  rw [val_main_v50_apply]
  simp only [lidx_av, ridx_av, weight_apply]
  rfl

end Cert.ReferenceIdeal.RefSpec

end
-- ==== Proof.RefOut.lean ====
/-
  The merge of heads and the output projection of the reference, read at a coordinate.

  The attention output is moved back to (batch, position, head, lane) and its last two axes are read as one axis of
  384 merged columns: column `e` is lane `e % 48` of head `e / 48`. Each of the 768 output channels is then the dot
  product of a position's 384 merged columns with one row of the output weights, plus that channel's bias. The
  attention output stays unopened here: only its entries at a coordinate appear.
-/
import proofs.«138608_j36636071035070_2_alg».proof.Proof.RefTypes

noncomputable section

open scoped BigOperators

namespace Cert.ReferenceIdeal.RefSpec

open Cert Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The reference's attention output as a function of coordinates. -/
def Oref (x0 : TA) (x1 x2 : TT) (x3 x4 x5 : TW) (x6 x7 : TB) : Attn.Heads :=
  Attn.heads4 (val_main_v50 (F := Ideal) x0 x1 x2 x3 x4 x5 x6 x7)

/-! ## The merged columns -/

/-- Merged column `e` at position `n` is lane `e % 48` of head `e / 48`. -/
theorem idx_merge (b : Fin 4) (n : Fin 2304) (e : Fin 384) :
    idx_main_v52 (ix3 b n e) = ix4 b n (Attn.headOf e) (Attn.laneOf e) := by
  have hb := b.isLt; have hn := n.isLt; have he := e.isLt
  funext a; apply Fin.ext
  match a with
  | ⟨0, _⟩ => show ((b.val * 2304 + n.val) * 384 + e.val) / 884736 = b.val; omega
  | ⟨1, _⟩ => show ((b.val * 2304 + n.val) * 384 + e.val) / 384 % 2304 = n.val; omega
  | ⟨2, _⟩ => show ((b.val * 2304 + n.val) * 384 + e.val) / 48 % 8 = e.val / 48; omega
  | ⟨3, _⟩ => show ((b.val * 2304 + n.val) * 384 + e.val) % 48 = e.val % 48; omega

/-- Moving the position axis back in front of the head axis. -/
theorem idx_unswap (b : Fin 4) (n : Fin 2304) (h : Fin 8) (d : Fin 48) : idx_main_v51 (ix4 b n h d) = ix4 b h n d := by
  funext a; apply Fin.ext
  match a with
  | ⟨0, _⟩ => rfl
  | ⟨1, _⟩ => rfl
  | ⟨2, _⟩ => rfl
  | ⟨3, _⟩ => rfl

theorem merged_apply (x0 : TA) (x1 x2 : TT) (x3 x4 x5 : TW) (x6 x7 : TB) (b : Fin 4) (n : Fin 2304) (e : Fin 384) :
    val_main_v52 (F := Ideal) x0 x1 x2 x3 x4 x5 x6 x7 (ix3 b n e)
      = Oref x0 x1 x2 x3 x4 x5 x6 x7 b (Attn.headOf e) n (Attn.laneOf e) := by
  rw [val_main_v52_apply, idx_merge, val_main_v51_apply, idx_unswap]
  rfl

/-! ## The output projection -/

theorem lidx_out (b : Fin 4) (n : Fin 2304) (c : Fin 768) (k : Fin 384) : lidx_main_v53 (ix3 b n c) k = ix3 b n k := by
  funext a; apply Fin.ext
  match a with
  | ⟨0, _⟩ => rfl
  | ⟨1, _⟩ => rfl
  | ⟨2, _⟩ => rfl

theorem ridx_out (b : Fin 4) (n : Fin 2304) (c : Fin 768) (k : Fin 384) : ridx_main_v53 (ix3 b n c) k = ix2 c k := by
  funext a; apply Fin.ext
  match a with
  | ⟨0, _⟩ => rfl
  | ⟨1, _⟩ => rfl

theorem idx_obias (b : Fin 4) (n : Fin 2304) (c : Fin 768) : idx_main_v54 (idx_main_v55 (ix3 b n c)) = ix1 c := by
  funext a; apply Fin.ext
  match a with
  | ⟨0, _⟩ => rfl

/-- Channel `c` of the result at position `n`: the merged columns dotted with output weight row `c`, plus the bias. -/
theorem out_apply (x0 : TA) (x1 x2 : TT) (x3 x4 x5 : TW) (x6 x7 : TB) (x8 : TP) (x9 : TC) (b : Fin 4) (n : Fin 2304)
    (c : Fin 768) :
    val_main_v56 (F := Ideal) x0 x1 x2 x3 x4 x5 x6 x7 x8 x9 (ix3 b n c)
      = Attn.outp (Oref x0 x1 x2 x3 x4 x5 x6 x7) (Attn.mat2 x8) (Attn.vec1 x9) b n c := by
  rw [val_main_v56_apply, val_main_v53_apply, val_main_v55_apply, val_main_v54_apply, idx_obias]
  simp only [lidx_out, ridx_out, merged_apply]
  rfl

end Cert.ReferenceIdeal.RefSpec

end
-- ==== Proof.RefEq.lean ====
/-
  The reference's result is the specification with the early division.

  The stages are put together: the rotated query and key heads and the value heads are the specification's head
  arrays of the argument arrays; the attention of those is the specification's attention with each weight normalised
  before the weighted sum; the output projection of that, with its two spatial axes restored, is the whole result.
-/
import proofs.«138608_j36636071035070_2_alg».proof.Proof.RefProj
import proofs.«138608_j36636071035070_2_alg».proof.Proof.RefRope
import proofs.«138608_j36636071035070_2_alg».proof.Proof.RefAttn
import proofs.«138608_j36636071035070_2_alg».proof.Proof.RefOut

noncomputable section

open scoped BigOperators

namespace Cert.ReferenceIdeal.RefSpec

open Cert Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : TA) (x1 x2 : TT) (x3 x4 x5 : TW) (x6 x7 : TB) (x8 : TP) (x9 : TC)

/-! ## The three head arrays -/

/-- The rotated query heads at a coordinate. -/
theorem stageQ (b : Fin 4) (h : Fin 8) (n : Fin 2304) (d : Fin 48) :
    val_main_v26 (F := Ideal) x0 x1 x2 x3 x6 (ix4 b h n d) = Attn.Qof x0 x1 x2 x3 x6 b h n d := by
  rw [v26_eq, ropeArr_apply]
  simp only [preQ]
  rfl

/-- The rotated key heads at a coordinate. -/
theorem stageK (b : Fin 4) (h : Fin 8) (n : Fin 2304) (d : Fin 48) :
    val_main_v35 (F := Ideal) x0 x1 x2 x4 (ix4 b h n d) = Attn.Kof x0 x1 x2 x4 b h n d := by
  rw [v35_eq, ropeArr_apply]
  simp only [preK]
  rfl

theorem Qr_eq : Qr x0 x1 x2 x3 x6 = Attn.Qof x0 x1 x2 x3 x6 := by
  funext b h n d; exact stageQ x0 x1 x2 x3 x6 b h n d

theorem Kr_eq : Kr x0 x1 x2 x4 = Attn.Kof x0 x1 x2 x4 := by
  funext b h n d; exact stageK x0 x1 x2 x4 b h n d

theorem Vr_eq : Vr x0 x5 x7 = Attn.Vof x0 x5 x7 := by
  funext b h n d; exact stageV x0 x5 x7 b h n d

/-- The rotated queries, as a whole array. -/
theorem v26_whole :
    val_main_v26 (F := Ideal) x0 x1 x2 x3 x6 = fun i => Attn.Qof x0 x1 x2 x3 x6 (i 0) (i 1) (i 2) (i 3) := by
  funext i
  obtain ⟨b, h, n, d, rfl⟩ : ∃ (b : Fin 4) (h : Fin 8) (n : Fin 2304) (d : Fin 48), i = ix4 b h n d :=
    ⟨i 0, i 1, i 2, i 3, eq_ix4 i⟩
  exact stageQ x0 x1 x2 x3 x6 b h n d

/-- The rotated keys, as a whole array. -/
theorem v35_whole :
    val_main_v35 (F := Ideal) x0 x1 x2 x4 = fun i => Attn.Kof x0 x1 x2 x4 (i 0) (i 1) (i 2) (i 3) := by
  funext i
  obtain ⟨b, h, n, d, rfl⟩ : ∃ (b : Fin 4) (h : Fin 8) (n : Fin 2304) (d : Fin 48), i = ix4 b h n d :=
    ⟨i 0, i 1, i 2, i 3, eq_ix4 i⟩
  exact stageK x0 x1 x2 x4 b h n d

/-- The values, as a whole array. -/
theorem v15_whole :
    val_main_v15 (F := Ideal) x0 x5 x7 = fun i => Attn.Vof x0 x5 x7 (i 0) (i 1) (i 2) (i 3) := by
  funext i
  obtain ⟨b, h, n, d, rfl⟩ : ∃ (b : Fin 4) (h : Fin 8) (n : Fin 2304) (d : Fin 48), i = ix4 b h n d :=
    ⟨i 0, i 1, i 2, i 3, eq_ix4 i⟩
  exact stageV x0 x5 x7 b h n d

/-! ## The attention -/

/-- The attention output at a coordinate, in the specification's head arrays. -/
theorem stageAttn (b : Fin 4) (h : Fin 8) (n : Fin 2304) (d : Fin 48) :
    val_main_v50 (F := Ideal) x0 x1 x2 x3 x4 x5 x6 x7 (ix4 b h n d)
      = Attn.attnR (Attn.Qof x0 x1 x2 x3 x6) (Attn.Kof x0 x1 x2 x4) (Attn.Vof x0 x5 x7) b h n d := by
  rw [attn_apply, Qr_eq, Kr_eq, Vr_eq]

theorem Oref_eq :
    Oref x0 x1 x2 x3 x4 x5 x6 x7 = Attn.attnR (Attn.Qof x0 x1 x2 x3 x6) (Attn.Kof x0 x1 x2 x4) (Attn.Vof x0 x5 x7) := by
  funext b h n d; exact stageAttn x0 x1 x2 x3 x4 x5 x6 x7 b h n d

/-- The attention output, as a whole array. -/
theorem v50_whole :
    val_main_v50 (F := Ideal) x0 x1 x2 x3 x4 x5 x6 x7
      = fun i => Attn.attnR (Attn.Qof x0 x1 x2 x3 x6) (Attn.Kof x0 x1 x2 x4) (Attn.Vof x0 x5 x7) (i 0) (i 1) (i 2) (i 3) := by
  funext i
  obtain ⟨b, h, n, d, rfl⟩ : ∃ (b : Fin 4) (h : Fin 8) (n : Fin 2304) (d : Fin 48), i = ix4 b h n d :=
    ⟨i 0, i 1, i 2, i 3, eq_ix4 i⟩
  exact stageAttn x0 x1 x2 x3 x4 x5 x6 x7 b h n d

/-! ## The output projection and the whole result -/

/-- The projected result before its spatial axes are restored, as a whole array. -/
theorem v56_whole :
    val_main_v56 (F := Ideal) x0 x1 x2 x3 x4 x5 x6 x7 x8 x9
      = fun i => Attn.outp (Attn.attnR (Attn.Qof x0 x1 x2 x3 x6) (Attn.Kof x0 x1 x2 x4) (Attn.Vof x0 x5 x7))
          (Attn.mat2 x8) (Attn.vec1 x9) (i 0) (i 1) (i 2) := by
  funext i
  obtain ⟨b, n, c, rfl⟩ : ∃ (b : Fin 4) (n : Fin 2304) (c : Fin 768), i = ix3 b n c := ⟨i 0, i 1, i 2, eq_ix3 i⟩
  exact (out_apply x0 x1 x2 x3 x4 x5 x6 x7 x8 x9 b n c).trans
    (congrArg (fun O => Attn.outp O (Attn.mat2 x8) (Attn.vec1 x9) b n c) (Oref_eq x0 x1 x2 x3 x4 x5 x6 x7))

/-- The reference's result, as a function of the argument arrays, is the specification with the early division. -/
theorem ref_eq :
    val_main_v57 (F := Ideal) x0 x1 x2 x3 x4 x5 x6 x7 x8 x9 = Attn.GR x0 x1 x2 x3 x4 x5 x6 x7 x8 x9 := by
  unfold val_main_v57 Attn.GR
  rw [v56_whole]

end Cert.ReferenceIdeal.RefSpec

namespace Cert.ReferenceIdeal.RefSpec

open Cert Cert.ReferenceIdeal Cert.ReferenceIdeal.Read Idealize.ShloMosaic

/-- The same statement with the argument arrays typed as the specification types them. -/
theorem ref_eq' (x0 : Attn.SA.Idx → EReal) (x1 x2 : Attn.ST.Idx → EReal) (x3 x4 x5 : Attn.SW.Idx → EReal)
    (x6 x7 : Attn.SB.Idx → EReal) (x8 : Attn.SP.Idx → EReal) (x9 : Attn.SC.Idx → EReal) :
    val_main_v57 (F := Ideal) x0 x1 x2 x3 x4 x5 x6 x7 x8 x9 = Attn.GR x0 x1 x2 x3 x4 x5 x6 x7 x8 x9 :=
  ref_eq x0 x1 x2 x3 x4 x5 x6 x7 x8 x9

end Cert.ReferenceIdeal.RefSpec

end
-- ==== Proof.lean ====
/-
  An attention block with rotary position embedding, computed by three chained kernels, equals its plain reference
  on the extended reals whenever every input is finite.

  The first kernel projects each tile of token rows to queries, keys and values (the query and value projections with
  a bias), reads the 384 output columns as 8 heads of 48 lanes and rotates the query and key heads by the rotary
  tables; the second, for one head and one tile of query rows, takes the scaled scores against all key rows, subtracts
  the row maximum, exponentiates, and divides the weighted sum of value rows by the sum of the weights; the third
  merges the heads back to 384 columns and applies the output projection with its bias. The reference computes the
  same projections, rotation and scores, but normalises every softmax weight before the weighted sum. Both programs
  use one and the same binary word for the score scale, so it is never evaluated. With real scores the softmax
  denominator is a positive real number, division by it is multiplication by a nonnegative finite factor, and such a
  factor distributes over any sum of extended reals: the two placements of the division agree. The scores are real
  because the image, the rotary tables, the query and key weights and the query bias are finite, which is what the
  precondition says. Narrowing between float formats is the identity at the ideal instance, `0 - t` is `-t`, and
  a maximum taken once more against the bottom element is unchanged.

  The three frames are the programs' generated runs; the ideal pass rewrote no operation, so `preserves` is trivial.
-/
import proofs.«138608_j36636071035070_2_alg».proof.Defs
import proofs.«138608_j36636071035070_2_alg».proof.Proof.Gen.Kernel
import proofs.«138608_j36636071035070_2_alg».proof.Proof.Gen.Kernel.Skeleton
import proofs.«138608_j36636071035070_2_alg».proof.Proof.Gen.Kernel.Launch
import proofs.«138608_j36636071035070_2_alg».proof.Proof.Gen.Kernel.Points
import proofs.«138608_j36636071035070_2_alg».proof.Proof.Gen.Kernel.Frame
import proofs.«138608_j36636071035070_2_alg».proof.Proof.Gen.KernelIdeal
import proofs.«138608_j36636071035070_2_alg».proof.Proof.Gen.KernelIdeal.Skeleton
import proofs.«138608_j36636071035070_2_alg».proof.Proof.Gen.KernelIdeal.Launch
import proofs.«138608_j36636071035070_2_alg».proof.Proof.Gen.KernelIdeal.Points
import proofs.«138608_j36636071035070_2_alg».proof.Proof.Gen.KernelIdeal.Frame
import proofs.«138608_j36636071035070_2_alg».proof.Proof.Gen.ReferenceIdeal
import proofs.«138608_j36636071035070_2_alg».proof.Proof.Gen.Pre_finite_inputs
import proofs.«138608_j36636071035070_2_alg».proof.Proof.Gen.ReferenceIdeal.Run
import proofs.«138608_j36636071035070_2_alg».proof.Proof.Gen.ReferenceIdeal.Read
import proofs.«138608_j36636071035070_2_alg».proof.Proof.Assemble
import proofs.«138608_j36636071035070_2_alg».proof.Proof.KernelValue
import proofs.«138608_j36636071035070_2_alg».proof.Proof.RegionQKVArray
import proofs.«138608_j36636071035070_2_alg».proof.Proof.RegionAttn
import proofs.«138608_j36636071035070_2_alg».proof.Proof.RefEq
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)
/-- The ideal pass rewrote nothing. -/
theorem preserves : Cert.preserves_Kernel_KernelIdeal := trivial
/-- The two idealized programs end with equal results: the kernel program's result is the late-division
    specification (the three regions' values chained through the host operations), the reference's the early-division
    one, and under the precondition they are one array. -/
theorem algebraic : Cert.algebraic_KernelIdeal_ReferenceIdeal :=
  Assemble.algebraic_of
    (fun m ρ c => Cert.KernelIdeal.KernelValue.kernel_value m ρ c Cert.KernelIdeal.QKV.q_final Cert.KernelIdeal.QKV.k_final
      Cert.KernelIdeal.QKV.v_final Cert.KernelIdeal.AttnR1.attn_final)
    Cert.ReferenceIdeal.RefSpec.ref_eq'

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
